-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S2000000 : Shape := ⟨1, ![2000000]⟩
abbrev S50000x64 : Shape := ⟨2, ![50000, 64]⟩
abbrev S150000x64 : Shape := ⟨2, ![150000, 64]⟩
abbrev S64x64 : Shape := ⟨2, ![64, 64]⟩
abbrev S1x64 : Shape := ⟨2, ![1, 64]⟩
abbrev S64x32 : Shape := ⟨2, ![64, 32]⟩
abbrev S1x32 : Shape := ⟨2, ![1, 32]⟩
abbrev S32x16 : Shape := ⟨2, ![32, 16]⟩
abbrev S1x16 : Shape := ⟨2, ![1, 16]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S150000x64 : S_.BroadcastsInDim S150000x64 (![] : Fin 0 → Fin S150000x64.rank)
  reducesTo_S150000x64_S_d0_1 : S150000x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_
  bcast_S_S32x16 : S_.BroadcastsInDim S32x16 (![] : Fin 0 → Fin S32x16.rank)
  reducesTo_S32x16_S_d0_1 : S32x16.ReducesTo [0, 1] S_
  bcast_S_S1x16 : S_.BroadcastsInDim S1x16 (![] : Fin 0 → Fin S1x16.rank)
  reducesTo_S1x16_S_d0_1 : S1x16.ReducesTo [0, 1] S_

variable [Facts]

def fn_part4 {F : FTy → Type} [FloatOps F] (main_arg19 : FVec F S1x16 .f32) (main_v63 : IVec S_ 1) (main_v67 : IVec S_ 1) : IVec S_ 1 :=
  let main_v68 : IVec S_ 1 := andi main_v63 main_v67
  let main_v69 : FVec F S1x16 .f32 := Host.absf main_arg19
  let main_cst_26 : FVec F S_ .f32 := constant S_ .f32 0x7F800000#32
  let main_v70 : FVec F S1x16 .f32 := broadcastInDim S1x16 ![] bcast_S_S1x16 main_cst_26
  let main_v71 : IVec S1x16 1 := cmpf .olt main_v69 main_v70
  let main_c_27 : IVec S_ 1 := constantI S_ 1 1#1
  let main_v72 : IVec S_ 1 := (fun x v => Host.reduce IntOp.andi x v reducesTo_S1x16_S_d0_1 h_S_) main_v71 main_c_27
  let main_v73 : IVec S_ 1 := andi main_v68 main_v72
  main_v73

def fn_part3 {F : FTy → Type} [FloatOps F] (main_arg16 : FVec F S32x16 .f32) (main_arg17 : FVec F S1x16 .f32) (main_arg18 : FVec F S32x16 .f32) (main_arg19 : FVec F S1x16 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S32x16 .f32 := Host.absf main_arg16
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S1x16 .f32 := Host.absf main_arg17
  let main_cst_22 : FVec F S_ .f32 := constant S_ .f32 0x7F800000#32
  let main_v60 : FVec F S1x16 .f32 := broadcastInDim S1x16 ![] bcast_S_S1x16 main_cst_22
  let main_v61 : IVec S1x16 1 := cmpf .olt main_v59 main_v60
  let main_c_23 : IVec S_ 1 := constantI S_ 1 1#1
  let main_v62 : IVec S_ 1 := (fun x v => Host.reduce IntOp.andi x v reducesTo_S1x16_S_d0_1 h_S_) main_v61 main_c_23
  let main_v63 : IVec S_ 1 := andi main_v58 main_v62
  let main_v64 : FVec F S32x16 .f32 := Host.absf main_arg18
  let main_cst_24 : FVec F S_ .f32 := constant S_ .f32 0x7F800000#32
  let main_v65 : FVec F S32x16 .f32 := broadcastInDim S32x16 ![] bcast_S_S32x16 main_cst_24
  let main_v66 : IVec S32x16 1 := cmpf .olt main_v64 main_v65
  let main_c_25 : IVec S_ 1 := constantI S_ 1 1#1
  let main_v67 : IVec S_ 1 := (fun x v => Host.reduce IntOp.andi x v reducesTo_S32x16_S_d0_1 h_S_) main_v66 main_c_25
  fn_part4 (F := F) main_arg19 main_v63 main_v67

def fn_part2 {F : FTy → Type} [FloatOps F] (main_arg12 : FVec F S64x32 .f32) (main_arg13 : FVec F S1x32 .f32) (main_arg14 : FVec F S64x32 .f32) (main_arg15 : FVec F S1x32 .f32) (main_arg16 : FVec F S32x16 .f32) (main_arg17 : FVec F S1x16 .f32) (main_arg18 : FVec F S32x16 .f32) (main_arg19 : FVec F S1x16 .f32) (main_v33 : IVec S_ 1) : IVec S_ 1 :=
  let main_v34 : FVec F S64x32 .f32 := Host.absf main_arg12
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S1x32 .f32 := Host.absf main_arg13
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S64x32 .f32 := Host.absf main_arg14
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S1x32 .f32 := Host.absf main_arg15
  let main_cst_18 : FVec F S_ .f32 := constant S_ .f32 0x7F800000#32
  let main_v50 : FVec F S1x32 .f32 := broadcastInDim S1x32 ![] bcast_S_S1x32 main_cst_18
  fn_part3 (F := F) main_arg16 main_arg17 main_arg18 main_arg19 main_v48 main_v49 main_v50

def fn_part1 {F : FTy → Type} [FloatOps F] (main_arg9 : FVec F S1x64 .f32) (main_arg10 : FVec F S64x64 .f32) (main_arg11 : FVec F S1x64 .f32) (main_arg12 : FVec F S64x32 .f32) (main_arg13 : FVec F S1x32 .f32) (main_arg14 : FVec F S64x32 .f32) (main_arg15 : FVec F S1x32 .f32) (main_arg16 : FVec F S32x16 .f32) (main_arg17 : FVec F S1x16 .f32) (main_arg18 : FVec F S32x16 .f32) (main_arg19 : FVec F S1x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1x64 .f32 := Host.absf main_arg9
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x64 .f32 := Host.absf main_arg10
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg11
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg12 main_arg13 main_arg14 main_arg15 main_arg16 main_arg17 main_arg18 main_arg19 main_v33

def fn {F : FTy → Type} [FloatOps F] (main_arg0 : IVec S8192 32) (main_arg1 : IVec S8192 32) (main_arg2 : IVec S8192 32) (main_arg3 : IVec S2000000 32) (main_arg4 : IVec S2000000 32) (main_arg5 : FVec F S2000000 .f32) (main_arg6 : FVec F S50000x64 .f32) (main_arg7 : FVec F S150000x64 .f32) (main_arg8 : FVec F S64x64 .f32) (main_arg9 : FVec F S1x64 .f32) (main_arg10 : FVec F S64x64 .f32) (main_arg11 : FVec F S1x64 .f32) (main_arg12 : FVec F S64x32 .f32) (main_arg13 : FVec F S1x32 .f32) (main_arg14 : FVec F S64x32 .f32) (main_arg15 : FVec F S1x32 .f32) (main_arg16 : FVec F S32x16 .f32) (main_arg17 : FVec F S1x16 .f32) (main_arg18 : FVec F S32x16 .f32) (main_arg19 : FVec F S1x16 .f32) : IVec S_ 1 :=
  let main_v0 : FVec F S2000000 .f32 := Host.absf main_arg5
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S50000x64 .f32 := Host.absf main_arg6
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S150000x64 .f32 := Host.absf main_arg7
  let main_cst_2 : FVec F S_ .f32 := constant S_ .f32 0x7F800000#32
  let main_v10 : FVec F S150000x64 .f32 := broadcastInDim S150000x64 ![] bcast_S_S150000x64 main_cst_2
  let main_v11 : IVec S150000x64 1 := cmpf .olt main_v9 main_v10
  let main_c_3 : IVec S_ 1 := constantI S_ 1 1#1
  let main_v12 : IVec S_ 1 := (fun x v => Host.reduce IntOp.andi x v reducesTo_S150000x64_S_d0_1 h_S_) main_v11 main_c_3
  let main_v13 : IVec S_ 1 := andi main_v8 main_v12
  let main_v14 : FVec F S64x64 .f32 := Host.absf main_arg8
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg9 main_arg10 main_arg11 main_arg12 main_arg13 main_arg14 main_arg15 main_arg16 main_arg17 main_arg18 main_arg19 main_v13 main_v16
-- ==== Kernel.lean ====
abbrev S8192 : Shape := ⟨1, ![8192]⟩
abbrev S2000000 : Shape := ⟨1, ![2000000]⟩
abbrev S50000x64 : Shape := ⟨2, ![50000, 64]⟩
abbrev S150000x64 : Shape := ⟨2, ![150000, 64]⟩
abbrev S64x64 : Shape := ⟨2, ![64, 64]⟩
abbrev S1x64 : Shape := ⟨2, ![1, 64]⟩
abbrev S64x32 : Shape := ⟨2, ![64, 32]⟩
abbrev S1x32 : Shape := ⟨2, ![1, 32]⟩
abbrev S32x16 : Shape := ⟨2, ![32, 16]⟩
abbrev S1x16 : Shape := ⟨2, ![1, 16]⟩
abbrev S200000x64 : Shape := ⟨2, ![200000, 64]⟩
abbrev S_ : Shape := ⟨0, ![]⟩
abbrev S2000000x1 : Shape := ⟨2, ![2000000, 1]⟩
abbrev S2000000x64 : Shape := ⟨2, ![2000000, 64]⟩
abbrev S5000x64 : Shape := ⟨2, ![5000, 64]⟩
abbrev S5000 : Shape := ⟨1, ![5000]⟩
abbrev S5000x1 : Shape := ⟨2, ![5000, 1]⟩
abbrev S200000x32 : Shape := ⟨2, ![200000, 32]⟩
abbrev S5000x32 : Shape := ⟨2, ![5000, 32]⟩
abbrev S2000000x32 : Shape := ⟨2, ![2000000, 32]⟩
abbrev S200000x16 : Shape := ⟨2, ![200000, 16]⟩
abbrev S5000x16 : Shape := ⟨2, ![5000, 16]⟩
abbrev S200000x176 : Shape := ⟨2, ![200000, 176]⟩
abbrev S50000x176 : Shape := ⟨2, ![50000, 176]⟩
abbrev S150000x176 : Shape := ⟨2, ![150000, 176]⟩
abbrev S8192x1 : Shape := ⟨2, ![8192, 1]⟩
abbrev S8192x176 : Shape := ⟨2, ![8192, 176]⟩
abbrev S8192x2 : Shape := ⟨2, ![8192, 2]⟩

abbrev nBuf : Space → Nat
  | .hbm => 114
  | .vmem => 36
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S2000000, .i32⟩
  | .hbm, ⟨4, _⟩ => ⟨S2000000, .i32⟩
  | .hbm, ⟨5, _⟩ => ⟨S2000000, .f32⟩
  | .hbm, ⟨6, _⟩ => ⟨S50000x64, .f32⟩
  | .hbm, ⟨7, _⟩ => ⟨S150000x64, .f32⟩
  | .hbm, ⟨8, _⟩ => ⟨S64x64, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S64x32, .f32⟩
  | .hbm, ⟨13, _⟩ => ⟨S1x32, .f32⟩
  | .hbm, ⟨14, _⟩ => ⟨S64x32, .f32⟩
  | .hbm, ⟨15, _⟩ => ⟨S1x32, .f32⟩
  | .hbm, ⟨16, _⟩ => ⟨S32x16, .f32⟩
  | .hbm, ⟨17, _⟩ => ⟨S1x16, .f32⟩
  | .hbm, ⟨18, _⟩ => ⟨S32x16, .f32⟩
  | .hbm, ⟨19, _⟩ => ⟨S1x16, .f32⟩
  | .hbm, ⟨20, _⟩ => ⟨S200000x64, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S2000000x1, .f32⟩
  | .hbm, ⟨31, _⟩ => ⟨S2000000x64, .f32⟩
  | .hbm, ⟨32, _⟩ => ⟨S2000000x64, .f32⟩
  | .hbm, ⟨33, _⟩ => ⟨S_, .f32⟩
  | .hbm, ⟨34, _⟩ => ⟨S200000x64, .f32⟩
  | .hbm, ⟨35, _⟩ => ⟨S2000000x1, .i32⟩
  | .hbm, ⟨36, _⟩ => ⟨S200000x64, .f32⟩
  | .hbm, ⟨37, _⟩ => ⟨S200000x64, .f32⟩
  | .hbm, ⟨38, _⟩ => ⟨S200000x64, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x64, .f32⟩
  | .hbm, ⟨48, _⟩ => ⟨S2000000x1, .f32⟩
  | .hbm, ⟨49, _⟩ => ⟨S2000000x64, .f32⟩
  | .hbm, ⟨50, _⟩ => ⟨S2000000x64, .f32⟩
  | .hbm, ⟨51, _⟩ => ⟨S_, .f32⟩
  | .hbm, ⟨52, _⟩ => ⟨S200000x64, .f32⟩
  | .hbm, ⟨53, _⟩ => ⟨S2000000x1, .i32⟩
  | .hbm, ⟨54, _⟩ => ⟨S200000x64, .f32⟩
  | .hbm, ⟨55, _⟩ => ⟨S200000x32, .f32⟩
  | .hbm, ⟨56, _⟩ => ⟨S200000x32, .f32⟩
  | .hbm, ⟨57, _⟩ => ⟨S_, .i32⟩
  | .hbm, ⟨58, _⟩ => ⟨S2000000, .i32⟩
  | .hbm, ⟨59, _⟩ => ⟨S2000000, .i1⟩
  | .hbm, ⟨60, _⟩ => ⟨S_, .i32⟩
  | .hbm, ⟨61, _⟩ => ⟨S2000000, .i32⟩
  | .hbm, ⟨62, _⟩ => ⟨S2000000, .i32⟩
  | .hbm, ⟨63, _⟩ => ⟨S2000000, .i32⟩
  | .hbm, ⟨64, _⟩ => ⟨S2000000x1, .i32⟩
  | .hbm, ⟨65, _⟩ => ⟨S2000000x32, .f32⟩
  | .hbm, ⟨66, _⟩ => ⟨S2000000x1, .f32⟩
  | .hbm, ⟨67, _⟩ => ⟨S2000000x32, .f32⟩
  | .hbm, ⟨68, _⟩ => ⟨S2000000x32, .f32⟩
  | .hbm, ⟨69, _⟩ => ⟨S_, .f32⟩
  | .hbm, ⟨70, _⟩ => ⟨S200000x32, .f32⟩
  | .hbm, ⟨71, _⟩ => ⟨S2000000x1, .i32⟩
  | .hbm, ⟨72, _⟩ => ⟨S200000x32, .f32⟩
  | .hbm, ⟨73, _⟩ => ⟨S200000x16, .f32⟩
  | .hbm, ⟨74, _⟩ => ⟨S200000x16, .f32⟩
  | .hbm, ⟨75, _⟩ => ⟨S200000x176, .f32⟩
  | .hbm, ⟨76, _⟩ => ⟨S50000x176, .f32⟩
  | .hbm, ⟨77, _⟩ => ⟨S150000x176, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S8192x1, .i32⟩
  | .hbm, ⟨86, _⟩ => ⟨S8192x176, .f32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S_, .i32⟩
  | .hbm, ⟨91, _⟩ => ⟨S8192, .i32⟩
  | .hbm, ⟨92, _⟩ => ⟨S8192, .i32⟩
  | .hbm, ⟨93, _⟩ => ⟨S8192, .i32⟩
  | .hbm, ⟨94, _⟩ => ⟨S8192x1, .i32⟩
  | .hbm, ⟨95, _⟩ => ⟨S8192x176, .f32⟩
  | .hbm, ⟨96, _⟩ => ⟨S_, .i32⟩
  | .hbm, ⟨97, _⟩ => ⟨S8192, .i32⟩
  | .hbm, ⟨98, _⟩ => ⟨S8192, .i1⟩
  | .hbm, ⟨99, _⟩ => ⟨S_, .i32⟩
  | .hbm, ⟨100, _⟩ => ⟨S8192, .i32⟩
  | .hbm, ⟨101, _⟩ => ⟨S8192, .i32⟩
  | .hbm, ⟨102, _⟩ => ⟨S8192, .i32⟩
  | .hbm, ⟨103, _⟩ => ⟨S8192x1, .i32⟩
  | .hbm, ⟨104, _⟩ => ⟨S8192x176, .f32⟩
  | .hbm, ⟨105, _⟩ => ⟨S8192x176, .f32⟩
  | .hbm, ⟨106, _⟩ => ⟨S_, .f32⟩
  | .hbm, ⟨107, _⟩ => ⟨S8192, .f32⟩
  | .hbm, ⟨108, _⟩ => ⟨S8192x176, .f32⟩
  | .hbm, ⟨109, _⟩ => ⟨S_, .f32⟩
  | .hbm, ⟨110, _⟩ => ⟨S8192, .f32⟩
  | .hbm, ⟨111, _⟩ => ⟨S8192x1, .f32⟩
  | .hbm, ⟨112, _⟩ => ⟨S8192x1, .f32⟩
  | .hbm, ⟨113, _⟩ => ⟨S8192x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x32, .f32⟩
  | .local _ .vmem, ⟨17, _⟩ => ⟨S1x32, .f32⟩
  | .local _ .vmem, ⟨18, _⟩ => ⟨S64x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S32x16, .f32⟩
  | .local _ .vmem, ⟨29, _⟩ => ⟨S1x16, .f32⟩
  | .local _ .vmem, ⟨30, _⟩ => ⟨S32x16, .f32⟩
  | .local _ .vmem, ⟨31, _⟩ => ⟨S1x16, .f32⟩
  | .local _ .vmem, ⟨32, _⟩ => ⟨S5000x16, .f32⟩
  | .local _ .vmem, ⟨33, _⟩ => ⟨S5000x16, .f32⟩
  | .local _ .vmem, ⟨34, _⟩ => ⟨S5000x16, .f32⟩
  | .local _ .vmem, ⟨35, _⟩ => ⟨S5000x16, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14_0 : Ref sig .tc := ⟨.hbm, 37, rfl⟩
abbrev main_v14_1 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42_0 : Ref sig .tc := ⟨.hbm, 73, rfl⟩
abbrev main_v42_1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_7 : Ref sig .tc := ⟨.hbm, 78, rfl⟩
abbrev main_v46 : Ref sig .tc := ⟨.hbm, 79, rfl⟩
abbrev main_v47 : Ref sig .tc := ⟨.hbm, 80, rfl⟩
abbrev main_c_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_11 : Ref sig .tc := ⟨.hbm, 96, rfl⟩
abbrev main_v60 : Ref sig .tc := ⟨.hbm, 97, rfl⟩
abbrev main_v61 : Ref sig .tc := ⟨.hbm, 98, rfl⟩
abbrev main_c_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S50000x64_S150000x64_S200000x64_d0 : Shape.Concatenates [S50000x64, S150000x64] S200000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S200000x64 : S_.BroadcastsInDim S200000x64 (![] : Fin 0 → Fin S200000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S5000x32 : S1x32.Broadcasts S5000x32
  reduces_S5000x32_S5000 : S5000x32.Reduces [1] S5000
  inb_S5000x32_S5000x32_0_0 : ∀ a, (![0, 0] : Fin 2 → Nat) a + S5000x32.size a ≤ S5000x32.size a
  h_S5000x32 : 0 < S5000x32.numel
  broadcasts_S5000x1_S5000x32 : S5000x1.Broadcasts S5000x32
  bcast_S2000000x1_S2000000x32_0_1 : S2000000x1.BroadcastsInDim S2000000x32 (![0, 1] : Fin 2 → Fin S2000000x32.rank)
  bcast_S_S200000x32 : S_.BroadcastsInDim S200000x32 (![] : Fin 0 → Fin S200000x32.rank)
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  broadcasts_S1x16_S5000x16 : S1x16.Broadcasts S5000x16
  reduces_S5000x16_S5000 : S5000x16.Reduces [1] S5000
  inb_S5000x16_S5000x16_0_0 : ∀ a, (![0, 0] : Fin 2 → Nat) a + S5000x16.size a ≤ S5000x16.size a
  h_S5000x16 : 0 < S5000x16.numel
  broadcasts_S5000x1_S5000x16 : S5000x1.Broadcasts S5000x16
  concatenates_S200000x64_S200000x64_S200000x32_S200000x16_S200000x176_d1 : Shape.Concatenates [S200000x64, S200000x64, S200000x32, S200000x16] S200000x176 1
  slices_S200000x176_S50000x176_0_0 : S200000x176.Slices ![0, 0] S50000x176
  slices_S200000x176_S150000x176_50000_0 : S200000x176.Slices ![50000, 0] S150000x176
  bcast_S_S8192 : S_.BroadcastsInDim S8192 (![] : Fin 0 → Fin S8192.rank)
  bcast_S8192_S8192x1_0 : S8192.BroadcastsInDim S8192x1 (![0] : Fin 1 → Fin S8192x1.rank)
  reducesTo_S8192x176_S8192_d1 : S8192x176.ReducesTo [1] S8192
  h_S_ : 0 < S_.numel
  concatenates_S8192x1_S8192x1_S8192x2_d1 : Shape.Concatenates [S8192x1, S8192x1] S8192x2 1
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S200000x32_S2000000x1_S2000000x32_1_0_n_n_0_1_132_wf : GatherDims.WF S200000x32 S2000000x1 S2000000x32 [1] [0] [] [0] [] 1 ![1, 32]
  scatter_S200000x32_S2000000x1_S2000000x32_1_0_0_1_wf : ScatterDims.WF S200000x32 S2000000x1 S2000000x32 [1] [0] [0] 1
  dot_S5000x32_S32x16_S5000x16_1_0_0_1_n_n_wf : DotDims.WF S5000x32 S32x16 S5000x16 [1] [0] [0] [1] [] []
  gather_S50000x176_S8192x1_S8192x176_1_0_n_n_0_1_1176_wf : GatherDims.WF S50000x176 S8192x1 S8192x176 [1] [0] [] [0] [] 1 ![1, 176]
  gather_S150000x176_S8192x1_S8192x176_1_0_n_n_0_1_1176_wf : GatherDims.WF S150000x176 S8192x1 S8192x176 [1] [0] [] [0] [] 1 ![1, 176]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S200000x64.size a
  hwx0_6 : ∀ i : grid0.Coords, EltTy.bits .f32 = 32 ∨ (Rect.block (s := S200000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S200000x64.size a
  hwx0_7 : ∀ i : grid0.Coords, EltTy.bits .f32 = 32 ∨ (Rect.block (s := S200000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S200000x32.size a
  hwx1_6 : ∀ i : grid1.Coords, EltTy.bits .f32 = 32 ∨ (Rect.block (s := S200000x32) S5000x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S200000x32.size a
  hwx1_7 : ∀ i : grid1.Coords, EltTy.bits .f32 = 32 ∨ (Rect.block (s := S200000x32) S5000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S200000x32.size a
  hwx2_0 : ∀ i : grid2.Coords, EltTy.bits .f32 = 32 ∨ (Rect.block (s := S200000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S200000x32.size a
  hwx2_1 : ∀ i : grid2.Coords, EltTy.bits .f32 = 32 ∨ (Rect.block (s := S200000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S200000x16.size a
  hwx2_6 : ∀ i : grid2.Coords, EltTy.bits .f32 = 32 ∨ (Rect.block (s := S200000x16) S5000x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x16.size a ≤ S200000x16.size a
  hwx2_7 : ∀ i : grid2.Coords, EltTy.bits .f32 = 32 ∨ (Rect.block (s := S200000x16) S5000x16.size (cc2_transform_7 i) (hinb2_7 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S50000x176_S8192x1_S8192x176_1_0_n_n_0_1_1176 : GatherDims S50000x176 S8192x1 S8192x176 where
  offsetDims := [1]
  collapsedSliceDims := [0]
  operandBatchingDims := []
  startIndicesBatchingDims := []
  startIndexMap := [0]
  indexVectorDim := 1
  sliceSizes := ![1, 176]
  wf := gather_S50000x176_S8192x1_S8192x176_1_0_n_n_0_1_1176_wf
def gather_S150000x176_S8192x1_S8192x176_1_0_n_n_0_1_1176 : GatherDims S150000x176 S8192x1 S8192x176 where
  offsetDims := [1]
  collapsedSliceDims := [0]
  operandBatchingDims := []
  startIndicesBatchingDims := []
  startIndexMap := [0]
  indexVectorDim := 1
  sliceSizes := ![1, 176]
  wf := gather_S150000x176_S8192x1_S8192x176_1_0_n_n_0_1_1176_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28_0) S5000x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28_1) S5000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28_0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S5000x16.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S5000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192 : Shape := ⟨1, ![8192]⟩
abbrev S2000000 : Shape := ⟨1, ![2000000]⟩
abbrev S50000x64 : Shape := ⟨2, ![50000, 64]⟩
abbrev S150000x64 : Shape := ⟨2, ![150000, 64]⟩
abbrev S64x64 : Shape := ⟨2, ![64, 64]⟩
abbrev S1x64 : Shape := ⟨2, ![1, 64]⟩
abbrev S64x32 : Shape := ⟨2, ![64, 32]⟩
abbrev S1x32 : Shape := ⟨2, ![1, 32]⟩
abbrev S32x16 : Shape := ⟨2, ![32, 16]⟩
abbrev S1x16 : Shape := ⟨2, ![1, 16]⟩
abbrev S200000x64 : Shape := ⟨2, ![200000, 64]⟩
abbrev S2000000x1 : Shape := ⟨2, ![2000000, 1]⟩
abbrev S_ : Shape := ⟨0, ![]⟩
abbrev S2000000x64 : Shape := ⟨2, ![2000000, 64]⟩
abbrev S200000 : Shape := ⟨1, ![200000]⟩
abbrev S200000x1 : Shape := ⟨2, ![200000, 1]⟩
abbrev S200000x32 : Shape := ⟨2, ![200000, 32]⟩
abbrev S2000000x32 : Shape := ⟨2, ![2000000, 32]⟩
abbrev S200000x16 : Shape := ⟨2, ![200000, 16]⟩
abbrev S200000x176 : Shape := ⟨2, ![200000, 176]⟩
abbrev S50000x176 : Shape := ⟨2, ![50000, 176]⟩
abbrev S150000x176 : Shape := ⟨2, ![150000, 176]⟩
abbrev S8192x1 : Shape := ⟨2, ![8192, 1]⟩
abbrev S8192x176 : Shape := ⟨2, ![8192, 176]⟩
abbrev S8192x2 : Shape := ⟨2, ![8192, 2]⟩

abbrev nBuf : Space → Nat
  | .hbm => 207
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S2000000, .i32⟩
  | 4 => ⟨S2000000, .i32⟩
  | 5 => ⟨S2000000, .f32⟩
  | 6 => ⟨S50000x64, .f32⟩
  | 7 => ⟨S150000x64, .f32⟩
  | 8 => ⟨S64x64, .f32⟩
  | 9 => ⟨S1x64, .f32⟩
  | 10 => ⟨S64x64, .f32⟩
  | 11 => ⟨S1x64, .f32⟩
  | 12 => ⟨S64x32, .f32⟩
  | 13 => ⟨S1x32, .f32⟩
  | 14 => ⟨S64x32, .f32⟩
  | 15 => ⟨S1x32, .f32⟩
  | 16 => ⟨S32x16, .f32⟩
  | 17 => ⟨S1x16, .f32⟩
  | 18 => ⟨S32x16, .f32⟩
  | 19 => ⟨S1x16, .f32⟩
  | 20 => ⟨S200000x64, .f32⟩
  | 21 => ⟨S2000000x1, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x64, .f32⟩
  | 31 => ⟨S2000000x64, .f32⟩
  | 32 => ⟨S2000000x64, .f32⟩
  | 33 => ⟨S_, .f32⟩
  | 34 => ⟨S200000x64, .f32⟩
  | 35 => ⟨S2000000x1, .i32⟩
  | 36 => ⟨S200000x64, .f32⟩
  | 37 => ⟨S200000x64, .f32⟩
  | 38 => ⟨S200000x64, .f32⟩
  | 39 => ⟨S200000x64, .f32⟩
  | 40 => ⟨S200000x64, .f32⟩
  | 41 => ⟨S_, .f32⟩
  | 42 => ⟨S200000x64, .f32⟩
  | 43 => ⟨S200000x64, .i1⟩
  | 44 => ⟨S_, .f32⟩
  | 45 => ⟨S200000x64, .f32⟩
  | 46 => ⟨S200000x64, .f32⟩
  | 47 => ⟨S200000x64, .f32⟩
  | 48 => ⟨S200000x64, .f32⟩
  | 49 => ⟨S200000x64, .f32⟩
  | 50 => ⟨S200000x64, .f32⟩
  | 51 => ⟨S200000x64, .f32⟩
  | 52 => ⟨S_, .f32⟩
  | 53 => ⟨S200000x64, .f32⟩
  | 54 => ⟨S200000x64, .i1⟩
  | 55 => ⟨S_, .f32⟩
  | 56 => ⟨S200000x64, .f32⟩
  | 57 => ⟨S200000x64, .f32⟩
  | 58 => ⟨S200000x64, .f32⟩
  | 59 => ⟨S200000x64, .f32⟩
  | 60 => ⟨S200000x64, .f32⟩
  | 61 => ⟨S_, .f32⟩
  | 62 => ⟨S200000, .f32⟩
  | 63 => ⟨S200000x1, .f32⟩
  | 64 => ⟨S200000x1, .f32⟩
  | 65 => ⟨S_, .f32⟩
  | 66 => ⟨S200000x1, .f32⟩
  | 67 => ⟨S200000x1, .f32⟩
  | 68 => ⟨S200000x64, .f32⟩
  | 69 => ⟨S200000x64, .f32⟩
  | 70 => ⟨S2000000x1, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S2000000x64, .f32⟩
  | 82 => ⟨S_, .f32⟩
  | 83 => ⟨S200000x64, .f32⟩
  | 84 => ⟨S2000000x1, .i32⟩
  | 85 => ⟨S200000x64, .f32⟩
  | 86 => ⟨S200000x64, .f32⟩
  | 87 => ⟨S200000x32, .f32⟩
  | 88 => ⟨S200000x32, .f32⟩
  | 89 => ⟨S200000x32, .f32⟩
  | 90 => ⟨S_, .f32⟩
  | 91 => ⟨S200000x32, .f32⟩
  | 92 => ⟨S200000x32, .i1⟩
  | 93 => ⟨S_, .f32⟩
  | 94 => ⟨S200000x32, .f32⟩
  | 95 => ⟨S200000x32, .f32⟩
  | 96 => ⟨S200000x32, .f32⟩
  | 97 => ⟨S200000x64, .f32⟩
  | 98 => ⟨S200000x32, .f32⟩
  | 99 => ⟨S200000x32, .f32⟩
  | 100 => ⟨S200000x32, .f32⟩
  | 101 => ⟨S_, .f32⟩
  | 102 => ⟨S200000x32, .f32⟩
  | 103 => ⟨S200000x32, .i1⟩
  | 104 => ⟨S_, .f32⟩
  | 105 => ⟨S200000x32, .f32⟩
  | 106 => ⟨S200000x32, .f32⟩
  | 107 => ⟨S200000x32, .f32⟩
  | 108 => ⟨S200000x32, .f32⟩
  | 109 => ⟨S200000x32, .f32⟩
  | 110 => ⟨S_, .f32⟩
  | 111 => ⟨S200000, .f32⟩
  | 112 => ⟨S200000x1, .f32⟩
  | 113 => ⟨S200000x1, .f32⟩
  | 114 => ⟨S_, .f32⟩
  | 115 => ⟨S200000x1, .f32⟩
  | 116 => ⟨S200000x1, .f32⟩
  | 117 => ⟨S200000x32, .f32⟩
  | 118 => ⟨S200000x32, .f32⟩
  | 119 => ⟨S2000000x1, .f32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S8192, .i32⟩

abbrev hbmTy0_1 (i : Nat) : BufTy := match i % 128 with
  | 0 => ⟨S2000000x32, .f32⟩
  | 1 => ⟨S2000000x32, .f32⟩
  | 2 => ⟨S2000000x32, .f32⟩
  | 3 => ⟨S_, .f32⟩
  | 4 => ⟨S200000x32, .f32⟩
  | 5 => ⟨S2000000x1, .i32⟩
  | 6 => ⟨S200000x32, .f32⟩
  | 7 => ⟨S200000x32, .f32⟩
  | 8 => ⟨S200000x16, .f32⟩
  | 9 => ⟨S200000x16, .f32⟩
  | 10 => ⟨S200000x16, .f32⟩
  | 11 => ⟨S_, .f32⟩
  | 12 => ⟨S200000x16, .f32⟩
  | 13 => ⟨S200000x16, .i1⟩
  | 14 => ⟨S_, .f32⟩
  | 15 => ⟨S200000x16, .f32⟩
  | 16 => ⟨S200000x16, .f32⟩
  | 17 => ⟨S200000x16, .f32⟩
  | 18 => ⟨S200000x32, .f32⟩
  | 19 => ⟨S200000x16, .f32⟩
  | 20 => ⟨S200000x16, .f32⟩
  | 21 => ⟨S200000x16, .f32⟩
  | 22 => ⟨S_, .f32⟩
  | 23 => ⟨S200000x16, .f32⟩
  | 24 => ⟨S200000x16, .i1⟩
  | 25 => ⟨S_, .f32⟩
  | 26 => ⟨S200000x16, .f32⟩
  | 27 => ⟨S200000x16, .f32⟩
  | 28 => ⟨S200000x16, .f32⟩
  | 29 => ⟨S200000x16, .f32⟩
  | 30 => ⟨S200000x16, .f32⟩
  | 31 => ⟨S_, .f32⟩
  | 32 => ⟨S200000, .f32⟩
  | 33 => ⟨S200000x1, .f32⟩
  | 34 => ⟨S200000x1, .f32⟩
  | 35 => ⟨S_, .f32⟩
  | 36 => ⟨S200000x1, .f32⟩
  | 37 => ⟨S200000x1, .f32⟩
  | 38 => ⟨S200000x16, .f32⟩
  | 39 => ⟨S200000x16, .f32⟩
  | 40 => ⟨S200000x176, .f32⟩
  | 41 => ⟨S50000x176, .f32⟩
  | 42 => ⟨S150000x176, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x176, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x176, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x176, .f32⟩
  | 70 => ⟨S8192x176, .f32⟩
  | 71 => ⟨S_, .f32⟩
  | 72 => ⟨S8192, .f32⟩
  | 73 => ⟨S8192x176, .f32⟩
  | 74 => ⟨S_, .f32⟩
  | 75 => ⟨S8192, .f32⟩
  | 76 => ⟨S8192x1, .f32⟩
  | 77 => ⟨S8192x1, .f32⟩
  | 78 => ⟨S8192x2, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_v23 : Ref sig .tc := ⟨.hbm, 58, rfl⟩
abbrev main_v24 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_call2_v2 : Ref sig .tc := ⟨.hbm, 63, rfl⟩
abbrev main_v25 : Ref sig .tc := ⟨.hbm, 64, rfl⟩
abbrev main_cst_1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_2 : Ref sig .tc := ⟨.hbm, 71, rfl⟩
abbrev main_v31 : Ref sig .tc := ⟨.hbm, 72, rfl⟩
abbrev main_v32 : Ref sig .tc := ⟨.hbm, 73, rfl⟩
abbrev main_c_3 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_4 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call3_cst : Ref sig .tc := ⟨.hbm, 90, rfl⟩
abbrev main_call3_v0 : Ref sig .tc := ⟨.hbm, 91, rfl⟩
abbrev main_call3_v1 : Ref sig .tc := ⟨.hbm, 92, rfl⟩
abbrev main_call3_cst_0 : Ref sig .tc := ⟨.hbm, 93, rfl⟩
abbrev main_call3_v2 : Ref sig .tc := ⟨.hbm, 94, rfl⟩
abbrev main_call3_v3 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_call4_cst : Ref sig .tc := ⟨.hbm, 101, rfl⟩
abbrev main_call4_v0 : Ref sig .tc := ⟨.hbm, 102, rfl⟩
abbrev main_call4_v1 : Ref sig .tc := ⟨.hbm, 103, rfl⟩
abbrev main_call4_cst_0 : Ref sig .tc := ⟨.hbm, 104, rfl⟩
abbrev main_call4_v2 : Ref sig .tc := ⟨.hbm, 105, rfl⟩
abbrev main_call4_v3 : Ref sig .tc := ⟨.hbm, 106, rfl⟩
abbrev main_v52 : Ref sig .tc := ⟨.hbm, 107, rfl⟩
abbrev main_v53 : Ref sig .tc := ⟨.hbm, 108, rfl⟩
abbrev main_call5_v0 : Ref sig .tc := ⟨.hbm, 109, rfl⟩
abbrev main_call5_cst : Ref sig .tc := ⟨.hbm, 110, rfl⟩
abbrev main_call5_v1 : Ref sig .tc := ⟨.hbm, 111, rfl⟩
abbrev main_call5_v2 : Ref sig .tc := ⟨.hbm, 112, rfl⟩
abbrev main_v54 : Ref sig .tc := ⟨.hbm, 113, rfl⟩
abbrev main_cst_5 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_c_6 : Ref sig .tc := ⟨.hbm, 120, rfl⟩
abbrev main_v60 : Ref sig .tc := ⟨.hbm, 121, rfl⟩
abbrev main_v61 : Ref sig .tc := ⟨.hbm, 122, rfl⟩
abbrev main_c_7 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_8 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_call6_cst : Ref sig .tc := ⟨.hbm, 139, rfl⟩
abbrev main_call6_v0 : Ref sig .tc := ⟨.hbm, 140, rfl⟩
abbrev main_call6_v1 : Ref sig .tc := ⟨.hbm, 141, rfl⟩
abbrev main_call6_cst_0 : Ref sig .tc := ⟨.hbm, 142, rfl⟩
abbrev main_call6_v2 : Ref sig .tc := ⟨.hbm, 143, rfl⟩
abbrev main_call6_v3 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_call7_cst : Ref sig .tc := ⟨.hbm, 150, rfl⟩
abbrev main_call7_v0 : Ref sig .tc := ⟨.hbm, 151, rfl⟩
abbrev main_call7_v1 : Ref sig .tc := ⟨.hbm, 152, rfl⟩
abbrev main_call7_cst_0 : Ref sig .tc := ⟨.hbm, 153, rfl⟩
abbrev main_call7_v2 : Ref sig .tc := ⟨.hbm, 154, rfl⟩
abbrev main_call7_v3 : Ref sig .tc := ⟨.hbm, 155, rfl⟩
abbrev main_v81 : Ref sig .tc := ⟨.hbm, 156, rfl⟩
abbrev main_v82 : Ref sig .tc := ⟨.hbm, 157, rfl⟩
abbrev main_call8_v0 : Ref sig .tc := ⟨.hbm, 158, rfl⟩
abbrev main_call8_cst : Ref sig .tc := ⟨.hbm, 159, rfl⟩
abbrev main_call8_v1 : Ref sig .tc := ⟨.hbm, 160, rfl⟩
abbrev main_call8_v2 : Ref sig .tc := ⟨.hbm, 161, rfl⟩
abbrev main_v83 : Ref sig .tc := ⟨.hbm, 162, rfl⟩
abbrev main_cst_9 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_c_10 : Ref sig .tc := ⟨.hbm, 171, rfl⟩
abbrev main_v91 : Ref sig .tc := ⟨.hbm, 172, rfl⟩
abbrev main_v92 : Ref sig .tc := ⟨.hbm, 173, rfl⟩
abbrev main_c_11 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_c_12 : Ref sig .tc := ⟨.hbm, 180, rfl⟩
abbrev main_v98 : Ref sig .tc := ⟨.hbm, 181, rfl⟩
abbrev main_v99 : Ref sig .tc := ⟨.hbm, 182, rfl⟩
abbrev main_c_13 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_c_14 : Ref sig .tc := ⟨.hbm, 189, rfl⟩
abbrev main_v105 : Ref sig .tc := ⟨.hbm, 190, rfl⟩
abbrev main_v106 : Ref sig .tc := ⟨.hbm, 191, rfl⟩
abbrev main_c_15 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_cst_16 : Ref sig .tc := ⟨.hbm, 199, rfl⟩
abbrev main_v113 : Ref sig .tc := ⟨.hbm, 200, rfl⟩
abbrev main_v114 : Ref sig .tc := ⟨.hbm, 201, rfl⟩
abbrev main_cst_17 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩

abbrev nD : Nat := 1
abbrev τ : Topo := Topo.v7x

variable {F : FTy → Type} [FloatOps F]

class Facts₀ : Prop where
  concatenates_S50000x64_S150000x64_S200000x64_d0 : Shape.Concatenates [S50000x64, S150000x64] S200000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S200000x64 : S_.BroadcastsInDim S200000x64 (![] : Fin 0 → Fin S200000x64.rank)
  bcast_S1x64_S200000x64_0_1 : S1x64.BroadcastsInDim S200000x64 (![0, 1] : Fin 2 → Fin S200000x64.rank)
  reducesTo_S200000x64_S200000_d1 : S200000x64.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  reducesTo_S200000x32_S200000_d1 : S200000x32.ReducesTo [1] S200000
  bcast_S200000x1_S200000x32_0_1 : S200000x1.BroadcastsInDim S200000x32 (![0, 1] : Fin 2 → Fin S200000x32.rank)
  bcast_S2000000x1_S2000000x32_0_1 : S2000000x1.BroadcastsInDim S2000000x32 (![0, 1] : Fin 2 → Fin S2000000x32.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  reducesTo_S200000x16_S200000_d1 : S200000x16.ReducesTo [1] S200000
  bcast_S200000x1_S200000x16_0_1 : S200000x1.BroadcastsInDim S200000x16 (![0, 1] : Fin 2 → Fin S200000x16.rank)
  concatenates_S200000x64_S200000x64_S200000x32_S200000x16_S200000x176_d1 : Shape.Concatenates [S200000x64, S200000x64, S200000x32, S200000x16] S200000x176 1
  slices_S200000x176_S50000x176_0_0 : S200000x176.Slices ![0, 0] S50000x176
  slices_S200000x176_S150000x176_50000_0 : S200000x176.Slices ![50000, 0] S150000x176
  bcast_S_S8192 : S_.BroadcastsInDim S8192 (![] : Fin 0 → Fin S8192.rank)
  bcast_S8192_S8192x1_0 : S8192.BroadcastsInDim S8192x1 (![0] : Fin 1 → Fin S8192x1.rank)
  reducesTo_S8192x176_S8192_d1 : S8192x176.ReducesTo [1] S8192
  concatenates_S8192x1_S8192x1_S8192x2_d1 : Shape.Concatenates [S8192x1, S8192x1] S8192x2 1
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  dot_S200000x64_S64x64_S200000x64_1_0_0_1_n_n_wf : DotDims.WF S200000x64 S64x64 S200000x64 [1] [0] [0] [1] [] []
  dot_S200000x64_S64x32_S200000x32_1_0_0_1_n_n_wf : DotDims.WF S200000x64 S64x32 S200000x32 [1] [0] [0] [1] [] []
  gather_S200000x32_S2000000x1_S2000000x32_1_0_n_n_0_1_132_wf : GatherDims.WF S200000x32 S2000000x1 S2000000x32 [1] [0] [] [0] [] 1 ![1, 32]
  scatter_S200000x32_S2000000x1_S2000000x32_1_0_0_1_wf : ScatterDims.WF S200000x32 S2000000x1 S2000000x32 [1] [0] [0] 1
  dot_S200000x32_S32x16_S200000x16_1_0_0_1_n_n_wf : DotDims.WF S200000x32 S32x16 S200000x16 [1] [0] [0] [1] [] []
  gather_S50000x176_S8192x1_S8192x176_1_0_n_n_0_1_1176_wf : GatherDims.WF S50000x176 S8192x1 S8192x176 [1] [0] [] [0] [] 1 ![1, 176]
  gather_S150000x176_S8192x1_S8192x176_1_0_n_n_0_1_1176_wf : GatherDims.WF S150000x176 S8192x1 S8192x176 [1] [0] [] [0] [] 1 ![1, 176]

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def gather_S50000x176_S8192x1_S8192x176_1_0_n_n_0_1_1176 : GatherDims S50000x176 S8192x1 S8192x176 where
  offsetDims := [1]
  collapsedSliceDims := [0]
  operandBatchingDims := []
  startIndicesBatchingDims := []
  startIndexMap := [0]
  indexVectorDim := 1
  sliceSizes := ![1, 176]
  wf := gather_S50000x176_S8192x1_S8192x176_1_0_n_n_0_1_1176_wf
def gather_S150000x176_S8192x1_S8192x176_1_0_n_n_0_1_1176 : GatherDims S150000x176 S8192x1 S8192x176 where
  offsetDims := [1]
  collapsedSliceDims := [0]
  operandBatchingDims := []
  startIndicesBatchingDims := []
  startIndexMap := [0]
  indexVectorDim := 1
  sliceSizes := ![1, 176]
  wf := gather_S150000x176_S8192x1_S8192x176_1_0_n_n_0_1_1176_wf

class Facts : Prop extends Facts₀ where

variable [Facts]
-- ==== Proof.K.Body0.lean ====
/-
  Region 0 of the program: one layer of the network on a block of 5000 rows.  From the block of the current
  embedding x and of the aggregated neighbourhood s (both 5000 rows), the two weight matrices and the two bias rows,
  the body computes a = (x + s)·Wg + bg and b = (x ∘ s)·Wb + bb, the new embedding e = lrelu(a) + lrelu(b)
  (lrelu z = z when z ≥ 0 and 0.01·z otherwise), the clamped row norm n = max(sqrt(Σ_lanes e²), 1e-12), and stores
  e into its first output block and e / n into its second.  This module states what each output block holds after
  the body as a function of the six input blocks, runs the body against that statement, and packages the result as
  the pipeline's proof data and body obligation, all at an arbitrary content V of the arrays when the region is entered.
-/
import proofs.«156520_j49993419325916_1_alg».proof.Proof.Gen.Kernel.Launch
import proofs.«156520_j49993419325916_1_alg».proof.Proof.Gen.Kernel.Skeleton
import proofs.«156520_j49993419325916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 5000·t … 5000·t + 4999 of a row-tiled array, the whole array for a
    weight or a bias, read off the array's contents when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, whether the point
    fetches it or not (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, whether the point
    fetches it or not (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry array at every point, whether the point
    fetches it or not (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry array at every point, whether the point
    fetches it or not (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the entry array at every point, whether the point
    fetches it or not (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the entry array at every point, whether the point
    fetches it or not (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole staging buffer -/

abbrev rIn0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rOut0 : Rect S5000x64 := Rect.unit (s := S5000x64) ![0, 0] S5000x64.size inb_S5000x64_S5000x64_0_0

/-! ## What the body leaves in the two output blocks -/

/-- The first output block after the body: the new embedding e of the six input blocks. -/
def out0_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rOut0, k0_pay2 (View.ld x0 rIn0) (View.ld x1 rIn0) (View.ld x2 rW0) (View.ld x4 rW0) (View.ld x3 rB0) (View.ld x5 rB0)⟩]

/-- The second output block after the body: the new embedding divided by its clamped row norm, e / n. -/
def out0_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rOut0, k0_pay1 (k0_pay2 (View.ld x0 rIn0) (View.ld x1 rIn0) (View.ld x2 rW0) (View.ld x4 rW0) (View.ld x3 rB0) (View.ld x5 rB0)) (k0_pay3 (View.ld x0 rIn0) (View.ld x1 rIn0) (View.ld x2 rW0) (View.ld x4 rW0) (View.ld x3 rB0) (View.ld x5 rB0))⟩]

/-- One store of a whole block covers the block. -/
theorem cover0 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

/-! ## The body's run -/

set_option maxHeartbeats 4000000 in
/-- The body on whole staging buffers, the six inputs' at contents x0 … x5 and the two outputs' at anything, runs to its
    end without a fault, leaves the inputs as they were, the first output at e and the second at e / n. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of this region on core `c`: the arrays as the region finds them; after the body at point `t` each
    input's buffer still at its block, the first output's at e and the second's at e / n of the blocks at `t`; the
    invariant is the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's dues, and the eight windows' current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the run above applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layer

end
-- ==== Proof.K.Body1.lean ====
/-
  Region 1 of the program: one layer of the network on a block of 5000 rows.  From the block of the current
  embedding x and of the aggregated neighbourhood s (both 5000 rows), the two weight matrices and the two bias rows,
  the body computes a = (x + s)·Wg + bg and b = (x ∘ s)·Wb + bb, the new embedding e = lrelu(a) + lrelu(b)
  (lrelu z = z when z ≥ 0 and 0.01·z otherwise), the clamped row norm n = max(sqrt(Σ_lanes e²), 1e-12), and stores
  e into its first output block and e / n into its second.  This module states what each output block holds after
  the body as a function of the six input blocks, runs the body against that statement, and packages the result as
  the pipeline's proof data and body obligation, all at an arbitrary content V of the arrays when the region is entered.
-/
import proofs.«156520_j49993419325916_1_alg».proof.Proof.Gen.Kernel.Launch
import proofs.«156520_j49993419325916_1_alg».proof.Proof.Gen.Kernel.Skeleton
import proofs.«156520_j49993419325916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 5000·t … 5000·t + 4999 of a row-tiled array, the whole array for a
    weight or a bias, read off the array's contents when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry array at every point, whether the point
    fetches it or not (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry array at every point, whether the point
    fetches it or not (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry array at every point, whether the point
    fetches it or not (an unfetched window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry array at every point, whether the point
    fetches it or not (an unfetched window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the entry array at every point, whether the point
    fetches it or not (an unfetched window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the entry array at every point, whether the point
    fetches it or not (an unfetched window's block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole staging buffer -/

abbrev rIn1 : Rect S5000x64 := Rect.unit (s := S5000x64) ![0, 0] S5000x64.size inb_S5000x64_S5000x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rOut1 : Rect S5000x32 := Rect.unit (s := S5000x32) ![0, 0] S5000x32.size inb_S5000x32_S5000x32_0_0

/-! ## What the body leaves in the two output blocks -/

/-- The first output block after the body: the new embedding e of the six input blocks. -/
def out1_6 (x0 : Vec F S5000x64 .f32) (x1 : Vec F S5000x64 .f32) (x2 : Vec F S64x32 .f32) (x3 : Vec F S1x32 .f32) (x4 : Vec F S64x32 .f32) (x5 : Vec F S1x32 .f32) : Vec F S5000x32 .f32 :=
  View.canon [⟨rOut1, k1_pay2 (View.ld x0 rIn1) (View.ld x1 rIn1) (View.ld x2 rW1) (View.ld x4 rW1) (View.ld x3 rB1) (View.ld x5 rB1)⟩]

/-- The second output block after the body: the new embedding divided by its clamped row norm, e / n. -/
def out1_7 (x0 : Vec F S5000x64 .f32) (x1 : Vec F S5000x64 .f32) (x2 : Vec F S64x32 .f32) (x3 : Vec F S1x32 .f32) (x4 : Vec F S64x32 .f32) (x5 : Vec F S1x32 .f32) : Vec F S5000x32 .f32 :=
  View.canon [⟨rOut1, k1_pay1 (k1_pay2 (View.ld x0 rIn1) (View.ld x1 rIn1) (View.ld x2 rW1) (View.ld x4 rW1) (View.ld x3 rB1) (View.ld x5 rB1)) (k1_pay3 (View.ld x0 rIn1) (View.ld x1 rIn1) (View.ld x2 rW1) (View.ld x4 rW1) (View.ld x3 rB1) (View.ld x5 rB1))⟩]

/-- One store of a whole block covers the block. -/
theorem cover1 (p0 : Vec F S5000x32 .f32) (y : S5000x32.Idx) :
    ∃ pc ∈ ([⟨rOut1, p0⟩] : List (View.Piece (Elt F) S5000x32 .f32)), y ∈ pc.1.set :=
  View.cover_of_tiled [⟨rOut1, p0⟩] S5000x32.size (by rfl) y

/-! ## The body's run -/

set_option maxHeartbeats 4000000 in
/-- The body on whole staging buffers, the six inputs' at contents x0 … x5 and the two outputs' at anything, runs to its
    end without a fault, leaves the inputs as they were, the first output at e and the second at e / n. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S5000x32 .f32) (harg7 : arg7.IsWhole) (arg8 : Memref sig .tc .vmem S5000x32 .f32) (harg8 : arg8.IsWhole)
    (x0 : Vec F S5000x64 .f32) (x1 : Vec F S5000x64 .f32) (x2 : Vec F S64x32 .f32) (x3 : Vec F S1x32 .f32) (x4 : Vec F S64x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The pipeline's proof data -/

/-- The proof data of this region on core `c`: the arrays as the region finds them; after the body at point `t` each
    input's buffer still at its block, the first output's at e and the second's at e / n of the blocks at `t`; the
    invariant is the class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's dues, and the eight windows' current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the run above applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layer

end
-- ==== Proof.K.Body2.lean ====
/-
  Region 2 of the program: one layer of the network on a block of 5000 rows.  From the block of the current
  embedding x and of the aggregated neighbourhood s (both 5000 rows), the two weight matrices and the two bias rows,
  the body computes a = (x + s)·Wg + bg and b = (x ∘ s)·Wb + bb, the new embedding e = lrelu(a) + lrelu(b)
  (lrelu z = z when z ≥ 0 and 0.01·z otherwise), the clamped row norm n = max(sqrt(Σ_lanes e²), 1e-12), and stores
  e into its first output block and e / n into its second.  This module states what each output block holds after
  the body as a function of the six input blocks, runs the body against that statement, and packages the result as
  the pipeline's proof data and body obligation, all at an arbitrary content V of the arrays when the region is entered.
-/
import proofs.«156520_j49993419325916_1_alg».proof.Proof.Gen.Kernel.Launch
import proofs.«156520_j49993419325916_1_alg».proof.Proof.Gen.Kernel.Skeleton
import proofs.«156520_j49993419325916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 5000·t … 5000·t + 4999 of a row-tiled array, the whole array for a
    weight or a bias, read off the array's contents when the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry array at every point, whether the point
    fetches it or not (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the entry array at every point, whether the point
    fetches it or not (an unfetched window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the entry array at every point, whether the point
    fetches it or not (an unfetched window's block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the entry array at every point, whether the point
    fetches it or not (an unfetched window's block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the entry array at every point, whether the point
    fetches it or not (an unfetched window's block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the entry array at every point, whether the point
    fetches it or not (an unfetched window's block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole staging buffer -/

abbrev rIn2 : Rect S5000x32 := Rect.unit (s := S5000x32) ![0, 0] S5000x32.size inb_S5000x32_S5000x32_0_0
abbrev rW2 : Rect S32x16 := Rect.unit (s := S32x16) ![0, 0] S32x16.size inb_S32x16_S32x16_0_0
abbrev rB2 : Rect S1x16 := Rect.unit (s := S1x16) ![0, 0] S1x16.size inb_S1x16_S1x16_0_0
abbrev rOut2 : Rect S5000x16 := Rect.unit (s := S5000x16) ![0, 0] S5000x16.size inb_S5000x16_S5000x16_0_0

/-! ## What the body leaves in the two output blocks -/

/-- The first output block after the body: the new embedding e of the six input blocks. -/
def out2_6 (x0 : Vec F S5000x32 .f32) (x1 : Vec F S5000x32 .f32) (x2 : Vec F S32x16 .f32) (x3 : Vec F S1x16 .f32) (x4 : Vec F S32x16 .f32) (x5 : Vec F S1x16 .f32) : Vec F S5000x16 .f32 :=
  View.canon [⟨rOut2, k2_pay2 (View.ld x0 rIn2) (View.ld x1 rIn2) (View.ld x2 rW2) (View.ld x4 rW2) (View.ld x3 rB2) (View.ld x5 rB2)⟩]

/-- The second output block after the body: the new embedding divided by its clamped row norm, e / n. -/
def out2_7 (x0 : Vec F S5000x32 .f32) (x1 : Vec F S5000x32 .f32) (x2 : Vec F S32x16 .f32) (x3 : Vec F S1x16 .f32) (x4 : Vec F S32x16 .f32) (x5 : Vec F S1x16 .f32) : Vec F S5000x16 .f32 :=
  View.canon [⟨rOut2, k2_pay1 (k2_pay2 (View.ld x0 rIn2) (View.ld x1 rIn2) (View.ld x2 rW2) (View.ld x4 rW2) (View.ld x3 rB2) (View.ld x5 rB2)) (k2_pay3 (View.ld x0 rIn2) (View.ld x1 rIn2) (View.ld x2 rW2) (View.ld x4 rW2) (View.ld x3 rB2) (View.ld x5 rB2))⟩]

/-- One store of a whole block covers the block. -/
theorem cover2 (p0 : Vec F S5000x16 .f32) (y : S5000x16.Idx) :
    ∃ pc ∈ ([⟨rOut2, p0⟩] : List (View.Piece (Elt F) S5000x16 .f32)), y ∈ pc.1.set :=
  View.cover_of_tiled [⟨rOut2, p0⟩] S5000x16.size (by rfl) y

/-! ## The body's run -/

set_option maxHeartbeats 4000000 in
/-- The body on whole staging buffers, the six inputs' at contents x0 … x5 and the two outputs' at anything, runs to its
    end without a fault, leaves the inputs as they were, the first output at e and the second at e / n. -/
theorem sound_kernel2 (c : Dev nD) (E : Set ℕ) (i : grid2.Coords) (arg1 : Memref sig .tc .vmem S5000x32 .f32) (harg1 : arg1.IsWhole) (arg2 : Memref sig .tc .vmem S5000x32 .f32) (harg2 : arg2.IsWhole) (arg3 : Memref sig .tc .vmem S32x16 .f32) (harg3 : arg3.IsWhole) (arg4 : Memref sig .tc .vmem S1x16 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S5000x16 .f32) (harg7 : arg7.IsWhole) (arg8 : Memref sig .tc .vmem S5000x16 .f32) (harg8 : arg8.IsWhole)
    (x0 : Vec F S5000x32 .f32) (x1 : Vec F S5000x32 .f32) (x2 : Vec F S32x16 .f32) (x3 : Vec F S1x16 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The pipeline's proof data -/

/-- The proof data of this region on core `c`: the arrays as the region finds them; after the body at point `t` each
    input's buffer still at its block, the first output's at e and the second's at e / n of the blocks at `t`; the
    invariant is the class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, the core's dues, and the eight windows' current buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the run above applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Layer

end
-- ==== Proof.K.Run.lean ====
/-
  The whole run of the program: host operations, then three times (a layer's region, host operations).  Between two
  items every buffer of the core that is not scoped to a region is held at a known content: the launch memory, then the
  host operations applied to it, then — after a region — the same with that region's two output arrays replaced by
  what its forty write-backs leave, and so on to the end.  The run terminates without a fault, and at the end every such
  buffer holds the last of these contents; in particular no argument array was ever written.
-/
import proofs.«156520_j49993419325916_1_alg».proof.Proof.K.Body0
import proofs.«156520_j49993419325916_1_alg».proof.Proof.K.Body1
import proofs.«156520_j49993419325916_1_alg».proof.Proof.K.Body2
import proofs.«156520_j49993419325916_1_alg».proof.Proof.Gen.Kernel.Regions

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the first stretch of host operations: the two embedding tables stacked, and the first aggregation. -/
abbrev W1 : Dev nD → Valuation τ sig (Elt F) := fun c => StableHlo.after hostOps0 (W0 m c)
abbrev X1 : (c : Dev nD) → (b : Ref sig .tc) → Buf (Elt F) ((c : Thread nD τ).loc b) := fun c b => W1 m c b

/-- At region 0's exit its arrays hold what the pipeline leaves: `Dat.arrAt … N`. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same contents read at the TensorCore's references. -/
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)
/-- Region 0 changes only its two output arrays: an input array is written back as it was found, and no other
    buffer is touched. -/
theorem W2_keep (c : Dev nD) (b : Ref sig .tc) (h : b ∉ ([main_v14_0, main_v14_1] : List (Ref sig .tc))) :
    W2 m c (Proc.devRef .tc b) = W1 m c (Proc.devRef .tc b) := by
  by_cases hb : ∀ w, Pipeline.arrRef spec0 w ≠ b
  · exact W2_of_ne m c b hb
  · simp only [ne_eq, not_forall, not_not] at hb
    obtain ⟨w, rfl⟩ := hb
    have hin : ∀ w : Fin cfg0.W, w.val < 6 → W2 m c (Proc.devRef .tc (Pipeline.arrRef spec0 w)) = W1 m c (Proc.devRef .tc (Pipeline.arrRef spec0 w)) := by
      intro w hw
      match w, hw with
      | ⟨0, _⟩, _ => exact (W2_arr m c 0).trans (((dat0 (X1 m) c).arrAt_in 0 rfl _).trans (A_eq0 (X1 m) c 0))
      | ⟨1, _⟩, _ => exact (W2_arr m c 1).trans (((dat0 (X1 m) c).arrAt_in 1 rfl _).trans (A_eq0 (X1 m) c 1))
      | ⟨2, _⟩, _ => exact (W2_arr m c 2).trans (((dat0 (X1 m) c).arrAt_in 2 rfl _).trans (A_eq0 (X1 m) c 2))
      | ⟨3, _⟩, _ => exact (W2_arr m c 3).trans (((dat0 (X1 m) c).arrAt_in 3 rfl _).trans (A_eq0 (X1 m) c 3))
      | ⟨4, _⟩, _ => exact (W2_arr m c 4).trans (((dat0 (X1 m) c).arrAt_in 4 rfl _).trans (A_eq0 (X1 m) c 4))
      | ⟨5, _⟩, _ => exact (W2_arr m c 5).trans (((dat0 (X1 m) c).arrAt_in 5 rfl _).trans (A_eq0 (X1 m) c 5))
    by_cases hw : w.val < 6
    · exact hin w hw
    · exfalso
      have h67 : w = 6 ∨ w = 7 := by
        have := w.isLt
        rcases w with ⟨v, hv⟩
        have hv8 : v < 8 := hv
        simp only [Fin.mk.injEq, Fin.ext_iff] at *
        omega
      rcases h67 with rfl | rfl
      · exact h (by simp [Pipeline.arrRef, spec0])
      · exact h (by simp [Pipeline.arrRef, spec0])

/-- After the second stretch of host operations (the second aggregation). -/
abbrev W3 : Dev nD → Valuation τ sig (Elt F) := fun c => StableHlo.after hostOps1 (W2 m c)
abbrev X3 : (c : Dev nD) → (b : Ref sig .tc) → Buf (Elt F) ((c : Thread nD τ).loc b) := fun c b => W3 m c b

/-- At region 1's exit its arrays hold what the pipeline leaves: `Dat.arrAt … N`. -/
def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same contents read at the TensorCore's references. -/
abbrev X4 : (c : Dev nD) → (b : Ref sig .tc) → Buf (Elt F) ((c : Thread nD τ).loc b) := fun c b => W4 m c b
theorem hF1 (c : Dev nD) (w : Fin cfg1.W) : (dat1 (X3 m) c).arrAt w cfg1.N = X4 m c (Pipeline.arrRef spec1 w) :=
  (W4_arr m c w).symm
theorem hrest1 (c : Dev nD) : ∀ b, b ∉ Finset.univ.image (Pipeline.arrRef spec1) → X4 m c b = X3 m c b :=
  fun b hb => W4_of_ne m c b fun w e => hb (Finset.mem_image.mpr ⟨w, Finset.mem_univ _, e⟩)
/-- Region 1 changes only its two output arrays: an input array is written back as it was found, and no other
    buffer is touched. -/
theorem W4_keep (c : Dev nD) (b : Ref sig .tc) (h : b ∉ ([main_v28_0, main_v28_1] : List (Ref sig .tc))) :
    W4 m c (Proc.devRef .tc b) = W3 m c (Proc.devRef .tc b) := by
  by_cases hb : ∀ w, Pipeline.arrRef spec1 w ≠ b
  · exact W4_of_ne m c b hb
  · simp only [ne_eq, not_forall, not_not] at hb
    obtain ⟨w, rfl⟩ := hb
    have hin : ∀ w : Fin cfg1.W, w.val < 6 → W4 m c (Proc.devRef .tc (Pipeline.arrRef spec1 w)) = W3 m c (Proc.devRef .tc (Pipeline.arrRef spec1 w)) := by
      intro w hw
      match w, hw with
      | ⟨0, _⟩, _ => exact (W4_arr m c 0).trans (((dat1 (X3 m) c).arrAt_in 0 rfl _).trans (A_eq1 (X3 m) c 0))
      | ⟨1, _⟩, _ => exact (W4_arr m c 1).trans (((dat1 (X3 m) c).arrAt_in 1 rfl _).trans (A_eq1 (X3 m) c 1))
      | ⟨2, _⟩, _ => exact (W4_arr m c 2).trans (((dat1 (X3 m) c).arrAt_in 2 rfl _).trans (A_eq1 (X3 m) c 2))
      | ⟨3, _⟩, _ => exact (W4_arr m c 3).trans (((dat1 (X3 m) c).arrAt_in 3 rfl _).trans (A_eq1 (X3 m) c 3))
      | ⟨4, _⟩, _ => exact (W4_arr m c 4).trans (((dat1 (X3 m) c).arrAt_in 4 rfl _).trans (A_eq1 (X3 m) c 4))
      | ⟨5, _⟩, _ => exact (W4_arr m c 5).trans (((dat1 (X3 m) c).arrAt_in 5 rfl _).trans (A_eq1 (X3 m) c 5))
    by_cases hw : w.val < 6
    · exact hin w hw
    · exfalso
      have h67 : w = 6 ∨ w = 7 := by
        have := w.isLt
        rcases w with ⟨v, hv⟩
        have hv8 : v < 8 := hv
        simp only [Fin.mk.injEq, Fin.ext_iff] at *
        omega
      rcases h67 with rfl | rfl
      · exact h (by simp [Pipeline.arrRef, spec1])
      · exact h (by simp [Pipeline.arrRef, spec1])

/-- After the third stretch of host operations (the third aggregation). -/
abbrev W5 : Dev nD → Valuation τ sig (Elt F) := fun c => StableHlo.after hostOps2 (W4 m c)
abbrev X5 : (c : Dev nD) → (b : Ref sig .tc) → Buf (Elt F) ((c : Thread nD τ).loc b) := fun c b => W5 m c b

/-- At region 2's exit its arrays hold what the pipeline leaves: `Dat.arrAt … N`. -/
def W6 (c : Dev nD) : Valuation τ sig (Elt F) :=
  Pipeline.withArrays spec2 c (W5 m c) fun w => (dat2 (X5 m) c).arrAt w cfg2.N
theorem W6_arr (c : Dev nD) (w : Fin cfg2.W) :
    W6 m c (Proc.devRef .tc (Pipeline.arrRef spec2 w)) = (dat2 (X5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same contents read at the TensorCore's references. -/
abbrev X6 : (c : Dev nD) → (b : Ref sig .tc) → Buf (Elt F) ((c : Thread nD τ).loc b) := fun c b => W6 m c b
theorem hF2 (c : Dev nD) (w : Fin cfg2.W) : (dat2 (X5 m) c).arrAt w cfg2.N = X6 m c (Pipeline.arrRef spec2 w) :=
  (W6_arr m c w).symm
theorem hrest2 (c : Dev nD) : ∀ b, b ∉ Finset.univ.image (Pipeline.arrRef spec2) → X6 m c b = X5 m c b :=
  fun b hb => W6_of_ne m c b fun w e => hb (Finset.mem_image.mpr ⟨w, Finset.mem_univ _, e⟩)
/-- Region 2 changes only its two output arrays: an input array is written back as it was found, and no other
    buffer is touched. -/
theorem W6_keep (c : Dev nD) (b : Ref sig .tc) (h : b ∉ ([main_v42_0, main_v42_1] : List (Ref sig .tc))) :
    W6 m c (Proc.devRef .tc b) = W5 m c (Proc.devRef .tc b) := by
  by_cases hb : ∀ w, Pipeline.arrRef spec2 w ≠ b
  · exact W6_of_ne m c b hb
  · simp only [ne_eq, not_forall, not_not] at hb
    obtain ⟨w, rfl⟩ := hb
    have hin : ∀ w : Fin cfg2.W, w.val < 6 → W6 m c (Proc.devRef .tc (Pipeline.arrRef spec2 w)) = W5 m c (Proc.devRef .tc (Pipeline.arrRef spec2 w)) := by
      intro w hw
      match w, hw with
      | ⟨0, _⟩, _ => exact (W6_arr m c 0).trans (((dat2 (X5 m) c).arrAt_in 0 rfl _).trans (A_eq2 (X5 m) c 0))
      | ⟨1, _⟩, _ => exact (W6_arr m c 1).trans (((dat2 (X5 m) c).arrAt_in 1 rfl _).trans (A_eq2 (X5 m) c 1))
      | ⟨2, _⟩, _ => exact (W6_arr m c 2).trans (((dat2 (X5 m) c).arrAt_in 2 rfl _).trans (A_eq2 (X5 m) c 2))
      | ⟨3, _⟩, _ => exact (W6_arr m c 3).trans (((dat2 (X5 m) c).arrAt_in 3 rfl _).trans (A_eq2 (X5 m) c 3))
      | ⟨4, _⟩, _ => exact (W6_arr m c 4).trans (((dat2 (X5 m) c).arrAt_in 4 rfl _).trans (A_eq2 (X5 m) c 4))
      | ⟨5, _⟩, _ => exact (W6_arr m c 5).trans (((dat2 (X5 m) c).arrAt_in 5 rfl _).trans (A_eq2 (X5 m) c 5))
    by_cases hw : w.val < 6
    · exact hin w hw
    · exfalso
      have h67 : w = 6 ∨ w = 7 := by
        have := w.isLt
        rcases w with ⟨v, hv⟩
        have hv8 : v < 8 := hv
        simp only [Fin.mk.injEq, Fin.ext_iff] at *
        omega
      rcases h67 with rfl | rfl
      · exact h (by simp [Pipeline.arrRef, spec2])
      · exact h (by simp [Pipeline.arrRef, spec2])

/-- After the last stretch of host operations (the scores). -/
abbrev W7 : Dev nD → Valuation τ sig (Elt F) := fun c => StableHlo.after hostOps3 (W6 m c)

/-! ## A buffer that no item writes ends as launched -/

theorem W7_keep (c : Dev nD) (r : Ref sig .tc) (h0 : r ∉ hostOps0_W) (h1 : r ∉ ([main_v14_0, main_v14_1] : List (Ref sig .tc)))
    (h2 : r ∉ hostOps1_W) (h3 : r ∉ ([main_v28_0, main_v28_1] : List (Ref sig .tc))) (h4 : r ∉ hostOps2_W)
    (h5 : r ∉ ([main_v42_0, main_v42_1] : List (Ref sig .tc))) (h6 : r ∉ hostOps3_W) :
    W7 m c (Proc.devRef .tc r) = m ((c : Thread nD τ).loc r) :=
  calc W7 m c (Proc.devRef .tc r)
    _ = W6 m c (Proc.devRef .tc r) := StableHlo.after_of_writes_sub hostOps3 _ hostOps3_writes h6
    _ = W5 m c (Proc.devRef .tc r) := W6_keep m c r h5
    _ = W4 m c (Proc.devRef .tc r) := StableHlo.after_of_writes_sub hostOps2 _ hostOps2_writes h4
    _ = W3 m c (Proc.devRef .tc r) := W4_keep m c r h3
    _ = W2 m c (Proc.devRef .tc r) := StableHlo.after_of_writes_sub hostOps1 _ hostOps1_writes h2
    _ = W1 m c (Proc.devRef .tc r) := W2_keep m c r h1
    _ = W0 m c (Proc.devRef .tc r) := StableHlo.after_of_writes_sub hostOps0 _ hostOps0_writes h0
    _ = m ((c : Thread nD τ).loc r) := rfl

/-! ## The proof data family and the thread state -/

/-- No region has a prefetched table. -/
abbrev ladm : (p : Fin 3) → (pcfgs (F := F) p).Adm := fun p => (cfgs p).toPCfg_adm
/-- Every region's proof data, each at the contents the region is entered with. -/
def pdats : (p : Fin 3) → (c : Dev nD) → Dat τ (Elt F) Unit ℕ (UR sig nD τ) ℕ (Pipeline.pin (pcfgs (F := F)) ladm p) c
  | ⟨0, _⟩ => fun c => dat0 (X1 m) c
  | ⟨1, _⟩ => fun c => dat1 (X3 m) c
  | ⟨2, _⟩ => fun c => dat2 (X5 m) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev Ride (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- Region 0 over the thread state: entered with every unscoped buffer at `W1`, left with them at `W2`.  Its
    arrays are split out of the unscoped buffers and put back at the exit contents; the generator register goes into the
    class invariant and comes back; nothing is owed; the kernel has no semaphore of its own. -/
def reg0 : Pipeline.RegionSeg (pcfgs (F := F)) ladm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) ladm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) ladm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`.  Its
    arrays are split out of the unscoped buffers and put back at the exit contents; the generator register goes into the
    class invariant and comes back; nothing is owed; the kernel has no semaphore of its own. -/
def reg1 : Pipeline.RegionSeg (pcfgs (F := F)) ladm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ L lv 1 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) ladm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) ladm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`.  Its
    arrays are split out of the unscoped buffers and put back at the exit contents; the generator register goes into the
    class invariant and comes back; nothing is owed; the kernel has no semaphore of its own. -/
def reg2 : Pipeline.RegionSeg (pcfgs (F := F)) ladm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X5 m) c).loose
  hwaits := Pipeline.hwaits_of_owed_zero _ _ _ _ L lv 2 fun _ _ => rfl
  pre c := iprop(StableHlo.held (c : Thread nD τ) (Pipeline.ucRefs τ sig) (W5 m c) ∗ Ride c)
  post c := iprop(StableHlo.held (c : Thread nD τ) (Pipeline.ucRefs τ sig) (W6 m c) ∗ Ride c)
  X c := iprop(∃ r, prngReg c r)
  Y c := iprop(∃ r, prngReg c r)
  Z c := Pipeline.unscopedRest (Ix := Unit) (Name := ℕ) (U := UR sig nD τ) (Lvl := ℕ) spec2 c (X5 m c)
  hentry c := by
    rw [Pipeline.ownSems0_none]
    have hsplit := Pipeline.arrays_of_unscopedBufs (p := 2) (pcfgs (F := F)) ladm (pdats m) launch2.win launch2.arr_whole c
      ((pdats m 2 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) ladm (Ix := Unit) (Name := ℕ) (U := UR sig nD τ) (Lvl := ℕ)
      launch2.win launch2.arr_whole c (pdats m) ((pdats m 2 c).share_full fun _ => rfl)
      (X5 m c) (X6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the launch -/

abbrev segs : List (Pipeline.Seg (pcfgs (F := F)) ladm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- Every weakly fair execution of the program from memory `m` with zero counters terminates, nothing faulting, and at
    the end every unscoped buffer of every core holds the last contents `W7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) ladm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: the run terminates without a fault and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨
        (h c _ (mem_uc main_arg0 (by decide))).trans (W7_keep m c main_arg0 (by decide) (by decide) (by decide) (by decide) (by decide) (by decide) (by decide)),
        (h c _ (mem_uc main_arg1 (by decide))).trans (W7_keep m c main_arg1 (by decide) (by decide) (by decide) (by decide) (by decide) (by decide) (by decide)),
        (h c _ (mem_uc main_arg2 (by decide))).trans (W7_keep m c main_arg2 (by decide) (by decide) (by decide) (by decide) (by decide) (by decide) (by decide)),
        (h c _ (mem_uc main_arg3 (by decide))).trans (W7_keep m c main_arg3 (by decide) (by decide) (by decide) (by decide) (by decide) (by decide) (by decide)),
        (h c _ (mem_uc main_arg4 (by decide))).trans (W7_keep m c main_arg4 (by decide) (by decide) (by decide) (by decide) (by decide) (by decide) (by decide)),
        (h c _ (mem_uc main_arg5 (by decide))).trans (W7_keep m c main_arg5 (by decide) (by decide) (by decide) (by decide) (by decide) (by decide) (by decide)),
        (h c _ (mem_uc main_arg6 (by decide))).trans (W7_keep m c main_arg6 (by decide) (by decide) (by decide) (by decide) (by decide) (by decide) (by decide)),
        (h c _ (mem_uc main_arg7 (by decide))).trans (W7_keep m c main_arg7 (by decide) (by decide) (by decide) (by decide) (by decide) (by decide) (by decide)),
        (h c _ (mem_uc main_arg8 (by decide))).trans (W7_keep m c main_arg8 (by decide) (by decide) (by decide) (by decide) (by decide) (by decide) (by decide)),
        (h c _ (mem_uc main_arg9 (by decide))).trans (W7_keep m c main_arg9 (by decide) (by decide) (by decide) (by decide) (by decide) (by decide) (by decide)),
        (h c _ (mem_uc main_arg10 (by decide))).trans (W7_keep m c main_arg10 (by decide) (by decide) (by decide) (by decide) (by decide) (by decide) (by decide)),
        (h c _ (mem_uc main_arg11 (by decide))).trans (W7_keep m c main_arg11 (by decide) (by decide) (by decide) (by decide) (by decide) (by decide) (by decide)),
        (h c _ (mem_uc main_arg12 (by decide))).trans (W7_keep m c main_arg12 (by decide) (by decide) (by decide) (by decide) (by decide) (by decide) (by decide)),
        (h c _ (mem_uc main_arg13 (by decide))).trans (W7_keep m c main_arg13 (by decide) (by decide) (by decide) (by decide) (by decide) (by decide) (by decide)),
        (h c _ (mem_uc main_arg14 (by decide))).trans (W7_keep m c main_arg14 (by decide) (by decide) (by decide) (by decide) (by decide) (by decide) (by decide)),
        (h c _ (mem_uc main_arg15 (by decide))).trans (W7_keep m c main_arg15 (by decide) (by decide) (by decide) (by decide) (by decide) (by decide) (by decide)),
        (h c _ (mem_uc main_arg16 (by decide))).trans (W7_keep m c main_arg16 (by decide) (by decide) (by decide) (by decide) (by decide) (by decide) (by decide)),
        (h c _ (mem_uc main_arg17 (by decide))).trans (W7_keep m c main_arg17 (by decide) (by decide) (by decide) (by decide) (by decide) (by decide) (by decide)),
        (h c _ (mem_uc main_arg18 (by decide))).trans (W7_keep m c main_arg18 (by decide) (by decide) (by decide) (by decide) (by decide) (by decide) (by decide)),
        (h c _ (mem_uc main_arg19 (by decide))).trans (W7_keep m c main_arg19 (by decide) (by decide) (by decide) (by decide) (by decide) (by decide) (by decide))⟩) (run_all m ρ)

end Cert.Kernel.Layer

end
-- ==== Proof.KI.Body0.lean ====
/-
  Region 0 of the program: one layer of the network on a block of 5000 rows.  From the block of the current
  embedding x and of the aggregated neighbourhood s (both 5000 rows), the two weight matrices and the two bias rows,
  the body computes a = (x + s)·Wg + bg and b = (x ∘ s)·Wb + bb, the new embedding e = lrelu(a) + lrelu(b)
  (lrelu z = z when z ≥ 0 and 0.01·z otherwise), the clamped row norm n = max(sqrt(Σ_lanes e²), 1e-12), and stores
  e into its first output block and e / n into its second.  This module states what each output block holds after
  the body as a function of the six input blocks, runs the body against that statement, and packages the result as
  the pipeline's proof data and body obligation, all at an arbitrary content V of the arrays when the region is entered.
-/
import proofs.«156520_j49993419325916_1_alg».proof.Proof.Gen.KernelIdeal.Launch
import proofs.«156520_j49993419325916_1_alg».proof.Proof.Gen.KernelIdeal.Skeleton
import proofs.«156520_j49993419325916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 5000·t … 5000·t + 4999 of a row-tiled array, the whole array for a
    weight or a bias, read off the array's contents when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, whether the point
    fetches it or not (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, whether the point
    fetches it or not (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry array at every point, whether the point
    fetches it or not (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry array at every point, whether the point
    fetches it or not (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the entry array at every point, whether the point
    fetches it or not (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the entry array at every point, whether the point
    fetches it or not (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole staging buffer -/

abbrev rIn0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rOut0 : Rect S5000x64 := Rect.unit (s := S5000x64) ![0, 0] S5000x64.size inb_S5000x64_S5000x64_0_0

/-! ## What the body leaves in the two output blocks -/

/-- The first output block after the body: the new embedding e of the six input blocks. -/
def out0_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rOut0, k0_pay2 (View.ld x0 rIn0) (View.ld x1 rIn0) (View.ld x2 rW0) (View.ld x4 rW0) (View.ld x3 rB0) (View.ld x5 rB0)⟩]

/-- The second output block after the body: the new embedding divided by its clamped row norm, e / n. -/
def out0_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rOut0, k0_pay1 (k0_pay2 (View.ld x0 rIn0) (View.ld x1 rIn0) (View.ld x2 rW0) (View.ld x4 rW0) (View.ld x3 rB0) (View.ld x5 rB0)) (k0_pay3 (View.ld x0 rIn0) (View.ld x1 rIn0) (View.ld x2 rW0) (View.ld x4 rW0) (View.ld x3 rB0) (View.ld x5 rB0))⟩]

/-- One store of a whole block covers the block. -/
theorem cover0 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

/-! ## The body's run -/

set_option maxHeartbeats 4000000 in
/-- The body on whole staging buffers, the six inputs' at contents x0 … x5 and the two outputs' at anything, runs to its
    end without a fault, leaves the inputs as they were, the first output at e and the second at e / n. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of this region on core `c`: the arrays as the region finds them; after the body at point `t` each
    input's buffer still at its block, the first output's at e and the second's at e / n of the blocks at `t`; the
    invariant is the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's dues, and the eight windows' current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the run above applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layer

end
-- ==== Proof.KI.Body1.lean ====
/-
  Region 1 of the program: one layer of the network on a block of 5000 rows.  From the block of the current
  embedding x and of the aggregated neighbourhood s (both 5000 rows), the two weight matrices and the two bias rows,
  the body computes a = (x + s)·Wg + bg and b = (x ∘ s)·Wb + bb, the new embedding e = lrelu(a) + lrelu(b)
  (lrelu z = z when z ≥ 0 and 0.01·z otherwise), the clamped row norm n = max(sqrt(Σ_lanes e²), 1e-12), and stores
  e into its first output block and e / n into its second.  This module states what each output block holds after
  the body as a function of the six input blocks, runs the body against that statement, and packages the result as
  the pipeline's proof data and body obligation, all at an arbitrary content V of the arrays when the region is entered.
-/
import proofs.«156520_j49993419325916_1_alg».proof.Proof.Gen.KernelIdeal.Launch
import proofs.«156520_j49993419325916_1_alg».proof.Proof.Gen.KernelIdeal.Skeleton
import proofs.«156520_j49993419325916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 5000·t … 5000·t + 4999 of a row-tiled array, the whole array for a
    weight or a bias, read off the array's contents when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry array at every point, whether the point
    fetches it or not (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry array at every point, whether the point
    fetches it or not (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry array at every point, whether the point
    fetches it or not (an unfetched window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry array at every point, whether the point
    fetches it or not (an unfetched window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the entry array at every point, whether the point
    fetches it or not (an unfetched window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the entry array at every point, whether the point
    fetches it or not (an unfetched window's block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole staging buffer -/

abbrev rIn1 : Rect S5000x64 := Rect.unit (s := S5000x64) ![0, 0] S5000x64.size inb_S5000x64_S5000x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rOut1 : Rect S5000x32 := Rect.unit (s := S5000x32) ![0, 0] S5000x32.size inb_S5000x32_S5000x32_0_0

/-! ## What the body leaves in the two output blocks -/

/-- The first output block after the body: the new embedding e of the six input blocks. -/
def out1_6 (x0 : Vec F S5000x64 .f32) (x1 : Vec F S5000x64 .f32) (x2 : Vec F S64x32 .f32) (x3 : Vec F S1x32 .f32) (x4 : Vec F S64x32 .f32) (x5 : Vec F S1x32 .f32) : Vec F S5000x32 .f32 :=
  View.canon [⟨rOut1, k1_pay2 (View.ld x0 rIn1) (View.ld x1 rIn1) (View.ld x2 rW1) (View.ld x4 rW1) (View.ld x3 rB1) (View.ld x5 rB1)⟩]

/-- The second output block after the body: the new embedding divided by its clamped row norm, e / n. -/
def out1_7 (x0 : Vec F S5000x64 .f32) (x1 : Vec F S5000x64 .f32) (x2 : Vec F S64x32 .f32) (x3 : Vec F S1x32 .f32) (x4 : Vec F S64x32 .f32) (x5 : Vec F S1x32 .f32) : Vec F S5000x32 .f32 :=
  View.canon [⟨rOut1, k1_pay1 (k1_pay2 (View.ld x0 rIn1) (View.ld x1 rIn1) (View.ld x2 rW1) (View.ld x4 rW1) (View.ld x3 rB1) (View.ld x5 rB1)) (k1_pay3 (View.ld x0 rIn1) (View.ld x1 rIn1) (View.ld x2 rW1) (View.ld x4 rW1) (View.ld x3 rB1) (View.ld x5 rB1))⟩]

/-- One store of a whole block covers the block. -/
theorem cover1 (p0 : Vec F S5000x32 .f32) (y : S5000x32.Idx) :
    ∃ pc ∈ ([⟨rOut1, p0⟩] : List (View.Piece (Elt F) S5000x32 .f32)), y ∈ pc.1.set :=
  View.cover_of_tiled [⟨rOut1, p0⟩] S5000x32.size (by rfl) y

/-! ## The body's run -/

set_option maxHeartbeats 4000000 in
/-- The body on whole staging buffers, the six inputs' at contents x0 … x5 and the two outputs' at anything, runs to its
    end without a fault, leaves the inputs as they were, the first output at e and the second at e / n. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S5000x32 .f32) (harg7 : arg7.IsWhole) (arg8 : Memref sig .tc .vmem S5000x32 .f32) (harg8 : arg8.IsWhole)
    (x0 : Vec F S5000x64 .f32) (x1 : Vec F S5000x64 .f32) (x2 : Vec F S64x32 .f32) (x3 : Vec F S1x32 .f32) (x4 : Vec F S64x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The pipeline's proof data -/

/-- The proof data of this region on core `c`: the arrays as the region finds them; after the body at point `t` each
    input's buffer still at its block, the first output's at e and the second's at e / n of the blocks at `t`; the
    invariant is the class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's dues, and the eight windows' current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the run above applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layer

end
-- ==== Proof.KI.Body2.lean ====
/-
  Region 2 of the program: one layer of the network on a block of 5000 rows.  From the block of the current
  embedding x and of the aggregated neighbourhood s (both 5000 rows), the two weight matrices and the two bias rows,
  the body computes a = (x + s)·Wg + bg and b = (x ∘ s)·Wb + bb, the new embedding e = lrelu(a) + lrelu(b)
  (lrelu z = z when z ≥ 0 and 0.01·z otherwise), the clamped row norm n = max(sqrt(Σ_lanes e²), 1e-12), and stores
  e into its first output block and e / n into its second.  This module states what each output block holds after
  the body as a function of the six input blocks, runs the body against that statement, and packages the result as
  the pipeline's proof data and body obligation, all at an arbitrary content V of the arrays when the region is entered.
-/
import proofs.«156520_j49993419325916_1_alg».proof.Proof.Gen.KernelIdeal.Launch
import proofs.«156520_j49993419325916_1_alg».proof.Proof.Gen.KernelIdeal.Skeleton
import proofs.«156520_j49993419325916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 5000·t … 5000·t + 4999 of a row-tiled array, the whole array for a
    weight or a bias, read off the array's contents when the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry array at every point, whether the point
    fetches it or not (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the entry array at every point, whether the point
    fetches it or not (an unfetched window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the entry array at every point, whether the point
    fetches it or not (an unfetched window's block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the entry array at every point, whether the point
    fetches it or not (an unfetched window's block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the entry array at every point, whether the point
    fetches it or not (an unfetched window's block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the entry array at every point, whether the point
    fetches it or not (an unfetched window's block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole staging buffer -/

abbrev rIn2 : Rect S5000x32 := Rect.unit (s := S5000x32) ![0, 0] S5000x32.size inb_S5000x32_S5000x32_0_0
abbrev rW2 : Rect S32x16 := Rect.unit (s := S32x16) ![0, 0] S32x16.size inb_S32x16_S32x16_0_0
abbrev rB2 : Rect S1x16 := Rect.unit (s := S1x16) ![0, 0] S1x16.size inb_S1x16_S1x16_0_0
abbrev rOut2 : Rect S5000x16 := Rect.unit (s := S5000x16) ![0, 0] S5000x16.size inb_S5000x16_S5000x16_0_0

/-! ## What the body leaves in the two output blocks -/

/-- The first output block after the body: the new embedding e of the six input blocks. -/
def out2_6 (x0 : Vec F S5000x32 .f32) (x1 : Vec F S5000x32 .f32) (x2 : Vec F S32x16 .f32) (x3 : Vec F S1x16 .f32) (x4 : Vec F S32x16 .f32) (x5 : Vec F S1x16 .f32) : Vec F S5000x16 .f32 :=
  View.canon [⟨rOut2, k2_pay2 (View.ld x0 rIn2) (View.ld x1 rIn2) (View.ld x2 rW2) (View.ld x4 rW2) (View.ld x3 rB2) (View.ld x5 rB2)⟩]

/-- The second output block after the body: the new embedding divided by its clamped row norm, e / n. -/
def out2_7 (x0 : Vec F S5000x32 .f32) (x1 : Vec F S5000x32 .f32) (x2 : Vec F S32x16 .f32) (x3 : Vec F S1x16 .f32) (x4 : Vec F S32x16 .f32) (x5 : Vec F S1x16 .f32) : Vec F S5000x16 .f32 :=
  View.canon [⟨rOut2, k2_pay1 (k2_pay2 (View.ld x0 rIn2) (View.ld x1 rIn2) (View.ld x2 rW2) (View.ld x4 rW2) (View.ld x3 rB2) (View.ld x5 rB2)) (k2_pay3 (View.ld x0 rIn2) (View.ld x1 rIn2) (View.ld x2 rW2) (View.ld x4 rW2) (View.ld x3 rB2) (View.ld x5 rB2))⟩]

/-- One store of a whole block covers the block. -/
theorem cover2 (p0 : Vec F S5000x16 .f32) (y : S5000x16.Idx) :
    ∃ pc ∈ ([⟨rOut2, p0⟩] : List (View.Piece (Elt F) S5000x16 .f32)), y ∈ pc.1.set :=
  View.cover_of_tiled [⟨rOut2, p0⟩] S5000x16.size (by rfl) y

/-! ## The body's run -/

set_option maxHeartbeats 4000000 in
/-- The body on whole staging buffers, the six inputs' at contents x0 … x5 and the two outputs' at anything, runs to its
    end without a fault, leaves the inputs as they were, the first output at e and the second at e / n. -/
theorem sound_kernel2 (c : Dev nD) (E : Set ℕ) (i : grid2.Coords) (arg1 : Memref sig .tc .vmem S5000x32 .f32) (harg1 : arg1.IsWhole) (arg2 : Memref sig .tc .vmem S5000x32 .f32) (harg2 : arg2.IsWhole) (arg3 : Memref sig .tc .vmem S32x16 .f32) (harg3 : arg3.IsWhole) (arg4 : Memref sig .tc .vmem S1x16 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S5000x16 .f32) (harg7 : arg7.IsWhole) (arg8 : Memref sig .tc .vmem S5000x16 .f32) (harg8 : arg8.IsWhole)
    (x0 : Vec F S5000x32 .f32) (x1 : Vec F S5000x32 .f32) (x2 : Vec F S32x16 .f32) (x3 : Vec F S1x16 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The pipeline's proof data -/

/-- The proof data of this region on core `c`: the arrays as the region finds them; after the body at point `t` each
    input's buffer still at its block, the first output's at e and the second's at e / n of the blocks at `t`; the
    invariant is the class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, the core's dues, and the eight windows' current buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the run above applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layer

end
-- ==== Proof.KI.Run.lean ====
/-
  The whole run of the program: host operations, then three times (a layer's region, host operations).  Between two
  items every buffer of the core that is not scoped to a region is held at a known content: the launch memory, then the
  host operations applied to it, then — after a region — the same with that region's two output arrays replaced by
  what its forty write-backs leave, and so on to the end.  The run terminates without a fault, and at the end every such
  buffer holds the last of these contents; in particular no argument array was ever written.
-/
import proofs.«156520_j49993419325916_1_alg».proof.Proof.KI.Body0
import proofs.«156520_j49993419325916_1_alg».proof.Proof.KI.Body1
import proofs.«156520_j49993419325916_1_alg».proof.Proof.KI.Body2
import proofs.«156520_j49993419325916_1_alg».proof.Proof.Gen.KernelIdeal.Regions

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the first stretch of host operations: the two embedding tables stacked, and the first aggregation. -/
abbrev W1 : Dev nD → Valuation τ sig (Elt F) := fun c => StableHlo.after hostOps0 (W0 m c)
abbrev X1 : (c : Dev nD) → (b : Ref sig .tc) → Buf (Elt F) ((c : Thread nD τ).loc b) := fun c b => W1 m c b

/-- At region 0's exit its arrays hold what the pipeline leaves: `Dat.arrAt … N`. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same contents read at the TensorCore's references. -/
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)
/-- Region 0 changes only its two output arrays: an input array is written back as it was found, and no other
    buffer is touched. -/
theorem W2_keep (c : Dev nD) (b : Ref sig .tc) (h : b ∉ ([main_v14_0, main_v14_1] : List (Ref sig .tc))) :
    W2 m c (Proc.devRef .tc b) = W1 m c (Proc.devRef .tc b) := by
  by_cases hb : ∀ w, Pipeline.arrRef spec0 w ≠ b
  · exact W2_of_ne m c b hb
  · simp only [ne_eq, not_forall, not_not] at hb
    obtain ⟨w, rfl⟩ := hb
    have hin : ∀ w : Fin cfg0.W, w.val < 6 → W2 m c (Proc.devRef .tc (Pipeline.arrRef spec0 w)) = W1 m c (Proc.devRef .tc (Pipeline.arrRef spec0 w)) := by
      intro w hw
      match w, hw with
      | ⟨0, _⟩, _ => exact (W2_arr m c 0).trans (((dat0 (X1 m) c).arrAt_in 0 rfl _).trans (A_eq0 (X1 m) c 0))
      | ⟨1, _⟩, _ => exact (W2_arr m c 1).trans (((dat0 (X1 m) c).arrAt_in 1 rfl _).trans (A_eq0 (X1 m) c 1))
      | ⟨2, _⟩, _ => exact (W2_arr m c 2).trans (((dat0 (X1 m) c).arrAt_in 2 rfl _).trans (A_eq0 (X1 m) c 2))
      | ⟨3, _⟩, _ => exact (W2_arr m c 3).trans (((dat0 (X1 m) c).arrAt_in 3 rfl _).trans (A_eq0 (X1 m) c 3))
      | ⟨4, _⟩, _ => exact (W2_arr m c 4).trans (((dat0 (X1 m) c).arrAt_in 4 rfl _).trans (A_eq0 (X1 m) c 4))
      | ⟨5, _⟩, _ => exact (W2_arr m c 5).trans (((dat0 (X1 m) c).arrAt_in 5 rfl _).trans (A_eq0 (X1 m) c 5))
    by_cases hw : w.val < 6
    · exact hin w hw
    · exfalso
      have h67 : w = 6 ∨ w = 7 := by
        have := w.isLt
        rcases w with ⟨v, hv⟩
        have hv8 : v < 8 := hv
        simp only [Fin.mk.injEq, Fin.ext_iff] at *
        omega
      rcases h67 with rfl | rfl
      · exact h (by simp [Pipeline.arrRef, spec0])
      · exact h (by simp [Pipeline.arrRef, spec0])

/-- After the second stretch of host operations (the second aggregation). -/
abbrev W3 : Dev nD → Valuation τ sig (Elt F) := fun c => StableHlo.after hostOps1 (W2 m c)
abbrev X3 : (c : Dev nD) → (b : Ref sig .tc) → Buf (Elt F) ((c : Thread nD τ).loc b) := fun c b => W3 m c b

/-- At region 1's exit its arrays hold what the pipeline leaves: `Dat.arrAt … N`. -/
def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same contents read at the TensorCore's references. -/
abbrev X4 : (c : Dev nD) → (b : Ref sig .tc) → Buf (Elt F) ((c : Thread nD τ).loc b) := fun c b => W4 m c b
theorem hF1 (c : Dev nD) (w : Fin cfg1.W) : (dat1 (X3 m) c).arrAt w cfg1.N = X4 m c (Pipeline.arrRef spec1 w) :=
  (W4_arr m c w).symm
theorem hrest1 (c : Dev nD) : ∀ b, b ∉ Finset.univ.image (Pipeline.arrRef spec1) → X4 m c b = X3 m c b :=
  fun b hb => W4_of_ne m c b fun w e => hb (Finset.mem_image.mpr ⟨w, Finset.mem_univ _, e⟩)
/-- Region 1 changes only its two output arrays: an input array is written back as it was found, and no other
    buffer is touched. -/
theorem W4_keep (c : Dev nD) (b : Ref sig .tc) (h : b ∉ ([main_v28_0, main_v28_1] : List (Ref sig .tc))) :
    W4 m c (Proc.devRef .tc b) = W3 m c (Proc.devRef .tc b) := by
  by_cases hb : ∀ w, Pipeline.arrRef spec1 w ≠ b
  · exact W4_of_ne m c b hb
  · simp only [ne_eq, not_forall, not_not] at hb
    obtain ⟨w, rfl⟩ := hb
    have hin : ∀ w : Fin cfg1.W, w.val < 6 → W4 m c (Proc.devRef .tc (Pipeline.arrRef spec1 w)) = W3 m c (Proc.devRef .tc (Pipeline.arrRef spec1 w)) := by
      intro w hw
      match w, hw with
      | ⟨0, _⟩, _ => exact (W4_arr m c 0).trans (((dat1 (X3 m) c).arrAt_in 0 rfl _).trans (A_eq1 (X3 m) c 0))
      | ⟨1, _⟩, _ => exact (W4_arr m c 1).trans (((dat1 (X3 m) c).arrAt_in 1 rfl _).trans (A_eq1 (X3 m) c 1))
      | ⟨2, _⟩, _ => exact (W4_arr m c 2).trans (((dat1 (X3 m) c).arrAt_in 2 rfl _).trans (A_eq1 (X3 m) c 2))
      | ⟨3, _⟩, _ => exact (W4_arr m c 3).trans (((dat1 (X3 m) c).arrAt_in 3 rfl _).trans (A_eq1 (X3 m) c 3))
      | ⟨4, _⟩, _ => exact (W4_arr m c 4).trans (((dat1 (X3 m) c).arrAt_in 4 rfl _).trans (A_eq1 (X3 m) c 4))
      | ⟨5, _⟩, _ => exact (W4_arr m c 5).trans (((dat1 (X3 m) c).arrAt_in 5 rfl _).trans (A_eq1 (X3 m) c 5))
    by_cases hw : w.val < 6
    · exact hin w hw
    · exfalso
      have h67 : w = 6 ∨ w = 7 := by
        have := w.isLt
        rcases w with ⟨v, hv⟩
        have hv8 : v < 8 := hv
        simp only [Fin.mk.injEq, Fin.ext_iff] at *
        omega
      rcases h67 with rfl | rfl
      · exact h (by simp [Pipeline.arrRef, spec1])
      · exact h (by simp [Pipeline.arrRef, spec1])

/-- After the third stretch of host operations (the third aggregation). -/
abbrev W5 : Dev nD → Valuation τ sig (Elt F) := fun c => StableHlo.after hostOps2 (W4 m c)
abbrev X5 : (c : Dev nD) → (b : Ref sig .tc) → Buf (Elt F) ((c : Thread nD τ).loc b) := fun c b => W5 m c b

/-- At region 2's exit its arrays hold what the pipeline leaves: `Dat.arrAt … N`. -/
def W6 (c : Dev nD) : Valuation τ sig (Elt F) :=
  Pipeline.withArrays spec2 c (W5 m c) fun w => (dat2 (X5 m) c).arrAt w cfg2.N
theorem W6_arr (c : Dev nD) (w : Fin cfg2.W) :
    W6 m c (Proc.devRef .tc (Pipeline.arrRef spec2 w)) = (dat2 (X5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same contents read at the TensorCore's references. -/
abbrev X6 : (c : Dev nD) → (b : Ref sig .tc) → Buf (Elt F) ((c : Thread nD τ).loc b) := fun c b => W6 m c b
theorem hF2 (c : Dev nD) (w : Fin cfg2.W) : (dat2 (X5 m) c).arrAt w cfg2.N = X6 m c (Pipeline.arrRef spec2 w) :=
  (W6_arr m c w).symm
theorem hrest2 (c : Dev nD) : ∀ b, b ∉ Finset.univ.image (Pipeline.arrRef spec2) → X6 m c b = X5 m c b :=
  fun b hb => W6_of_ne m c b fun w e => hb (Finset.mem_image.mpr ⟨w, Finset.mem_univ _, e⟩)
/-- Region 2 changes only its two output arrays: an input array is written back as it was found, and no other
    buffer is touched. -/
theorem W6_keep (c : Dev nD) (b : Ref sig .tc) (h : b ∉ ([main_v42_0, main_v42_1] : List (Ref sig .tc))) :
    W6 m c (Proc.devRef .tc b) = W5 m c (Proc.devRef .tc b) := by
  by_cases hb : ∀ w, Pipeline.arrRef spec2 w ≠ b
  · exact W6_of_ne m c b hb
  · simp only [ne_eq, not_forall, not_not] at hb
    obtain ⟨w, rfl⟩ := hb
    have hin : ∀ w : Fin cfg2.W, w.val < 6 → W6 m c (Proc.devRef .tc (Pipeline.arrRef spec2 w)) = W5 m c (Proc.devRef .tc (Pipeline.arrRef spec2 w)) := by
      intro w hw
      match w, hw with
      | ⟨0, _⟩, _ => exact (W6_arr m c 0).trans (((dat2 (X5 m) c).arrAt_in 0 rfl _).trans (A_eq2 (X5 m) c 0))
      | ⟨1, _⟩, _ => exact (W6_arr m c 1).trans (((dat2 (X5 m) c).arrAt_in 1 rfl _).trans (A_eq2 (X5 m) c 1))
      | ⟨2, _⟩, _ => exact (W6_arr m c 2).trans (((dat2 (X5 m) c).arrAt_in 2 rfl _).trans (A_eq2 (X5 m) c 2))
      | ⟨3, _⟩, _ => exact (W6_arr m c 3).trans (((dat2 (X5 m) c).arrAt_in 3 rfl _).trans (A_eq2 (X5 m) c 3))
      | ⟨4, _⟩, _ => exact (W6_arr m c 4).trans (((dat2 (X5 m) c).arrAt_in 4 rfl _).trans (A_eq2 (X5 m) c 4))
      | ⟨5, _⟩, _ => exact (W6_arr m c 5).trans (((dat2 (X5 m) c).arrAt_in 5 rfl _).trans (A_eq2 (X5 m) c 5))
    by_cases hw : w.val < 6
    · exact hin w hw
    · exfalso
      have h67 : w = 6 ∨ w = 7 := by
        have := w.isLt
        rcases w with ⟨v, hv⟩
        have hv8 : v < 8 := hv
        simp only [Fin.mk.injEq, Fin.ext_iff] at *
        omega
      rcases h67 with rfl | rfl
      · exact h (by simp [Pipeline.arrRef, spec2])
      · exact h (by simp [Pipeline.arrRef, spec2])

/-- After the last stretch of host operations (the scores). -/
abbrev W7 : Dev nD → Valuation τ sig (Elt F) := fun c => StableHlo.after hostOps3 (W6 m c)

/-! ## A buffer that no item writes ends as launched -/

theorem W7_keep (c : Dev nD) (r : Ref sig .tc) (h0 : r ∉ hostOps0_W) (h1 : r ∉ ([main_v14_0, main_v14_1] : List (Ref sig .tc)))
    (h2 : r ∉ hostOps1_W) (h3 : r ∉ ([main_v28_0, main_v28_1] : List (Ref sig .tc))) (h4 : r ∉ hostOps2_W)
    (h5 : r ∉ ([main_v42_0, main_v42_1] : List (Ref sig .tc))) (h6 : r ∉ hostOps3_W) :
    W7 m c (Proc.devRef .tc r) = m ((c : Thread nD τ).loc r) :=
  calc W7 m c (Proc.devRef .tc r)
    _ = W6 m c (Proc.devRef .tc r) := StableHlo.after_of_writes_sub hostOps3 _ hostOps3_writes h6
    _ = W5 m c (Proc.devRef .tc r) := W6_keep m c r h5
    _ = W4 m c (Proc.devRef .tc r) := StableHlo.after_of_writes_sub hostOps2 _ hostOps2_writes h4
    _ = W3 m c (Proc.devRef .tc r) := W4_keep m c r h3
    _ = W2 m c (Proc.devRef .tc r) := StableHlo.after_of_writes_sub hostOps1 _ hostOps1_writes h2
    _ = W1 m c (Proc.devRef .tc r) := W2_keep m c r h1
    _ = W0 m c (Proc.devRef .tc r) := StableHlo.after_of_writes_sub hostOps0 _ hostOps0_writes h0
    _ = m ((c : Thread nD τ).loc r) := rfl

/-! ## The proof data family and the thread state -/

/-- No region has a prefetched table. -/
abbrev ladm : (p : Fin 3) → (pcfgs (F := F) p).Adm := fun p => (cfgs p).toPCfg_adm
/-- Every region's proof data, each at the contents the region is entered with. -/
def pdats : (p : Fin 3) → (c : Dev nD) → Dat τ (Elt F) Unit ℕ (UR sig nD τ) ℕ (Pipeline.pin (pcfgs (F := F)) ladm p) c
  | ⟨0, _⟩ => fun c => dat0 (X1 m) c
  | ⟨1, _⟩ => fun c => dat1 (X3 m) c
  | ⟨2, _⟩ => fun c => dat2 (X5 m) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev Ride (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- Region 0 over the thread state: entered with every unscoped buffer at `W1`, left with them at `W2`.  Its
    arrays are split out of the unscoped buffers and put back at the exit contents; the generator register goes into the
    class invariant and comes back; nothing is owed; the kernel has no semaphore of its own. -/
def reg0 : Pipeline.RegionSeg (pcfgs (F := F)) ladm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) ladm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) ladm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`.  Its
    arrays are split out of the unscoped buffers and put back at the exit contents; the generator register goes into the
    class invariant and comes back; nothing is owed; the kernel has no semaphore of its own. -/
def reg1 : Pipeline.RegionSeg (pcfgs (F := F)) ladm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ L lv 1 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) ladm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) ladm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`.  Its
    arrays are split out of the unscoped buffers and put back at the exit contents; the generator register goes into the
    class invariant and comes back; nothing is owed; the kernel has no semaphore of its own. -/
def reg2 : Pipeline.RegionSeg (pcfgs (F := F)) ladm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X5 m) c).loose
  hwaits := Pipeline.hwaits_of_owed_zero _ _ _ _ L lv 2 fun _ _ => rfl
  pre c := iprop(StableHlo.held (c : Thread nD τ) (Pipeline.ucRefs τ sig) (W5 m c) ∗ Ride c)
  post c := iprop(StableHlo.held (c : Thread nD τ) (Pipeline.ucRefs τ sig) (W6 m c) ∗ Ride c)
  X c := iprop(∃ r, prngReg c r)
  Y c := iprop(∃ r, prngReg c r)
  Z c := Pipeline.unscopedRest (Ix := Unit) (Name := ℕ) (U := UR sig nD τ) (Lvl := ℕ) spec2 c (X5 m c)
  hentry c := by
    rw [Pipeline.ownSems0_none]
    have hsplit := Pipeline.arrays_of_unscopedBufs (p := 2) (pcfgs (F := F)) ladm (pdats m) launch2.win launch2.arr_whole c
      ((pdats m 2 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) ladm (Ix := Unit) (Name := ℕ) (U := UR sig nD τ) (Lvl := ℕ)
      launch2.win launch2.arr_whole c (pdats m) ((pdats m 2 c).share_full fun _ => rfl)
      (X5 m c) (X6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the launch -/

abbrev segs : List (Pipeline.Seg (pcfgs (F := F)) ladm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- Every weakly fair execution of the program from memory `m` with zero counters terminates, nothing faulting, and at
    the end every unscoped buffer of every core holds the last contents `W7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) ladm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: the run terminates without a fault and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨
        (h c _ (mem_uc main_arg0 (by decide))).trans (W7_keep m c main_arg0 (by decide) (by decide) (by decide) (by decide) (by decide) (by decide) (by decide)),
        (h c _ (mem_uc main_arg1 (by decide))).trans (W7_keep m c main_arg1 (by decide) (by decide) (by decide) (by decide) (by decide) (by decide) (by decide)),
        (h c _ (mem_uc main_arg2 (by decide))).trans (W7_keep m c main_arg2 (by decide) (by decide) (by decide) (by decide) (by decide) (by decide) (by decide)),
        (h c _ (mem_uc main_arg3 (by decide))).trans (W7_keep m c main_arg3 (by decide) (by decide) (by decide) (by decide) (by decide) (by decide) (by decide)),
        (h c _ (mem_uc main_arg4 (by decide))).trans (W7_keep m c main_arg4 (by decide) (by decide) (by decide) (by decide) (by decide) (by decide) (by decide)),
        (h c _ (mem_uc main_arg5 (by decide))).trans (W7_keep m c main_arg5 (by decide) (by decide) (by decide) (by decide) (by decide) (by decide) (by decide)),
        (h c _ (mem_uc main_arg6 (by decide))).trans (W7_keep m c main_arg6 (by decide) (by decide) (by decide) (by decide) (by decide) (by decide) (by decide)),
        (h c _ (mem_uc main_arg7 (by decide))).trans (W7_keep m c main_arg7 (by decide) (by decide) (by decide) (by decide) (by decide) (by decide) (by decide)),
        (h c _ (mem_uc main_arg8 (by decide))).trans (W7_keep m c main_arg8 (by decide) (by decide) (by decide) (by decide) (by decide) (by decide) (by decide)),
        (h c _ (mem_uc main_arg9 (by decide))).trans (W7_keep m c main_arg9 (by decide) (by decide) (by decide) (by decide) (by decide) (by decide) (by decide)),
        (h c _ (mem_uc main_arg10 (by decide))).trans (W7_keep m c main_arg10 (by decide) (by decide) (by decide) (by decide) (by decide) (by decide) (by decide)),
        (h c _ (mem_uc main_arg11 (by decide))).trans (W7_keep m c main_arg11 (by decide) (by decide) (by decide) (by decide) (by decide) (by decide) (by decide)),
        (h c _ (mem_uc main_arg12 (by decide))).trans (W7_keep m c main_arg12 (by decide) (by decide) (by decide) (by decide) (by decide) (by decide) (by decide)),
        (h c _ (mem_uc main_arg13 (by decide))).trans (W7_keep m c main_arg13 (by decide) (by decide) (by decide) (by decide) (by decide) (by decide) (by decide)),
        (h c _ (mem_uc main_arg14 (by decide))).trans (W7_keep m c main_arg14 (by decide) (by decide) (by decide) (by decide) (by decide) (by decide) (by decide)),
        (h c _ (mem_uc main_arg15 (by decide))).trans (W7_keep m c main_arg15 (by decide) (by decide) (by decide) (by decide) (by decide) (by decide) (by decide)),
        (h c _ (mem_uc main_arg16 (by decide))).trans (W7_keep m c main_arg16 (by decide) (by decide) (by decide) (by decide) (by decide) (by decide) (by decide)),
        (h c _ (mem_uc main_arg17 (by decide))).trans (W7_keep m c main_arg17 (by decide) (by decide) (by decide) (by decide) (by decide) (by decide) (by decide)),
        (h c _ (mem_uc main_arg18 (by decide))).trans (W7_keep m c main_arg18 (by decide) (by decide) (by decide) (by decide) (by decide) (by decide) (by decide)),
        (h c _ (mem_uc main_arg19 (by decide))).trans (W7_keep m c main_arg19 (by decide) (by decide) (by decide) (by decide) (by decide) (by decide) (by decide))⟩) (run_all m ρ)

end Cert.KernelIdeal.Layer

end
-- ==== Proof.Ref.Terms.lean ====
/-
  The reference's layer as named functions of whole arrays.  A layer takes the current embedding x and the aggregated
  neighbourhood s (200000 rows each), two weight matrices and two bias rows, and returns the new embedding
  e = lrelu((x + s)·Wg + bg) + lrelu((x ∘ s)·Wb + bb) and its row-normalised form e / max(‖e_row‖, 1e-12).  The
  definitions are the reference program's own operations, composed in its order and spelt as it spells them, so that
  its run's result is these terms by unfolding, and they are the specification the tiled kernel is compared with.
-/
import proofs.«156520_j49993419325916_1_alg».proof.ReferenceIdeal

noncomputable section

namespace Cert.ReferenceIdeal.Terms

open Idealize.ShloMosaic Cert.ReferenceIdeal Cert.ReferenceIdeal.Facts₀ Cert.ReferenceIdeal.Facts

variable {F : FTy → Type} [FloatOps F] [Cert.ReferenceIdeal.Facts]

/-! ## Layer 0: 64 features in, 64 out -/

/-- The leaky rectifier on a 200000x64 array: z where z ≥ 0, and 0.01·z elsewhere. -/
def lrelu0 (a : FVec F S200000x64 .f32) : FVec F S200000x64 .f32 :=
  select (cmpf .oge a (broadcastInDim S200000x64 ![] bcast_S_S200000x64 (constant S_ .f32 0x00000000#32))) a
    (mulf (broadcastInDim S200000x64 ![] bcast_S_S200000x64 (constant S_ .f32 0x3C23D70A#32)) a)

/-- The new embedding of layer 0: lrelu((x + s)·Wg + bg) + lrelu((x ∘ s)·Wb + bb), on all 200000 rows at once. -/
def layerE0 (x s : FVec F S200000x64 .f32) (Wg : FVec F S64x64 .f32) (bg : FVec F S1x64 .f32) (Wb : FVec F S64x64 .f32) (bb : FVec F S1x64 .f32) :
    FVec F S200000x64 .f32 :=
  addf
    (lrelu0 (addf (Host.dotGeneral dot_S200000x64_S64x64_S200000x64_1_0_0_1_n_n none (addf x s) Wg) (broadcastInDim S200000x64 ![0, 1] bcast_S1x64_S200000x64_0_1 bg)))
    (lrelu0 (addf (Host.dotGeneral dot_S200000x64_S64x64_S200000x64_1_0_0_1_n_n none (mulf x s) Wb) (broadcastInDim S200000x64 ![0, 1] bcast_S1x64_S200000x64_0_1 bb)))

/-- The clamped row norms of a 200000x64 array, one per row: max(sqrt(Σ_lanes e²), 1e-12). -/
def rowNorm0 (e : FVec F S200000x64 .f32) : FVec F S200000x1 .f32 :=
  maximumf
    (Host.sqrt (broadcastInDim S200000x1 ![0] bcast_S200000_S200000x1_0
      (Host.reduceAdd (mulf e e) (constant S_ .f32 0x00000000#32) reducesTo_S200000x64_S200000_d1 h_S_)))
    (broadcastInDim S200000x1 ![] bcast_S_S200000x1 (constant S_ .f32 0x2B8CBCCC#32))

/-- The normalised embedding of layer 0: every row divided by its clamped norm. -/
def normed0 (e : FVec F S200000x64 .f32) : FVec F S200000x64 .f32 :=
  Host.divf e (broadcastInDim S200000x64 ![0, 1] bcast_S200000x1_S200000x64_0_1 (rowNorm0 e))

/-! ## Layer 1: 64 features in, 32 out -/

/-- The leaky rectifier on a 200000x32 array: z where z ≥ 0, and 0.01·z elsewhere. -/
def lrelu1 (a : FVec F S200000x32 .f32) : FVec F S200000x32 .f32 :=
  select (cmpf .oge a (broadcastInDim S200000x32 ![] bcast_S_S200000x32 (constant S_ .f32 0x00000000#32))) a
    (mulf (broadcastInDim S200000x32 ![] bcast_S_S200000x32 (constant S_ .f32 0x3C23D70A#32)) a)

/-- The new embedding of layer 1: lrelu((x + s)·Wg + bg) + lrelu((x ∘ s)·Wb + bb), on all 200000 rows at once. -/
def layerE1 (x s : FVec F S200000x64 .f32) (Wg : FVec F S64x32 .f32) (bg : FVec F S1x32 .f32) (Wb : FVec F S64x32 .f32) (bb : FVec F S1x32 .f32) :
    FVec F S200000x32 .f32 :=
  addf
    (lrelu1 (addf (Host.dotGeneral dot_S200000x64_S64x32_S200000x32_1_0_0_1_n_n none (addf x s) Wg) (broadcastInDim S200000x32 ![0, 1] bcast_S1x32_S200000x32_0_1 bg)))
    (lrelu1 (addf (Host.dotGeneral dot_S200000x64_S64x32_S200000x32_1_0_0_1_n_n none (mulf x s) Wb) (broadcastInDim S200000x32 ![0, 1] bcast_S1x32_S200000x32_0_1 bb)))

/-- The clamped row norms of a 200000x32 array, one per row: max(sqrt(Σ_lanes e²), 1e-12). -/
def rowNorm1 (e : FVec F S200000x32 .f32) : FVec F S200000x1 .f32 :=
  maximumf
    (Host.sqrt (broadcastInDim S200000x1 ![0] bcast_S200000_S200000x1_0
      (Host.reduceAdd (mulf e e) (constant S_ .f32 0x00000000#32) reducesTo_S200000x32_S200000_d1 h_S_)))
    (broadcastInDim S200000x1 ![] bcast_S_S200000x1 (constant S_ .f32 0x2B8CBCCC#32))

/-- The normalised embedding of layer 1: every row divided by its clamped norm. -/
def normed1 (e : FVec F S200000x32 .f32) : FVec F S200000x32 .f32 :=
  Host.divf e (broadcastInDim S200000x32 ![0, 1] bcast_S200000x1_S200000x32_0_1 (rowNorm1 e))

/-! ## Layer 2: 32 features in, 16 out -/

/-- The leaky rectifier on a 200000x16 array: z where z ≥ 0, and 0.01·z elsewhere. -/
def lrelu2 (a : FVec F S200000x16 .f32) : FVec F S200000x16 .f32 :=
  select (cmpf .oge a (broadcastInDim S200000x16 ![] bcast_S_S200000x16 (constant S_ .f32 0x00000000#32))) a
    (mulf (broadcastInDim S200000x16 ![] bcast_S_S200000x16 (constant S_ .f32 0x3C23D70A#32)) a)

/-- The new embedding of layer 2: lrelu((x + s)·Wg + bg) + lrelu((x ∘ s)·Wb + bb), on all 200000 rows at once. -/
def layerE2 (x s : FVec F S200000x32 .f32) (Wg : FVec F S32x16 .f32) (bg : FVec F S1x16 .f32) (Wb : FVec F S32x16 .f32) (bb : FVec F S1x16 .f32) :
    FVec F S200000x16 .f32 :=
  addf
    (lrelu2 (addf (Host.dotGeneral dot_S200000x32_S32x16_S200000x16_1_0_0_1_n_n none (addf x s) Wg) (broadcastInDim S200000x16 ![0, 1] bcast_S1x16_S200000x16_0_1 bg)))
    (lrelu2 (addf (Host.dotGeneral dot_S200000x32_S32x16_S200000x16_1_0_0_1_n_n none (mulf x s) Wb) (broadcastInDim S200000x16 ![0, 1] bcast_S1x16_S200000x16_0_1 bb)))

/-- The clamped row norms of a 200000x16 array, one per row: max(sqrt(Σ_lanes e²), 1e-12). -/
def rowNorm2 (e : FVec F S200000x16 .f32) : FVec F S200000x1 .f32 :=
  maximumf
    (Host.sqrt (broadcastInDim S200000x1 ![0] bcast_S200000_S200000x1_0
      (Host.reduceAdd (mulf e e) (constant S_ .f32 0x00000000#32) reducesTo_S200000x16_S200000_d1 h_S_)))
    (broadcastInDim S200000x1 ![] bcast_S_S200000x1 (constant S_ .f32 0x2B8CBCCC#32))

/-- The normalised embedding of layer 2: every row divided by its clamped norm. -/
def normed2 (e : FVec F S200000x16 .f32) : FVec F S200000x16 .f32 :=
  Host.divf e (broadcastInDim S200000x16 ![0, 1] bcast_S200000x1_S200000x16_0_1 (rowNorm2 e))

end Cert.ReferenceIdeal.Terms

end
-- ==== Proof.Rows.lean ====
/-
  A 200000-row array is cut into forty consecutive blocks of 5000 rows.  `rowsD t a` is block `t` of an array `a`
  with D columns: its row p is row 5000·t + p of `a`.
-/
import Idealize.ShloMosaic.Lib.ValueIdx

noncomputable section

namespace Cert.Rows

open Idealize.ShloMosaic Idealize.ShloMosaic.ValueIdx

/-- Rows 5000·t … 5000·t + 4999 of an array of 200000 rows and 64 columns, as an array of 5000 rows. -/
def rows64 {α : Type} (t : Fin 40) (a : (⟨2, ![200000, 64]⟩ : Shape).Idx → α) : (⟨2, ![5000, 64]⟩ : Shape).Idx → α :=
  fun y => a (ix2 (⟨5000 * t.val + (y 0).val, by have := idx2_lt0 y; have := t.isLt; omega⟩ : Fin 200000) (⟨(y 1).val, idx2_lt1 y⟩ : Fin 64))

theorem rows64_apply {α : Type} (t : Fin 40) (a : (⟨2, ![200000, 64]⟩ : Shape).Idx → α) (p : Fin 5000) (q : Fin 64) :
    rows64 t a (ix2 p q) = a (ix2 (⟨5000 * t.val + p.val, by have := t.isLt; omega⟩ : Fin 200000) q) := rfl

/-- Rows 5000·t … 5000·t + 4999 of an array of 200000 rows and 32 columns, as an array of 5000 rows. -/
def rows32 {α : Type} (t : Fin 40) (a : (⟨2, ![200000, 32]⟩ : Shape).Idx → α) : (⟨2, ![5000, 32]⟩ : Shape).Idx → α :=
  fun y => a (ix2 (⟨5000 * t.val + (y 0).val, by have := idx2_lt0 y; have := t.isLt; omega⟩ : Fin 200000) (⟨(y 1).val, idx2_lt1 y⟩ : Fin 32))

theorem rows32_apply {α : Type} (t : Fin 40) (a : (⟨2, ![200000, 32]⟩ : Shape).Idx → α) (p : Fin 5000) (q : Fin 32) :
    rows32 t a (ix2 p q) = a (ix2 (⟨5000 * t.val + p.val, by have := t.isLt; omega⟩ : Fin 200000) q) := rfl

/-- Rows 5000·t … 5000·t + 4999 of an array of 200000 rows and 16 columns, as an array of 5000 rows. -/
def rows16 {α : Type} (t : Fin 40) (a : (⟨2, ![200000, 16]⟩ : Shape).Idx → α) : (⟨2, ![5000, 16]⟩ : Shape).Idx → α :=
  fun y => a (ix2 (⟨5000 * t.val + (y 0).val, by have := idx2_lt0 y; have := t.isLt; omega⟩ : Fin 200000) (⟨(y 1).val, idx2_lt1 y⟩ : Fin 16))

theorem rows16_apply {α : Type} (t : Fin 40) (a : (⟨2, ![200000, 16]⟩ : Shape).Idx → α) (p : Fin 5000) (q : Fin 16) :
    rows16 t a (ix2 p q) = a (ix2 (⟨5000 * t.val + p.val, by have := t.isLt; omega⟩ : Fin 200000) q) := rfl

/-- Rows 5000·t … 5000·t + 4999 of an array of 200000 rows and 1 columns, as an array of 5000 rows. -/
def rows1 {α : Type} (t : Fin 40) (a : (⟨2, ![200000, 1]⟩ : Shape).Idx → α) : (⟨2, ![5000, 1]⟩ : Shape).Idx → α :=
  fun y => a (ix2 (⟨5000 * t.val + (y 0).val, by have := idx2_lt0 y; have := t.isLt; omega⟩ : Fin 200000) (⟨(y 1).val, idx2_lt1 y⟩ : Fin 1))

theorem rows1_apply {α : Type} (t : Fin 40) (a : (⟨2, ![200000, 1]⟩ : Shape).Idx → α) (p : Fin 5000) (q : Fin 1) :
    rows1 t a (ix2 p q) = a (ix2 (⟨5000 * t.val + p.val, by have := t.isLt; omega⟩ : Fin 200000) q) := rfl

end Cert.Rows

end
-- ==== Proof.KI.Value0.lean ====
/-
  Region 0 at the exact instance: what its two output arrays hold after the forty grid points.  A point's input blocks
  are rows 5000·t … 5000·t + 4999 of the embedding and of the aggregated neighbourhood, and the whole weight and bias
  arrays; the body's two results on these blocks are the same rows of the reference's whole-array layer (each output row
  depends only on the same input row); the forty blocks tile the 200000 rows; so each output array ends holding the
  reference's term of the arrays the region was entered with.
-/
import proofs.«156520_j49993419325916_1_alg».proof.Proof.KI.Body0
import proofs.«156520_j49993419325916_1_alg».proof.Proof.Gen.ReferenceIdeal
import proofs.«156520_j49993419325916_1_alg».proof.Proof.Ref.Terms
import proofs.«156520_j49993419325916_1_alg».proof.Proof.Rows
import Idealize.ShloMosaic.Lib.Pipeline.Value

set_option maxRecDepth 16384

noncomputable section

namespace Cert.KernelIdeal.Layer

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Rows Cert.ReferenceIdeal.Terms

variable (V : (c : Dev nD) → (b : Ref sig .tc) → Buf (Elt Ideal) ((c : Thread nD τ).loc b))

/-- The body's first result on block `t` of the inputs is block `t` of the reference's new embedding: each output row
    depends only on the same input row. -/
def CoreE0 : Prop := ∀ (x s : FVec Ideal Cert.ReferenceIdeal.S200000x64 .f32) (Wg Wb : FVec Ideal Cert.ReferenceIdeal.S64x64 .f32) (bg bb : FVec Ideal Cert.ReferenceIdeal.S1x64 .f32) (t : Fin 40), k0_pay2 (F := Ideal) (rows64 t x) (rows64 t s) Wg Wb bg bb = rows64 t (layerE0 (F := Ideal) x s Wg bg Wb bb)
/-- The same for the body's second result and the reference's normalised embedding. -/
def CoreN0 : Prop := ∀ (x s : FVec Ideal Cert.ReferenceIdeal.S200000x64 .f32) (Wg Wb : FVec Ideal Cert.ReferenceIdeal.S64x64 .f32) (bg bb : FVec Ideal Cert.ReferenceIdeal.S1x64 .f32) (t : Fin 40), k0_pay1 (F := Ideal) (k0_pay2 (F := Ideal) (rows64 t x) (rows64 t s) Wg Wb bg bb) (k0_pay3 (F := Ideal) (rows64 t x) (rows64 t s) Wg Wb bg bb) = rows64 t (normed0 (F := Ideal) (layerE0 (F := Ideal) x s Wg bg Wb bb))

theorem hz0 : (![0, 0] : Fin 2 → Nat) = fun _ => 0 := funext fun a => by fin_cases a <;> rfl

/-- A grid point as a number below forty. -/
def tt0 (t : Fin cfg0.N) : Fin 40 := ⟨t.val, lt_of_lt_of_eq t.isLt (show cfg0.N = 40 from N_0)⟩
theorem tt0_val (t : Fin cfg0.N) : (tt0 t).val = t.val := rfl

/-- The printed index maps, decided over the forty points: the two row-tiled inputs and the two outputs are at block
    (t, 0), the weights and biases at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Window 0's block at point `t` is rows 5000·t … 5000·t + 4999 of its array. -/
theorem blk0_0 (c : Dev nD) (t : Fin cfg0.N) : iblk0 V c 0 t = rows64 (tt0 t) (V c main_v0) := by
  obtain ⟨e00, e01, e10, e11, e60, e61, e70, e71, -⟩ := idx_facts0 t
  funext y
  unfold iblk0
  show V c main_v0 (((cfg0.win 0).blk t).view.emb y) = V c main_v0 _
  refine congrArg (V c main_v0) ?_
  funext a; apply Fin.ext
  match a with
  | ⟨0, _⟩ => show win0_0.index t (0 : Fin 2) * 5000 + 1 * (y 0).val = 5000 * t.val + (y 0).val; omega
  | ⟨1, _⟩ => show win0_0.index t (1 : Fin 2) * 64 + 1 * (y 1).val = (y 1).val; omega

/-- Window 1's block at point `t` is rows 5000·t … 5000·t + 4999 of its array. -/
theorem blk0_1 (c : Dev nD) (t : Fin cfg0.N) : iblk0 V c 1 t = rows64 (tt0 t) (V c main_v13) := by
  obtain ⟨e00, e01, e10, e11, e60, e61, e70, e71, -⟩ := idx_facts0 t
  funext y
  unfold iblk0
  show V c main_v13 (((cfg0.win 1).blk t).view.emb y) = V c main_v13 _
  refine congrArg (V c main_v13) ?_
  funext a; apply Fin.ext
  match a with
  | ⟨0, _⟩ => show win0_1.index t (0 : Fin 2) * 5000 + 1 * (y 0).val = 5000 * t.val + (y 0).val; omega
  | ⟨1, _⟩ => show win0_1.index t (1 : Fin 2) * 64 + 1 * (y 1).val = (y 1).val; omega

/-- Window 2's block at every point is its whole array. -/
theorem blk0_2 (c : Dev nD) (t : Fin cfg0.N) : iblk0 V c 2 t = V c main_arg8 := by
  obtain ⟨-, -, -, -, -, -, -, -, e20, e21, e30, e31, e40, e41, e50, e51⟩ := idx_facts0 t
  funext y
  unfold iblk0
  show V c main_arg8 (((cfg0.win 2).blk t).view.emb y) = V c main_arg8 y
  refine congrArg (V c main_arg8) ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block at every point is its whole array. -/
theorem blk0_3 (c : Dev nD) (t : Fin cfg0.N) : iblk0 V c 3 t = V c main_arg9 := by
  obtain ⟨-, -, -, -, -, -, -, -, e20, e21, e30, e31, e40, e41, e50, e51⟩ := idx_facts0 t
  funext y
  unfold iblk0
  show V c main_arg9 (((cfg0.win 3).blk t).view.emb y) = V c main_arg9 y
  refine congrArg (V c main_arg9) ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block at every point is its whole array. -/
theorem blk0_4 (c : Dev nD) (t : Fin cfg0.N) : iblk0 V c 4 t = V c main_arg10 := by
  obtain ⟨-, -, -, -, -, -, -, -, e20, e21, e30, e31, e40, e41, e50, e51⟩ := idx_facts0 t
  funext y
  unfold iblk0
  show V c main_arg10 (((cfg0.win 4).blk t).view.emb y) = V c main_arg10 y
  refine congrArg (V c main_arg10) ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block at every point is its whole array. -/
theorem blk0_5 (c : Dev nD) (t : Fin cfg0.N) : iblk0 V c 5 t = V c main_arg11 := by
  obtain ⟨-, -, -, -, -, -, -, -, e20, e21, e30, e31, e40, e41, e50, e51⟩ := idx_facts0 t
  funext y
  unfold iblk0
  show V c main_arg11 (((cfg0.win 5).blk t).view.emb y) = V c main_arg11 y
  refine congrArg (V c main_arg11) ?_
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- What point `t` writes back through output window 6 is block `t` of the reference's whole-array term. -/
theorem flushed0_6_eq (core_e0 : CoreE0) (c : Dev nD) (t : Fin cfg0.N) :
    (dat0 V c).flushed 6 t = ((cfg0.win 6).blk t).view.read (Elt Ideal) (layerE0 (F := Ideal) (V c main_v0) (V c main_v13) (V c main_arg8) (V c main_arg9) (V c main_arg10) (V c main_arg11)) := by
  obtain ⟨-, -, -, -, e60, e61, e70, e71, -⟩ := idx_facts0 t
  show (cfg0.win 6).cut (grid0.coords t) ((dat0 V c).after 6 t) = _
  rw [after0_6]
  unfold out0_6
  rw [View.canon_unit_zero hz0]
  simp only [View.ld_unit_zero (S := S5000x64) hz0, View.ld_unit_zero (S := S64x64) hz0, View.ld_unit_zero (S := S1x64) hz0]
  rw [blk0_0, blk0_1, blk0_2, blk0_3, blk0_4, blk0_5]
  rw [core_e0 (V c main_v0) (V c main_v13) (V c main_arg8) (V c main_arg10) (V c main_arg9) (V c main_arg11) (tt0 t)]
  funext y
  show rows64 (tt0 t) (layerE0 (F := Ideal) (V c main_v0) (V c main_v13) (V c main_arg8) (V c main_arg9) (V c main_arg10) (V c main_arg11)) y = (layerE0 (F := Ideal) (V c main_v0) (V c main_v13) (V c main_arg8) (V c main_arg9) (V c main_arg10) (V c main_arg11)) (((cfg0.win 6).blk t).view.emb y)
  unfold rows64
  refine congrArg (layerE0 (F := Ideal) (V c main_v0) (V c main_v13) (V c main_arg8) (V c main_arg9) (V c main_arg10) (V c main_arg11)) ?_
  funext a; apply Fin.ext
  match a with
  | ⟨0, _⟩ => show 5000 * t.val + (y 0).val = win0_6.index t (0 : Fin 2) * 5000 + 1 * (y 0).val; omega
  | ⟨1, _⟩ => show (y 1).val = win0_6.index t (1 : Fin 2) * 64 + 1 * (y 1).val; omega

/-- An index of the array lies in point `t`'s block of window 6 iff its row is among rows 5000·t … 5000·t + 4999. -/
theorem mem_blk0_6 (t : Fin cfg0.N) (i : S200000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v14_0).slice (win0_6.rect t)).set ↔ _
  rw [View.set_slice_whole, Rect.mem_set_unit]
  exact Iff.rfl

/-- Every row of the array is in some point's block: row r in the block of point r / 5000. -/
theorem cover0_6 (i : S200000x64.Idx) : ∃ t : Fin cfg0.N, (cfg0.win 6).flush t = true ∧ i ∈ ((cfg0.win 6).blk t).view.set := by
  have hi0 : (i 0).val < 200000 := (i 0).isLt
  have hi1 : (i 1).val < 64 := (i 1).isLt
  have hN : grid0.N = 40 := N_0
  let t : Fin cfg0.N := ⟨(i 0).val / 5000, by show (i 0).val / 5000 < grid0.N; omega⟩
  obtain ⟨-, -, -, -, e60, e61, e70, e71, -⟩ := idx_facts0 t
  refine ⟨t, flush0_6 t, ?_⟩
  rw [mem_blk0_6]
  have ht : t.val = (i 0).val / 5000 := rfl
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the region's forty points output window 6's array holds the reference's whole-array term. -/
theorem final0_6 (core_e0 : CoreE0) (c : Dev nD) : (dat0 V c).arrAt 6 cfg0.N = layerE0 (F := Ideal) (V c main_v0) (V c main_v13) (V c main_arg8) (V c main_arg9) (V c main_arg10) (V c main_arg11) :=
  (dat0 V c).arrAt_eq_of_cover 6 (layerE0 (F := Ideal) (V c main_v0) (V c main_v13) (V c main_arg8) (V c main_arg9) (V c main_arg10) (V c main_arg11)) (fun t _ => flushed0_6_eq V core_e0 c t) (cover0_6)

/-- What point `t` writes back through output window 7 is block `t` of the reference's whole-array term. -/
theorem flushed0_7_eq (core_n0 : CoreN0) (c : Dev nD) (t : Fin cfg0.N) :
    (dat0 V c).flushed 7 t = ((cfg0.win 7).blk t).view.read (Elt Ideal) (normed0 (F := Ideal) (layerE0 (F := Ideal) (V c main_v0) (V c main_v13) (V c main_arg8) (V c main_arg9) (V c main_arg10) (V c main_arg11))) := by
  obtain ⟨-, -, -, -, e60, e61, e70, e71, -⟩ := idx_facts0 t
  show (cfg0.win 7).cut (grid0.coords t) ((dat0 V c).after 7 t) = _
  rw [after0_7]
  unfold out0_7
  rw [View.canon_unit_zero hz0]
  simp only [View.ld_unit_zero (S := S5000x64) hz0, View.ld_unit_zero (S := S64x64) hz0, View.ld_unit_zero (S := S1x64) hz0]
  rw [blk0_0, blk0_1, blk0_2, blk0_3, blk0_4, blk0_5]
  rw [core_n0 (V c main_v0) (V c main_v13) (V c main_arg8) (V c main_arg10) (V c main_arg9) (V c main_arg11) (tt0 t)]
  funext y
  show rows64 (tt0 t) (normed0 (F := Ideal) (layerE0 (F := Ideal) (V c main_v0) (V c main_v13) (V c main_arg8) (V c main_arg9) (V c main_arg10) (V c main_arg11))) y = (normed0 (F := Ideal) (layerE0 (F := Ideal) (V c main_v0) (V c main_v13) (V c main_arg8) (V c main_arg9) (V c main_arg10) (V c main_arg11))) (((cfg0.win 7).blk t).view.emb y)
  unfold rows64
  refine congrArg (normed0 (F := Ideal) (layerE0 (F := Ideal) (V c main_v0) (V c main_v13) (V c main_arg8) (V c main_arg9) (V c main_arg10) (V c main_arg11))) ?_
  funext a; apply Fin.ext
  match a with
  | ⟨0, _⟩ => show 5000 * t.val + (y 0).val = win0_7.index t (0 : Fin 2) * 5000 + 1 * (y 0).val; omega
  | ⟨1, _⟩ => show (y 1).val = win0_7.index t (1 : Fin 2) * 64 + 1 * (y 1).val; omega

/-- An index of the array lies in point `t`'s block of window 7 iff its row is among rows 5000·t … 5000·t + 4999. -/
theorem mem_blk0_7 (t : Fin cfg0.N) (i : S200000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v14_1).slice (win0_7.rect t)).set ↔ _
  rw [View.set_slice_whole, Rect.mem_set_unit]
  exact Iff.rfl

/-- Every row of the array is in some point's block: row r in the block of point r / 5000. -/
theorem cover0_7 (i : S200000x64.Idx) : ∃ t : Fin cfg0.N, (cfg0.win 7).flush t = true ∧ i ∈ ((cfg0.win 7).blk t).view.set := by
  have hi0 : (i 0).val < 200000 := (i 0).isLt
  have hi1 : (i 1).val < 64 := (i 1).isLt
  have hN : grid0.N = 40 := N_0
  let t : Fin cfg0.N := ⟨(i 0).val / 5000, by show (i 0).val / 5000 < grid0.N; omega⟩
  obtain ⟨-, -, -, -, e60, e61, e70, e71, -⟩ := idx_facts0 t
  refine ⟨t, flush0_7 t, ?_⟩
  rw [mem_blk0_7]
  have ht : t.val = (i 0).val / 5000 := rfl
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- After the region's forty points output window 7's array holds the reference's whole-array term. -/
theorem final0_7 (core_n0 : CoreN0) (c : Dev nD) : (dat0 V c).arrAt 7 cfg0.N = normed0 (F := Ideal) (layerE0 (F := Ideal) (V c main_v0) (V c main_v13) (V c main_arg8) (V c main_arg9) (V c main_arg10) (V c main_arg11)) :=
  (dat0 V c).arrAt_eq_of_cover 7 (normed0 (F := Ideal) (layerE0 (F := Ideal) (V c main_v0) (V c main_v13) (V c main_arg8) (V c main_arg9) (V c main_arg10) (V c main_arg11))) (fun t _ => flushed0_7_eq V core_n0 c t) (cover0_7)

end Cert.KernelIdeal.Layer

end
-- ==== Proof.KI.Value1.lean ====
/-
  Region 1 at the exact instance: what its two output arrays hold after the forty grid points.  A point's input blocks
  are rows 5000·t … 5000·t + 4999 of the embedding and of the aggregated neighbourhood, and the whole weight and bias
  arrays; the body's two results on these blocks are the same rows of the reference's whole-array layer (each output row
  depends only on the same input row); the forty blocks tile the 200000 rows; so each output array ends holding the
  reference's term of the arrays the region was entered with.
-/
import proofs.«156520_j49993419325916_1_alg».proof.Proof.KI.Body1
import proofs.«156520_j49993419325916_1_alg».proof.Proof.Gen.ReferenceIdeal
import proofs.«156520_j49993419325916_1_alg».proof.Proof.Ref.Terms
import proofs.«156520_j49993419325916_1_alg».proof.Proof.Rows
import Idealize.ShloMosaic.Lib.Pipeline.Value

set_option maxRecDepth 16384

noncomputable section

namespace Cert.KernelIdeal.Layer

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Rows Cert.ReferenceIdeal.Terms

variable (V : (c : Dev nD) → (b : Ref sig .tc) → Buf (Elt Ideal) ((c : Thread nD τ).loc b))

/-- The body's first result on block `t` of the inputs is block `t` of the reference's new embedding: each output row
    depends only on the same input row. -/
def CoreE1 : Prop := ∀ (x s : FVec Ideal Cert.ReferenceIdeal.S200000x64 .f32) (Wg Wb : FVec Ideal Cert.ReferenceIdeal.S64x32 .f32) (bg bb : FVec Ideal Cert.ReferenceIdeal.S1x32 .f32) (t : Fin 40), k1_pay2 (F := Ideal) (rows64 t x) (rows64 t s) Wg Wb bg bb = rows32 t (layerE1 (F := Ideal) x s Wg bg Wb bb)
/-- The same for the body's second result and the reference's normalised embedding. -/
def CoreN1 : Prop := ∀ (x s : FVec Ideal Cert.ReferenceIdeal.S200000x64 .f32) (Wg Wb : FVec Ideal Cert.ReferenceIdeal.S64x32 .f32) (bg bb : FVec Ideal Cert.ReferenceIdeal.S1x32 .f32) (t : Fin 40), k1_pay1 (F := Ideal) (k1_pay2 (F := Ideal) (rows64 t x) (rows64 t s) Wg Wb bg bb) (k1_pay3 (F := Ideal) (rows64 t x) (rows64 t s) Wg Wb bg bb) = rows32 t (normed1 (F := Ideal) (layerE1 (F := Ideal) x s Wg bg Wb bb))

theorem hz1 : (![0, 0] : Fin 2 → Nat) = fun _ => 0 := funext fun a => by fin_cases a <;> rfl

/-- A grid point as a number below forty. -/
def tt1 (t : Fin cfg1.N) : Fin 40 := ⟨t.val, lt_of_lt_of_eq t.isLt (show cfg1.N = 40 from N_1)⟩
theorem tt1_val (t : Fin cfg1.N) : (tt1 t).val = t.val := rfl

/-- The printed index maps, decided over the forty points: the two row-tiled inputs and the two outputs are at block
    (t, 0), the weights and biases at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Window 0's block at point `t` is rows 5000·t … 5000·t + 4999 of its array. -/
theorem blk1_0 (c : Dev nD) (t : Fin cfg1.N) : iblk1 V c 0 t = rows64 (tt1 t) (V c main_v14_0) := by
  obtain ⟨e00, e01, e10, e11, e60, e61, e70, e71, -⟩ := idx_facts1 t
  funext y
  unfold iblk1
  show V c main_v14_0 (((cfg1.win 0).blk t).view.emb y) = V c main_v14_0 _
  refine congrArg (V c main_v14_0) ?_
  funext a; apply Fin.ext
  match a with
  | ⟨0, _⟩ => show win1_0.index t (0 : Fin 2) * 5000 + 1 * (y 0).val = 5000 * t.val + (y 0).val; omega
  | ⟨1, _⟩ => show win1_0.index t (1 : Fin 2) * 64 + 1 * (y 1).val = (y 1).val; omega

/-- Window 1's block at point `t` is rows 5000·t … 5000·t + 4999 of its array. -/
theorem blk1_1 (c : Dev nD) (t : Fin cfg1.N) : iblk1 V c 1 t = rows64 (tt1 t) (V c main_v27) := by
  obtain ⟨e00, e01, e10, e11, e60, e61, e70, e71, -⟩ := idx_facts1 t
  funext y
  unfold iblk1
  show V c main_v27 (((cfg1.win 1).blk t).view.emb y) = V c main_v27 _
  refine congrArg (V c main_v27) ?_
  funext a; apply Fin.ext
  match a with
  | ⟨0, _⟩ => show win1_1.index t (0 : Fin 2) * 5000 + 1 * (y 0).val = 5000 * t.val + (y 0).val; omega
  | ⟨1, _⟩ => show win1_1.index t (1 : Fin 2) * 64 + 1 * (y 1).val = (y 1).val; omega

/-- Window 2's block at every point is its whole array. -/
theorem blk1_2 (c : Dev nD) (t : Fin cfg1.N) : iblk1 V c 2 t = V c main_arg12 := by
  obtain ⟨-, -, -, -, -, -, -, -, e20, e21, e30, e31, e40, e41, e50, e51⟩ := idx_facts1 t
  funext y
  unfold iblk1
  show V c main_arg12 (((cfg1.win 2).blk t).view.emb y) = V c main_arg12 y
  refine congrArg (V c main_arg12) ?_
  funext a; apply Fin.ext
  match a with
  | ⟨0, _⟩ => show win1_2.index t (0 : Fin 2) * 64 + 1 * (y 0).val = (y 0).val; omega
  | ⟨1, _⟩ => show win1_2.index t (1 : Fin 2) * 32 + 1 * (y 1).val = (y 1).val; omega

/-- Window 3's block at every point is its whole array. -/
theorem blk1_3 (c : Dev nD) (t : Fin cfg1.N) : iblk1 V c 3 t = V c main_arg13 := by
  obtain ⟨-, -, -, -, -, -, -, -, e20, e21, e30, e31, e40, e41, e50, e51⟩ := idx_facts1 t
  funext y
  unfold iblk1
  show V c main_arg13 (((cfg1.win 3).blk t).view.emb y) = V c main_arg13 y
  refine congrArg (V c main_arg13) ?_
  funext a; apply Fin.ext
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- Window 4's block at every point is its whole array. -/
theorem blk1_4 (c : Dev nD) (t : Fin cfg1.N) : iblk1 V c 4 t = V c main_arg14 := by
  obtain ⟨-, -, -, -, -, -, -, -, e20, e21, e30, e31, e40, e41, e50, e51⟩ := idx_facts1 t
  funext y
  unfold iblk1
  show V c main_arg14 (((cfg1.win 4).blk t).view.emb y) = V c main_arg14 y
  refine congrArg (V c main_arg14) ?_
  funext a; apply Fin.ext
  match a with
  | ⟨0, _⟩ => show win1_4.index t (0 : Fin 2) * 64 + 1 * (y 0).val = (y 0).val; omega
  | ⟨1, _⟩ => show win1_4.index t (1 : Fin 2) * 32 + 1 * (y 1).val = (y 1).val; omega

/-- Window 5's block at every point is its whole array. -/
theorem blk1_5 (c : Dev nD) (t : Fin cfg1.N) : iblk1 V c 5 t = V c main_arg15 := by
  obtain ⟨-, -, -, -, -, -, -, -, e20, e21, e30, e31, e40, e41, e50, e51⟩ := idx_facts1 t
  funext y
  unfold iblk1
  show V c main_arg15 (((cfg1.win 5).blk t).view.emb y) = V c main_arg15 y
  refine congrArg (V c main_arg15) ?_
  funext a; apply Fin.ext
  match a with
  | ⟨0, _⟩ => show win1_5.index t (0 : Fin 2) * 1 + 1 * (y 0).val = (y 0).val; omega
  | ⟨1, _⟩ => show win1_5.index t (1 : Fin 2) * 32 + 1 * (y 1).val = (y 1).val; omega

/-- What point `t` writes back through output window 6 is block `t` of the reference's whole-array term. -/
theorem flushed1_6_eq (core_e1 : CoreE1) (c : Dev nD) (t : Fin cfg1.N) :
    (dat1 V c).flushed 6 t = ((cfg1.win 6).blk t).view.read (Elt Ideal) (layerE1 (F := Ideal) (V c main_v14_0) (V c main_v27) (V c main_arg12) (V c main_arg13) (V c main_arg14) (V c main_arg15)) := by
  obtain ⟨-, -, -, -, e60, e61, e70, e71, -⟩ := idx_facts1 t
  show (cfg1.win 6).cut (grid1.coords t) ((dat1 V c).after 6 t) = _
  rw [after1_6]
  unfold out1_6
  rw [View.canon_unit_zero hz1]
  simp only [View.ld_unit_zero (S := S5000x64) hz1, View.ld_unit_zero (S := S64x32) hz1, View.ld_unit_zero (S := S1x32) hz1]
  rw [blk1_0, blk1_1, blk1_2, blk1_3, blk1_4, blk1_5]
  rw [core_e1 (V c main_v14_0) (V c main_v27) (V c main_arg12) (V c main_arg14) (V c main_arg13) (V c main_arg15) (tt1 t)]
  funext y
  show rows32 (tt1 t) (layerE1 (F := Ideal) (V c main_v14_0) (V c main_v27) (V c main_arg12) (V c main_arg13) (V c main_arg14) (V c main_arg15)) y = (layerE1 (F := Ideal) (V c main_v14_0) (V c main_v27) (V c main_arg12) (V c main_arg13) (V c main_arg14) (V c main_arg15)) (((cfg1.win 6).blk t).view.emb y)
  unfold rows32
  refine congrArg (layerE1 (F := Ideal) (V c main_v14_0) (V c main_v27) (V c main_arg12) (V c main_arg13) (V c main_arg14) (V c main_arg15)) ?_
  funext a; apply Fin.ext
  match a with
  | ⟨0, _⟩ => show 5000 * t.val + (y 0).val = win1_6.index t (0 : Fin 2) * 5000 + 1 * (y 0).val; omega
  | ⟨1, _⟩ => show (y 1).val = win1_6.index t (1 : Fin 2) * 32 + 1 * (y 1).val; omega

/-- An index of the array lies in point `t`'s block of window 6 iff its row is among rows 5000·t … 5000·t + 4999. -/
theorem mem_blk1_6 (t : Fin cfg1.N) (i : S200000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v28_0).slice (win1_6.rect t)).set ↔ _
  rw [View.set_slice_whole, Rect.mem_set_unit]
  exact Iff.rfl

/-- Every row of the array is in some point's block: row r in the block of point r / 5000. -/
theorem cover1_6 (i : S200000x32.Idx) : ∃ t : Fin cfg1.N, (cfg1.win 6).flush t = true ∧ i ∈ ((cfg1.win 6).blk t).view.set := by
  have hi0 : (i 0).val < 200000 := (i 0).isLt
  have hi1 : (i 1).val < 32 := (i 1).isLt
  have hN : grid1.N = 40 := N_1
  let t : Fin cfg1.N := ⟨(i 0).val / 5000, by show (i 0).val / 5000 < grid1.N; omega⟩
  obtain ⟨-, -, -, -, e60, e61, e70, e71, -⟩ := idx_facts1 t
  refine ⟨t, flush1_6 t, ?_⟩
  rw [mem_blk1_6]
  have ht : t.val = (i 0).val / 5000 := rfl
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 32 ≤ (i 1).val ∧ (i 1).val < win1_6.index t (1 : Fin 2) * 32 + 32; omega

/-- After the region's forty points output window 6's array holds the reference's whole-array term. -/
theorem final1_6 (core_e1 : CoreE1) (c : Dev nD) : (dat1 V c).arrAt 6 cfg1.N = layerE1 (F := Ideal) (V c main_v14_0) (V c main_v27) (V c main_arg12) (V c main_arg13) (V c main_arg14) (V c main_arg15) :=
  (dat1 V c).arrAt_eq_of_cover 6 (layerE1 (F := Ideal) (V c main_v14_0) (V c main_v27) (V c main_arg12) (V c main_arg13) (V c main_arg14) (V c main_arg15)) (fun t _ => flushed1_6_eq V core_e1 c t) (cover1_6)

/-- What point `t` writes back through output window 7 is block `t` of the reference's whole-array term. -/
theorem flushed1_7_eq (core_n1 : CoreN1) (c : Dev nD) (t : Fin cfg1.N) :
    (dat1 V c).flushed 7 t = ((cfg1.win 7).blk t).view.read (Elt Ideal) (normed1 (F := Ideal) (layerE1 (F := Ideal) (V c main_v14_0) (V c main_v27) (V c main_arg12) (V c main_arg13) (V c main_arg14) (V c main_arg15))) := by
  obtain ⟨-, -, -, -, e60, e61, e70, e71, -⟩ := idx_facts1 t
  show (cfg1.win 7).cut (grid1.coords t) ((dat1 V c).after 7 t) = _
  rw [after1_7]
  unfold out1_7
  rw [View.canon_unit_zero hz1]
  simp only [View.ld_unit_zero (S := S5000x64) hz1, View.ld_unit_zero (S := S64x32) hz1, View.ld_unit_zero (S := S1x32) hz1]
  rw [blk1_0, blk1_1, blk1_2, blk1_3, blk1_4, blk1_5]
  rw [core_n1 (V c main_v14_0) (V c main_v27) (V c main_arg12) (V c main_arg14) (V c main_arg13) (V c main_arg15) (tt1 t)]
  funext y
  show rows32 (tt1 t) (normed1 (F := Ideal) (layerE1 (F := Ideal) (V c main_v14_0) (V c main_v27) (V c main_arg12) (V c main_arg13) (V c main_arg14) (V c main_arg15))) y = (normed1 (F := Ideal) (layerE1 (F := Ideal) (V c main_v14_0) (V c main_v27) (V c main_arg12) (V c main_arg13) (V c main_arg14) (V c main_arg15))) (((cfg1.win 7).blk t).view.emb y)
  unfold rows32
  refine congrArg (normed1 (F := Ideal) (layerE1 (F := Ideal) (V c main_v14_0) (V c main_v27) (V c main_arg12) (V c main_arg13) (V c main_arg14) (V c main_arg15))) ?_
  funext a; apply Fin.ext
  match a with
  | ⟨0, _⟩ => show 5000 * t.val + (y 0).val = win1_7.index t (0 : Fin 2) * 5000 + 1 * (y 0).val; omega
  | ⟨1, _⟩ => show (y 1).val = win1_7.index t (1 : Fin 2) * 32 + 1 * (y 1).val; omega

/-- An index of the array lies in point `t`'s block of window 7 iff its row is among rows 5000·t … 5000·t + 4999. -/
theorem mem_blk1_7 (t : Fin cfg1.N) (i : S200000x32.Idx) :
    i ∈ ((cfg1.win 7).blk t).view.set ↔ ∀ a : Fin 2, win1_7.index t a * S5000x32.size a ≤ (i a).val ∧ (i a).val < win1_7.index t a * S5000x32.size a + S5000x32.size a := by
  show i ∈ ((View.whole main_v28_1).slice (win1_7.rect t)).set ↔ _
  rw [View.set_slice_whole, Rect.mem_set_unit]
  exact Iff.rfl

/-- Every row of the array is in some point's block: row r in the block of point r / 5000. -/
theorem cover1_7 (i : S200000x32.Idx) : ∃ t : Fin cfg1.N, (cfg1.win 7).flush t = true ∧ i ∈ ((cfg1.win 7).blk t).view.set := by
  have hi0 : (i 0).val < 200000 := (i 0).isLt
  have hi1 : (i 1).val < 32 := (i 1).isLt
  have hN : grid1.N = 40 := N_1
  let t : Fin cfg1.N := ⟨(i 0).val / 5000, by show (i 0).val / 5000 < grid1.N; omega⟩
  obtain ⟨-, -, -, -, e60, e61, e70, e71, -⟩ := idx_facts1 t
  refine ⟨t, flush1_7 t, ?_⟩
  rw [mem_blk1_7]
  have ht : t.val = (i 0).val / 5000 := rfl
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 32 ≤ (i 1).val ∧ (i 1).val < win1_7.index t (1 : Fin 2) * 32 + 32; omega

/-- After the region's forty points output window 7's array holds the reference's whole-array term. -/
theorem final1_7 (core_n1 : CoreN1) (c : Dev nD) : (dat1 V c).arrAt 7 cfg1.N = normed1 (F := Ideal) (layerE1 (F := Ideal) (V c main_v14_0) (V c main_v27) (V c main_arg12) (V c main_arg13) (V c main_arg14) (V c main_arg15)) :=
  (dat1 V c).arrAt_eq_of_cover 7 (normed1 (F := Ideal) (layerE1 (F := Ideal) (V c main_v14_0) (V c main_v27) (V c main_arg12) (V c main_arg13) (V c main_arg14) (V c main_arg15))) (fun t _ => flushed1_7_eq V core_n1 c t) (cover1_7)

end Cert.KernelIdeal.Layer

end
-- ==== Proof.KI.Value2.lean ====
/-
  Region 2 at the exact instance: what its two output arrays hold after the forty grid points.  A point's input blocks
  are rows 5000·t … 5000·t + 4999 of the embedding and of the aggregated neighbourhood, and the whole weight and bias
  arrays; the body's two results on these blocks are the same rows of the reference's whole-array layer (each output row
  depends only on the same input row); the forty blocks tile the 200000 rows; so each output array ends holding the
  reference's term of the arrays the region was entered with.
-/
import proofs.«156520_j49993419325916_1_alg».proof.Proof.KI.Body2
import proofs.«156520_j49993419325916_1_alg».proof.Proof.Gen.ReferenceIdeal
import proofs.«156520_j49993419325916_1_alg».proof.Proof.Ref.Terms
import proofs.«156520_j49993419325916_1_alg».proof.Proof.Rows
import Idealize.ShloMosaic.Lib.Pipeline.Value

set_option maxRecDepth 16384

noncomputable section

namespace Cert.KernelIdeal.Layer

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Rows Cert.ReferenceIdeal.Terms

variable (V : (c : Dev nD) → (b : Ref sig .tc) → Buf (Elt Ideal) ((c : Thread nD τ).loc b))

/-- The body's first result on block `t` of the inputs is block `t` of the reference's new embedding: each output row
    depends only on the same input row. -/
def CoreE2 : Prop := ∀ (x s : FVec Ideal Cert.ReferenceIdeal.S200000x32 .f32) (Wg Wb : FVec Ideal Cert.ReferenceIdeal.S32x16 .f32) (bg bb : FVec Ideal Cert.ReferenceIdeal.S1x16 .f32) (t : Fin 40), k2_pay2 (F := Ideal) (rows32 t x) (rows32 t s) Wg Wb bg bb = rows16 t (layerE2 (F := Ideal) x s Wg bg Wb bb)
/-- The same for the body's second result and the reference's normalised embedding. -/
def CoreN2 : Prop := ∀ (x s : FVec Ideal Cert.ReferenceIdeal.S200000x32 .f32) (Wg Wb : FVec Ideal Cert.ReferenceIdeal.S32x16 .f32) (bg bb : FVec Ideal Cert.ReferenceIdeal.S1x16 .f32) (t : Fin 40), k2_pay1 (F := Ideal) (k2_pay2 (F := Ideal) (rows32 t x) (rows32 t s) Wg Wb bg bb) (k2_pay3 (F := Ideal) (rows32 t x) (rows32 t s) Wg Wb bg bb) = rows16 t (normed2 (F := Ideal) (layerE2 (F := Ideal) x s Wg bg Wb bb))

theorem hz2 : (![0, 0] : Fin 2 → Nat) = fun _ => 0 := funext fun a => by fin_cases a <;> rfl

/-- A grid point as a number below forty. -/
def tt2 (t : Fin cfg2.N) : Fin 40 := ⟨t.val, lt_of_lt_of_eq t.isLt (show cfg2.N = 40 from N_2)⟩
theorem tt2_val (t : Fin cfg2.N) : (tt2 t).val = t.val := rfl

/-- The printed index maps, decided over the forty points: the two row-tiled inputs and the two outputs are at block
    (t, 0), the weights and biases at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Window 0's block at point `t` is rows 5000·t … 5000·t + 4999 of its array. -/
theorem blk2_0 (c : Dev nD) (t : Fin cfg2.N) : iblk2 V c 0 t = rows32 (tt2 t) (V c main_v28_0) := by
  obtain ⟨e00, e01, e10, e11, e60, e61, e70, e71, -⟩ := idx_facts2 t
  funext y
  unfold iblk2
  show V c main_v28_0 (((cfg2.win 0).blk t).view.emb y) = V c main_v28_0 _
  refine congrArg (V c main_v28_0) ?_
  funext a; apply Fin.ext
  match a with
  | ⟨0, _⟩ => show win2_0.index t (0 : Fin 2) * 5000 + 1 * (y 0).val = 5000 * t.val + (y 0).val; omega
  | ⟨1, _⟩ => show win2_0.index t (1 : Fin 2) * 32 + 1 * (y 1).val = (y 1).val; omega

/-- Window 1's block at point `t` is rows 5000·t … 5000·t + 4999 of its array. -/
theorem blk2_1 (c : Dev nD) (t : Fin cfg2.N) : iblk2 V c 1 t = rows32 (tt2 t) (V c main_v41) := by
  obtain ⟨e00, e01, e10, e11, e60, e61, e70, e71, -⟩ := idx_facts2 t
  funext y
  unfold iblk2
  show V c main_v41 (((cfg2.win 1).blk t).view.emb y) = V c main_v41 _
  refine congrArg (V c main_v41) ?_
  funext a; apply Fin.ext
  match a with
  | ⟨0, _⟩ => show win2_1.index t (0 : Fin 2) * 5000 + 1 * (y 0).val = 5000 * t.val + (y 0).val; omega
  | ⟨1, _⟩ => show win2_1.index t (1 : Fin 2) * 32 + 1 * (y 1).val = (y 1).val; omega

/-- Window 2's block at every point is its whole array. -/
theorem blk2_2 (c : Dev nD) (t : Fin cfg2.N) : iblk2 V c 2 t = V c main_arg16 := by
  obtain ⟨-, -, -, -, -, -, -, -, e20, e21, e30, e31, e40, e41, e50, e51⟩ := idx_facts2 t
  funext y
  unfold iblk2
  show V c main_arg16 (((cfg2.win 2).blk t).view.emb y) = V c main_arg16 y
  refine congrArg (V c main_arg16) ?_
  funext a; apply Fin.ext
  match a with
  | ⟨0, _⟩ => show win2_2.index t (0 : Fin 2) * 32 + 1 * (y 0).val = (y 0).val; omega
  | ⟨1, _⟩ => show win2_2.index t (1 : Fin 2) * 16 + 1 * (y 1).val = (y 1).val; omega

/-- Window 3's block at every point is its whole array. -/
theorem blk2_3 (c : Dev nD) (t : Fin cfg2.N) : iblk2 V c 3 t = V c main_arg17 := by
  obtain ⟨-, -, -, -, -, -, -, -, e20, e21, e30, e31, e40, e41, e50, e51⟩ := idx_facts2 t
  funext y
  unfold iblk2
  show V c main_arg17 (((cfg2.win 3).blk t).view.emb y) = V c main_arg17 y
  refine congrArg (V c main_arg17) ?_
  funext a; apply Fin.ext
  match a with
  | ⟨0, _⟩ => show win2_3.index t (0 : Fin 2) * 1 + 1 * (y 0).val = (y 0).val; omega
  | ⟨1, _⟩ => show win2_3.index t (1 : Fin 2) * 16 + 1 * (y 1).val = (y 1).val; omega

/-- Window 4's block at every point is its whole array. -/
theorem blk2_4 (c : Dev nD) (t : Fin cfg2.N) : iblk2 V c 4 t = V c main_arg18 := by
  obtain ⟨-, -, -, -, -, -, -, -, e20, e21, e30, e31, e40, e41, e50, e51⟩ := idx_facts2 t
  funext y
  unfold iblk2
  show V c main_arg18 (((cfg2.win 4).blk t).view.emb y) = V c main_arg18 y
  refine congrArg (V c main_arg18) ?_
  funext a; apply Fin.ext
  match a with
  | ⟨0, _⟩ => show win2_4.index t (0 : Fin 2) * 32 + 1 * (y 0).val = (y 0).val; omega
  | ⟨1, _⟩ => show win2_4.index t (1 : Fin 2) * 16 + 1 * (y 1).val = (y 1).val; omega

/-- Window 5's block at every point is its whole array. -/
theorem blk2_5 (c : Dev nD) (t : Fin cfg2.N) : iblk2 V c 5 t = V c main_arg19 := by
  obtain ⟨-, -, -, -, -, -, -, -, e20, e21, e30, e31, e40, e41, e50, e51⟩ := idx_facts2 t
  funext y
  unfold iblk2
  show V c main_arg19 (((cfg2.win 5).blk t).view.emb y) = V c main_arg19 y
  refine congrArg (V c main_arg19) ?_
  funext a; apply Fin.ext
  match a with
  | ⟨0, _⟩ => show win2_5.index t (0 : Fin 2) * 1 + 1 * (y 0).val = (y 0).val; omega
  | ⟨1, _⟩ => show win2_5.index t (1 : Fin 2) * 16 + 1 * (y 1).val = (y 1).val; omega

/-- What point `t` writes back through output window 6 is block `t` of the reference's whole-array term. -/
theorem flushed2_6_eq (core_e2 : CoreE2) (c : Dev nD) (t : Fin cfg2.N) :
    (dat2 V c).flushed 6 t = ((cfg2.win 6).blk t).view.read (Elt Ideal) (layerE2 (F := Ideal) (V c main_v28_0) (V c main_v41) (V c main_arg16) (V c main_arg17) (V c main_arg18) (V c main_arg19)) := by
  obtain ⟨-, -, -, -, e60, e61, e70, e71, -⟩ := idx_facts2 t
  show (cfg2.win 6).cut (grid2.coords t) ((dat2 V c).after 6 t) = _
  rw [after2_6]
  unfold out2_6
  rw [View.canon_unit_zero hz2]
  simp only [View.ld_unit_zero (S := S5000x32) hz2, View.ld_unit_zero (S := S32x16) hz2, View.ld_unit_zero (S := S1x16) hz2]
  rw [blk2_0, blk2_1, blk2_2, blk2_3, blk2_4, blk2_5]
  rw [core_e2 (V c main_v28_0) (V c main_v41) (V c main_arg16) (V c main_arg18) (V c main_arg17) (V c main_arg19) (tt2 t)]
  funext y
  show rows16 (tt2 t) (layerE2 (F := Ideal) (V c main_v28_0) (V c main_v41) (V c main_arg16) (V c main_arg17) (V c main_arg18) (V c main_arg19)) y = (layerE2 (F := Ideal) (V c main_v28_0) (V c main_v41) (V c main_arg16) (V c main_arg17) (V c main_arg18) (V c main_arg19)) (((cfg2.win 6).blk t).view.emb y)
  unfold rows16
  refine congrArg (layerE2 (F := Ideal) (V c main_v28_0) (V c main_v41) (V c main_arg16) (V c main_arg17) (V c main_arg18) (V c main_arg19)) ?_
  funext a; apply Fin.ext
  match a with
  | ⟨0, _⟩ => show 5000 * t.val + (y 0).val = win2_6.index t (0 : Fin 2) * 5000 + 1 * (y 0).val; omega
  | ⟨1, _⟩ => show (y 1).val = win2_6.index t (1 : Fin 2) * 16 + 1 * (y 1).val; omega

/-- An index of the array lies in point `t`'s block of window 6 iff its row is among rows 5000·t … 5000·t + 4999. -/
theorem mem_blk2_6 (t : Fin cfg2.N) (i : S200000x16.Idx) :
    i ∈ ((cfg2.win 6).blk t).view.set ↔ ∀ a : Fin 2, win2_6.index t a * S5000x16.size a ≤ (i a).val ∧ (i a).val < win2_6.index t a * S5000x16.size a + S5000x16.size a := by
  show i ∈ ((View.whole main_v42_0).slice (win2_6.rect t)).set ↔ _
  rw [View.set_slice_whole, Rect.mem_set_unit]
  exact Iff.rfl

/-- Every row of the array is in some point's block: row r in the block of point r / 5000. -/
theorem cover2_6 (i : S200000x16.Idx) : ∃ t : Fin cfg2.N, (cfg2.win 6).flush t = true ∧ i ∈ ((cfg2.win 6).blk t).view.set := by
  have hi0 : (i 0).val < 200000 := (i 0).isLt
  have hi1 : (i 1).val < 16 := (i 1).isLt
  have hN : grid2.N = 40 := N_2
  let t : Fin cfg2.N := ⟨(i 0).val / 5000, by show (i 0).val / 5000 < grid2.N; omega⟩
  obtain ⟨-, -, -, -, e60, e61, e70, e71, -⟩ := idx_facts2 t
  refine ⟨t, flush2_6 t, ?_⟩
  rw [mem_blk2_6]
  have ht : t.val = (i 0).val / 5000 := rfl
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 16 ≤ (i 1).val ∧ (i 1).val < win2_6.index t (1 : Fin 2) * 16 + 16; omega

/-- After the region's forty points output window 6's array holds the reference's whole-array term. -/
theorem final2_6 (core_e2 : CoreE2) (c : Dev nD) : (dat2 V c).arrAt 6 cfg2.N = layerE2 (F := Ideal) (V c main_v28_0) (V c main_v41) (V c main_arg16) (V c main_arg17) (V c main_arg18) (V c main_arg19) :=
  (dat2 V c).arrAt_eq_of_cover 6 (layerE2 (F := Ideal) (V c main_v28_0) (V c main_v41) (V c main_arg16) (V c main_arg17) (V c main_arg18) (V c main_arg19)) (fun t _ => flushed2_6_eq V core_e2 c t) (cover2_6)

/-- What point `t` writes back through output window 7 is block `t` of the reference's whole-array term. -/
theorem flushed2_7_eq (core_n2 : CoreN2) (c : Dev nD) (t : Fin cfg2.N) :
    (dat2 V c).flushed 7 t = ((cfg2.win 7).blk t).view.read (Elt Ideal) (normed2 (F := Ideal) (layerE2 (F := Ideal) (V c main_v28_0) (V c main_v41) (V c main_arg16) (V c main_arg17) (V c main_arg18) (V c main_arg19))) := by
  obtain ⟨-, -, -, -, e60, e61, e70, e71, -⟩ := idx_facts2 t
  show (cfg2.win 7).cut (grid2.coords t) ((dat2 V c).after 7 t) = _
  rw [after2_7]
  unfold out2_7
  rw [View.canon_unit_zero hz2]
  simp only [View.ld_unit_zero (S := S5000x32) hz2, View.ld_unit_zero (S := S32x16) hz2, View.ld_unit_zero (S := S1x16) hz2]
  rw [blk2_0, blk2_1, blk2_2, blk2_3, blk2_4, blk2_5]
  rw [core_n2 (V c main_v28_0) (V c main_v41) (V c main_arg16) (V c main_arg18) (V c main_arg17) (V c main_arg19) (tt2 t)]
  funext y
  show rows16 (tt2 t) (normed2 (F := Ideal) (layerE2 (F := Ideal) (V c main_v28_0) (V c main_v41) (V c main_arg16) (V c main_arg17) (V c main_arg18) (V c main_arg19))) y = (normed2 (F := Ideal) (layerE2 (F := Ideal) (V c main_v28_0) (V c main_v41) (V c main_arg16) (V c main_arg17) (V c main_arg18) (V c main_arg19))) (((cfg2.win 7).blk t).view.emb y)
  unfold rows16
  refine congrArg (normed2 (F := Ideal) (layerE2 (F := Ideal) (V c main_v28_0) (V c main_v41) (V c main_arg16) (V c main_arg17) (V c main_arg18) (V c main_arg19))) ?_
  funext a; apply Fin.ext
  match a with
  | ⟨0, _⟩ => show 5000 * t.val + (y 0).val = win2_7.index t (0 : Fin 2) * 5000 + 1 * (y 0).val; omega
  | ⟨1, _⟩ => show (y 1).val = win2_7.index t (1 : Fin 2) * 16 + 1 * (y 1).val; omega

/-- An index of the array lies in point `t`'s block of window 7 iff its row is among rows 5000·t … 5000·t + 4999. -/
theorem mem_blk2_7 (t : Fin cfg2.N) (i : S200000x16.Idx) :
    i ∈ ((cfg2.win 7).blk t).view.set ↔ ∀ a : Fin 2, win2_7.index t a * S5000x16.size a ≤ (i a).val ∧ (i a).val < win2_7.index t a * S5000x16.size a + S5000x16.size a := by
  show i ∈ ((View.whole main_v42_1).slice (win2_7.rect t)).set ↔ _
  rw [View.set_slice_whole, Rect.mem_set_unit]
  exact Iff.rfl

/-- Every row of the array is in some point's block: row r in the block of point r / 5000. -/
theorem cover2_7 (i : S200000x16.Idx) : ∃ t : Fin cfg2.N, (cfg2.win 7).flush t = true ∧ i ∈ ((cfg2.win 7).blk t).view.set := by
  have hi0 : (i 0).val < 200000 := (i 0).isLt
  have hi1 : (i 1).val < 16 := (i 1).isLt
  have hN : grid2.N = 40 := N_2
  let t : Fin cfg2.N := ⟨(i 0).val / 5000, by show (i 0).val / 5000 < grid2.N; omega⟩
  obtain ⟨-, -, -, -, e60, e61, e70, e71, -⟩ := idx_facts2 t
  refine ⟨t, flush2_7 t, ?_⟩
  rw [mem_blk2_7]
  have ht : t.val = (i 0).val / 5000 := rfl
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 16 ≤ (i 1).val ∧ (i 1).val < win2_7.index t (1 : Fin 2) * 16 + 16; omega

/-- After the region's forty points output window 7's array holds the reference's whole-array term. -/
theorem final2_7 (core_n2 : CoreN2) (c : Dev nD) : (dat2 V c).arrAt 7 cfg2.N = normed2 (F := Ideal) (layerE2 (F := Ideal) (V c main_v28_0) (V c main_v41) (V c main_arg16) (V c main_arg17) (V c main_arg18) (V c main_arg19)) :=
  (dat2 V c).arrAt_eq_of_cover 7 (normed2 (F := Ideal) (layerE2 (F := Ideal) (V c main_v28_0) (V c main_v41) (V c main_arg16) (V c main_arg17) (V c main_arg18) (V c main_arg19))) (fun t _ => flushed2_7_eq V core_n2 c t) (cover2_7)

end Cert.KernelIdeal.Layer

end
-- ==== Proof.Ref.Spec.lean ====
/-
  The reference around its layers, as named functions of whole arrays: the two embedding tables stacked, the
  aggregation of an embedding over the edge list (gather the source rows, weight them, add them up by target row), and
  the scores (the four embeddings side by side, the batch's user and item rows gathered, their inner products).
  As in the layers' module the definitions are the reference program's own operations in its order and spelling.
-/
import proofs.«156520_j49993419325916_1_alg».proof.Proof.Ref.Terms

noncomputable section

namespace Cert.ReferenceIdeal.Terms

open Idealize.ShloMosaic Cert.ReferenceIdeal Cert.ReferenceIdeal.Facts₀ Cert.ReferenceIdeal.Facts

variable {F : FTy → Type} [FloatOps F] [Cert.ReferenceIdeal.Facts]

/-! ## Around the layers: the stacked embedding, the aggregation over the edges, the scores -/

/-- The two embedding tables stacked: 50000 user rows above 150000 entity rows. -/
def ego0 (u : FVec F S50000x64 .f32) (e : FVec F S150000x64 .f32) : FVec F S200000x64 .f32 :=
  concatenate S200000x64 0 [⟨S50000x64, u⟩, ⟨S150000x64, e⟩] concatenates_S50000x64_S150000x64_S200000x64_d0

/-- The edges' source indices as a column, a negative index counting from the end of the 200000 rows. -/
def wrapE (cols : IVec S2000000 32) : IVec S2000000x1 32 :=
  broadcastInDim S2000000x1 ![0] bcast_S2000000_S2000000x1_0
    (select (cmpi .slt cols (broadcastInDim S2000000 ![] bcast_S_S2000000 (constantI S_ 32 0#32)))
      (addi cols (broadcastInDim S2000000 ![] bcast_S_S2000000 (constantI S_ 32 200000#32))) cols)

/-- The aggregated neighbourhood of a 200000x64 embedding over the edge list: row r is the sum, over the edges
    whose target is r, of the edge's weight times the embedding row of the edge's source. -/
def agg0 (e : FVec F S200000x64 .f32) (rows cols : IVec S2000000 32) (edge : FVec F S2000000 .f32) : FVec F S200000x64 .f32 :=
  Host.scatterAdd scatter_S200000x64_S2000000x1_S2000000x64_1_0_0_1
    (broadcastInDim S200000x64 ![] bcast_S_S200000x64 (constant S_ .f32 0x00000000#32))
    (broadcastInDim S2000000x1 ![0] bcast_S2000000_S2000000x1_0 rows)
    (mulf (broadcastInDim S2000000x64 ![0, 1] bcast_S2000000x1_S2000000x64_0_1 (broadcastInDim S2000000x1 ![0] bcast_S2000000_S2000000x1_0 edge))
      (Host.gather gather_S200000x64_S2000000x1_S2000000x64_1_0_n_n_0_1_164 e (wrapE cols)))

/-- The aggregated neighbourhood of a 200000x32 embedding over the edge list: row r is the sum, over the edges
    whose target is r, of the edge's weight times the embedding row of the edge's source. -/
def agg2 (e : FVec F S200000x32 .f32) (rows cols : IVec S2000000 32) (edge : FVec F S2000000 .f32) : FVec F S200000x32 .f32 :=
  Host.scatterAdd scatter_S200000x32_S2000000x1_S2000000x32_1_0_0_1
    (broadcastInDim S200000x32 ![] bcast_S_S200000x32 (constant S_ .f32 0x00000000#32))
    (broadcastInDim S2000000x1 ![0] bcast_S2000000_S2000000x1_0 rows)
    (mulf (broadcastInDim S2000000x32 ![0, 1] bcast_S2000000x1_S2000000x32_0_1 (broadcastInDim S2000000x1 ![0] bcast_S2000000_S2000000x1_0 edge))
      (Host.gather gather_S200000x32_S2000000x1_S2000000x32_1_0_n_n_0_1_132 e (wrapE cols)))

/-- A batch of 8192 row indices as a column, a negative index counting from the end of `n` rows. -/
def wrapB (n : BitVec 32) (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 n))) idx)

/-- The four embeddings side by side: 64 + 64 + 32 + 16 = 176 columns. -/
def allEmb (x0 n1 : FVec F S200000x64 .f32) (n2 : FVec F S200000x32 .f32) (n3 : FVec F S200000x16 .f32) : FVec F S200000x176 .f32 :=
  concatenate S200000x176 1 [⟨S200000x64, x0⟩, ⟨S200000x64, n1⟩, ⟨S200000x32, n2⟩, ⟨S200000x16, n3⟩] concatenates_S200000x64_S200000x64_S200000x32_S200000x16_S200000x176_d1

/-- The batch's user rows: rows of the first 50000. -/
def userRows (all : FVec F S200000x176 .f32) (users : IVec S8192 32) : FVec F S8192x176 .f32 :=
  Host.gather gather_S50000x176_S8192x1_S8192x176_1_0_n_n_0_1_1176
    (extractStridedSlice S50000x176 ![0, 0] all slices_S200000x176_S50000x176_0_0) (wrapB 50000#32 users)

/-- The batch's item rows: rows of the last 150000. -/
def itemRows (all : FVec F S200000x176 .f32) (items : IVec S8192 32) : FVec F S8192x176 .f32 :=
  Host.gather gather_S150000x176_S8192x1_S8192x176_1_0_n_n_0_1_1176
    (extractStridedSlice S150000x176 ![50000, 0] all slices_S200000x176_S150000x176_50000_0) (wrapB 150000#32 items)

/-- Row by row, the inner product of two batches, as a column. -/
def rowDots (a b : FVec F S8192x176 .f32) : FVec F S8192x1 .f32 :=
  broadcastInDim S8192x1 ![0] bcast_S8192_S8192x1_0
    (Host.reduceAdd (mulf a b) (constant S_ .f32 0x00000000#32) reducesTo_S8192x176_S8192_d1 h_S_)

/-- The scores: for each of the 8192 users, the inner products with the positive and with the negative item. -/
def scoresOf (all : FVec F S200000x176 .f32) (users pos neg : IVec S8192 32) : FVec F S8192x2 .f32 :=
  concatenate S8192x2 1 [⟨S8192x1, rowDots (userRows all users) (itemRows all pos)⟩, ⟨S8192x1, rowDots (userRows all users) (itemRows all neg)⟩]
    concatenates_S8192x1_S8192x1_S8192x2_d1

/-! ## The whole computation, as functions of the twenty arguments -/

/-- The embedding after the first layer. -/
def emb1 (a3 : IVec S2000000 32) (a4 : IVec S2000000 32) (a5 : FVec F S2000000 .f32) (a6 : FVec F S50000x64 .f32) (a7 : FVec F S150000x64 .f32) (a8 : FVec F S64x64 .f32) (a9 : FVec F S1x64 .f32) (a10 : FVec F S64x64 .f32) (a11 : FVec F S1x64 .f32) : FVec F S200000x64 .f32 :=
  layerE0 (ego0 a6 a7) (agg0 (ego0 a6 a7) a3 a4 a5) a8 a9 a10 a11

/-- The embedding after the second layer. -/
def emb2 (a3 : IVec S2000000 32) (a4 : IVec S2000000 32) (a5 : FVec F S2000000 .f32) (a6 : FVec F S50000x64 .f32) (a7 : FVec F S150000x64 .f32) (a8 : FVec F S64x64 .f32) (a9 : FVec F S1x64 .f32) (a10 : FVec F S64x64 .f32) (a11 : FVec F S1x64 .f32) (a12 : FVec F S64x32 .f32) (a13 : FVec F S1x32 .f32) (a14 : FVec F S64x32 .f32) (a15 : FVec F S1x32 .f32) : FVec F S200000x32 .f32 :=
  layerE1 (emb1 a3 a4 a5 a6 a7 a8 a9 a10 a11) (agg0 (emb1 a3 a4 a5 a6 a7 a8 a9 a10 a11) a3 a4 a5) a12 a13 a14 a15

/-- The embedding after the third layer. -/
def emb3 (a3 : IVec S2000000 32) (a4 : IVec S2000000 32) (a5 : FVec F S2000000 .f32) (a6 : FVec F S50000x64 .f32) (a7 : FVec F S150000x64 .f32) (a8 : FVec F S64x64 .f32) (a9 : FVec F S1x64 .f32) (a10 : FVec F S64x64 .f32) (a11 : FVec F S1x64 .f32) (a12 : FVec F S64x32 .f32) (a13 : FVec F S1x32 .f32) (a14 : FVec F S64x32 .f32) (a15 : FVec F S1x32 .f32) (a16 : FVec F S32x16 .f32) (a17 : FVec F S1x16 .f32) (a18 : FVec F S32x16 .f32) (a19 : FVec F S1x16 .f32) : FVec F S200000x16 .f32 :=
  layerE2 (emb2 a3 a4 a5 a6 a7 a8 a9 a10 a11 a12 a13 a14 a15) (agg2 (emb2 a3 a4 a5 a6 a7 a8 a9 a10 a11 a12 a13 a14 a15) a3 a4 a5) a16 a17 a18 a19

/-- The scores of the batch: the initial embedding and the three normalised layer embeddings side by side, the batch's
    user and item rows, their inner products. -/
def scores (a0 : IVec S8192 32) (a1 : IVec S8192 32) (a2 : IVec S8192 32) (a3 : IVec S2000000 32) (a4 : IVec S2000000 32) (a5 : FVec F S2000000 .f32) (a6 : FVec F S50000x64 .f32) (a7 : FVec F S150000x64 .f32) (a8 : FVec F S64x64 .f32) (a9 : FVec F S1x64 .f32) (a10 : FVec F S64x64 .f32) (a11 : FVec F S1x64 .f32) (a12 : FVec F S64x32 .f32) (a13 : FVec F S1x32 .f32) (a14 : FVec F S64x32 .f32) (a15 : FVec F S1x32 .f32) (a16 : FVec F S32x16 .f32) (a17 : FVec F S1x16 .f32) (a18 : FVec F S32x16 .f32) (a19 : FVec F S1x16 .f32) : FVec F S8192x2 .f32 :=
  scoresOf (allEmb (ego0 a6 a7) (normed0 (emb1 a3 a4 a5 a6 a7 a8 a9 a10 a11)) (normed1 (emb2 a3 a4 a5 a6 a7 a8 a9 a10 a11 a12 a13 a14 a15)) (normed2 (emb3 a3 a4 a5 a6 a7 a8 a9 a10 a11 a12 a13 a14 a15 a16 a17 a18 a19))) a0 a1 a2

end Cert.ReferenceIdeal.Terms

end
-- ==== Proof.KI.Bridge.lean ====
/-
  The idealised kernel program's result, read back.  The run leaves every buffer at the last of a chain of contents:
  the launch memory, then a stretch of host operations, then a region's two outputs replaced, and so on.  Read
  forwards, the chain is the reference's computation: the first stretch stacks the embedding tables and aggregates
  over the edges (the kernel program multiplies the gathered row by the edge weight, the reference the weight by the
  row: one product); each region's outputs are the reference's layer of what the region was entered with; the
  stretches between aggregate the new embedding; the last stretch is the reference's scores of the four embeddings.
-/
import proofs.«156520_j49993419325916_1_alg».proof.Proof.KI.Run
import proofs.«156520_j49993419325916_1_alg».proof.Proof.KI.Value0
import proofs.«156520_j49993419325916_1_alg».proof.Proof.KI.Value1
import proofs.«156520_j49993419325916_1_alg».proof.Proof.KI.Value2
import proofs.«156520_j49993419325916_1_alg».proof.Proof.Ref.Spec
import Idealize.ShloMosaic.Lib.StableHlo.Run

set_option maxRecDepth 16384

noncomputable section

namespace Cert.KernelIdeal.Layer

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.Rows Cert.ReferenceIdeal.Terms

variable (m : (ℓ : Loc nD τ sig) → Buf (Elt Ideal) ℓ)

/-! ## Products commute on the extended reals -/

theorem mulf_comm {s : Shape} {φ : FTy} (a b : FVec Ideal s φ) : mulf a b = mulf b a := by
  funext i; simp only [mulf_apply, mul_comm]

/-- The aggregation with the product written the other way round (gathered row times edge weight). -/
theorem agg0_comm (e : FVec Ideal Cert.ReferenceIdeal.S200000x64 .f32) (rows cols : IVec Cert.ReferenceIdeal.S2000000 32) (edge : FVec Ideal Cert.ReferenceIdeal.S2000000 .f32) :
    Host.scatterAdd Cert.ReferenceIdeal.scatter_S200000x64_S2000000x1_S2000000x64_1_0_0_1
      (broadcastInDim Cert.ReferenceIdeal.S200000x64 ![] Cert.ReferenceIdeal.Facts₀.bcast_S_S200000x64 (constant (F := Ideal) Cert.ReferenceIdeal.S_ .f32 0x00000000#32))
      (broadcastInDim Cert.ReferenceIdeal.S2000000x1 ![0] Cert.ReferenceIdeal.Facts₀.bcast_S2000000_S2000000x1_0 rows)
      (mulf (Host.gather Cert.ReferenceIdeal.gather_S200000x64_S2000000x1_S2000000x64_1_0_n_n_0_1_164 e (wrapE cols))
        (broadcastInDim Cert.ReferenceIdeal.S2000000x64 ![0, 1] Cert.ReferenceIdeal.Facts₀.bcast_S2000000x1_S2000000x64_0_1 (broadcastInDim Cert.ReferenceIdeal.S2000000x1 ![0] Cert.ReferenceIdeal.Facts₀.bcast_S2000000_S2000000x1_0 edge)))
    = agg0 (F := Ideal) e rows cols edge := by
  unfold agg0; rw [mulf_comm]

theorem agg2_comm (e : FVec Ideal Cert.ReferenceIdeal.S200000x32 .f32) (rows cols : IVec Cert.ReferenceIdeal.S2000000 32) (edge : FVec Ideal Cert.ReferenceIdeal.S2000000 .f32) :
    Host.scatterAdd Cert.ReferenceIdeal.scatter_S200000x32_S2000000x1_S2000000x32_1_0_0_1
      (broadcastInDim Cert.ReferenceIdeal.S200000x32 ![] Cert.ReferenceIdeal.Facts₀.bcast_S_S200000x32 (constant (F := Ideal) Cert.ReferenceIdeal.S_ .f32 0x00000000#32))
      (broadcastInDim Cert.ReferenceIdeal.S2000000x1 ![0] Cert.ReferenceIdeal.Facts₀.bcast_S2000000_S2000000x1_0 rows)
      (mulf (Host.gather Cert.ReferenceIdeal.gather_S200000x32_S2000000x1_S2000000x32_1_0_n_n_0_1_132 e (wrapE cols))
        (broadcastInDim Cert.ReferenceIdeal.S2000000x32 ![0, 1] Cert.ReferenceIdeal.Facts₀.bcast_S2000000x1_S2000000x32_0_1 (broadcastInDim Cert.ReferenceIdeal.S2000000x1 ![0] Cert.ReferenceIdeal.Facts₀.bcast_S2000000_S2000000x1_0 edge)))
    = agg2 (F := Ideal) e rows cols edge := by
  unfold agg2; rw [mulf_comm]

/-! ## A buffer no earlier item writes still holds its launch contents -/

theorem W1_keep (c : Dev nD) (r : Ref sig .tc) (h0 : r ∉ hostOps0_W) : W1 m c (Proc.devRef .tc r) = m ((c : Thread nD τ).loc r) :=
  StableHlo.after_of_writes_sub hostOps0 _ hostOps0_writes h0
theorem W2_keep0 (c : Dev nD) (r : Ref sig .tc) (h0 : r ∉ hostOps0_W) (h1 : r ∉ ([main_v14_0, main_v14_1] : List (Ref sig .tc))) :
    W2 m c (Proc.devRef .tc r) = m ((c : Thread nD τ).loc r) := (W2_keep m c r h1).trans (W1_keep m c r h0)
theorem W3_keep0 (c : Dev nD) (r : Ref sig .tc) (h0 : r ∉ hostOps0_W) (h1 : r ∉ ([main_v14_0, main_v14_1] : List (Ref sig .tc))) (h2 : r ∉ hostOps1_W) :
    W3 m c (Proc.devRef .tc r) = m ((c : Thread nD τ).loc r) :=
  (StableHlo.after_of_writes_sub hostOps1 _ hostOps1_writes h2).trans (W2_keep0 m c r h0 h1)
theorem W4_keep0 (c : Dev nD) (r : Ref sig .tc) (h0 : r ∉ hostOps0_W) (h1 : r ∉ ([main_v14_0, main_v14_1] : List (Ref sig .tc))) (h2 : r ∉ hostOps1_W)
    (h3 : r ∉ ([main_v28_0, main_v28_1] : List (Ref sig .tc))) : W4 m c (Proc.devRef .tc r) = m ((c : Thread nD τ).loc r) :=
  (W4_keep m c r h3).trans (W3_keep0 m c r h0 h1 h2)
theorem W5_keep0 (c : Dev nD) (r : Ref sig .tc) (h0 : r ∉ hostOps0_W) (h1 : r ∉ ([main_v14_0, main_v14_1] : List (Ref sig .tc))) (h2 : r ∉ hostOps1_W)
    (h3 : r ∉ ([main_v28_0, main_v28_1] : List (Ref sig .tc))) (h4 : r ∉ hostOps2_W) : W5 m c (Proc.devRef .tc r) = m ((c : Thread nD τ).loc r) :=
  (StableHlo.after_of_writes_sub hostOps2 _ hostOps2_writes h4).trans (W4_keep0 m c r h0 h1 h2 h3)
theorem W6_keep0 (c : Dev nD) (r : Ref sig .tc) (h0 : r ∉ hostOps0_W) (h1 : r ∉ ([main_v14_0, main_v14_1] : List (Ref sig .tc))) (h2 : r ∉ hostOps1_W)
    (h3 : r ∉ ([main_v28_0, main_v28_1] : List (Ref sig .tc))) (h4 : r ∉ hostOps2_W) (h5 : r ∉ ([main_v42_0, main_v42_1] : List (Ref sig .tc))) :
    W6 m c (Proc.devRef .tc r) = m ((c : Thread nD τ).loc r) :=
  (W6_keep m c r h5).trans (W5_keep0 m c r h0 h1 h2 h3 h4)

/-! ## The first stretch: the stacked embedding and its aggregation -/

theorem W1_v0 (c : Dev nD) : W1 m c (Proc.devRef .tc main_v0) = ego0 (F := Ideal) (m ((c : Thread nD τ).loc main_arg6)) (m ((c : Thread nD τ).loc main_arg7)) := by
  show StableHlo.after hostOps0 (W0 m c) (Proc.devRef .tc main_v0) = _
  after_results
  rfl

set_option maxHeartbeats 4000000 in
theorem W1_v13 (c : Dev nD) : W1 m c (Proc.devRef .tc main_v13) = agg0 (F := Ideal) (ego0 (F := Ideal) (m ((c : Thread nD τ).loc main_arg6)) (m ((c : Thread nD τ).loc main_arg7))) (m ((c : Thread nD τ).loc main_arg3)) (m ((c : Thread nD τ).loc main_arg4)) (m ((c : Thread nD τ).loc main_arg5)) := by
  show StableHlo.after hostOps0 (W0 m c) (Proc.devRef .tc main_v13) = _
  after_results_simp
  exact agg0_comm _ _ _ _

/-! ## Region 0: the first layer -/

theorem W2_v14_0 (hE0 : CoreE0) (c : Dev nD) : W2 m c (Proc.devRef .tc main_v14_0) = emb1 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W2_arr m c 6).trans ((final0_6 (X1 m) hE0 c).trans ?_)
  show layerE0 (F := Ideal) (W1 m c (Proc.devRef .tc main_v0)) (W1 m c (Proc.devRef .tc main_v13)) (W1 m c (Proc.devRef .tc main_arg8)) (W1 m c (Proc.devRef .tc main_arg9)) (W1 m c (Proc.devRef .tc main_arg10)) (W1 m c (Proc.devRef .tc main_arg11)) = _
  rw [W1_v0, W1_v13, W1_keep m c main_arg8 (by decide), W1_keep m c main_arg9 (by decide), W1_keep m c main_arg10 (by decide), W1_keep m c main_arg11 (by decide)]
  rfl

theorem W2_v14_1 (hE0 : CoreE0) (hN0 : CoreN0) (c : Dev nD) : W2 m c (Proc.devRef .tc main_v14_1) = normed0 (F := Ideal) (emb1 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W2_arr m c 7).trans ((final0_7 (X1 m) hN0 c).trans ?_)
  show normed0 (F := Ideal) (layerE0 (F := Ideal) (W1 m c (Proc.devRef .tc main_v0)) (W1 m c (Proc.devRef .tc main_v13)) (W1 m c (Proc.devRef .tc main_arg8)) (W1 m c (Proc.devRef .tc main_arg9)) (W1 m c (Proc.devRef .tc main_arg10)) (W1 m c (Proc.devRef .tc main_arg11))) = _
  rw [W1_v0, W1_v13, W1_keep m c main_arg8 (by decide), W1_keep m c main_arg9 (by decide), W1_keep m c main_arg10 (by decide), W1_keep m c main_arg11 (by decide)]
  rfl

/-! ## The second stretch: the first layer's embedding aggregated -/

theorem W3_v14_0 (hE0 : CoreE0) (c : Dev nD) : W3 m c (Proc.devRef .tc main_v14_0) = emb1 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (StableHlo.after_of_writes_sub hostOps1 _ hostOps1_writes (by decide)).trans (W2_v14_0 m hE0 c)

set_option maxHeartbeats 4000000 in
theorem W3_v27 (hE0 : CoreE0) (c : Dev nD) : W3 m c (Proc.devRef .tc main_v27) = agg0 (F := Ideal) (emb1 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg3)) (m ((c : Thread nD τ).loc main_arg4)) (m ((c : Thread nD τ).loc main_arg5)) := by
  show StableHlo.after hostOps1 (W2 m c) (Proc.devRef .tc main_v27) = _
  after_results_simp
  rw [W2_v14_0 m hE0 c, W2_keep0 m c main_arg3 (by decide) (by decide), W2_keep0 m c main_arg4 (by decide) (by decide), W2_keep0 m c main_arg5 (by decide) (by decide)]
  exact agg0_comm _ _ _ _

/-! ## Region 1: the second layer -/

theorem W4_v28_0 (hE0 : CoreE0) (hE1 : CoreE1) (c : Dev nD) : W4 m c (Proc.devRef .tc main_v28_0) = emb2 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m c 6).trans ((final1_6 (X3 m) hE1 c).trans ?_)
  show layerE1 (F := Ideal) (W3 m c (Proc.devRef .tc main_v14_0)) (W3 m c (Proc.devRef .tc main_v27)) (W3 m c (Proc.devRef .tc main_arg12)) (W3 m c (Proc.devRef .tc main_arg13)) (W3 m c (Proc.devRef .tc main_arg14)) (W3 m c (Proc.devRef .tc main_arg15)) = _
  rw [W3_v14_0 m hE0 c, W3_v27 m hE0 c, W3_keep0 m c main_arg12 (by decide) (by decide) (by decide), W3_keep0 m c main_arg13 (by decide) (by decide) (by decide), W3_keep0 m c main_arg14 (by decide) (by decide) (by decide), W3_keep0 m c main_arg15 (by decide) (by decide) (by decide)]
  rfl

theorem W4_v28_1 (hE0 : CoreE0) (hE1 : CoreE1) (hN1 : CoreN1) (c : Dev nD) : W4 m c (Proc.devRef .tc main_v28_1) = normed1 (F := Ideal) (emb2 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W4_arr m c 7).trans ((final1_7 (X3 m) hN1 c).trans ?_)
  show normed1 (F := Ideal) (layerE1 (F := Ideal) (W3 m c (Proc.devRef .tc main_v14_0)) (W3 m c (Proc.devRef .tc main_v27)) (W3 m c (Proc.devRef .tc main_arg12)) (W3 m c (Proc.devRef .tc main_arg13)) (W3 m c (Proc.devRef .tc main_arg14)) (W3 m c (Proc.devRef .tc main_arg15))) = _
  rw [W3_v14_0 m hE0 c, W3_v27 m hE0 c, W3_keep0 m c main_arg12 (by decide) (by decide) (by decide), W3_keep0 m c main_arg13 (by decide) (by decide) (by decide), W3_keep0 m c main_arg14 (by decide) (by decide) (by decide), W3_keep0 m c main_arg15 (by decide) (by decide) (by decide)]
  rfl

/-! ## The third stretch: the second layer's embedding aggregated -/

theorem W5_v28_0 (hE0 : CoreE0) (hE1 : CoreE1) (c : Dev nD) : W5 m c (Proc.devRef .tc main_v28_0) = emb2 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (StableHlo.after_of_writes_sub hostOps2 _ hostOps2_writes (by decide)).trans (W4_v28_0 m hE0 hE1 c)

set_option maxHeartbeats 4000000 in
theorem W5_v41 (hE0 : CoreE0) (hE1 : CoreE1) (c : Dev nD) : W5 m c (Proc.devRef .tc main_v41) = agg2 (F := Ideal) (emb2 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg3)) (m ((c : Thread nD τ).loc main_arg4)) (m ((c : Thread nD τ).loc main_arg5)) := by
  show StableHlo.after hostOps2 (W4 m c) (Proc.devRef .tc main_v41) = _
  after_results_simp
  rw [W4_v28_0 m hE0 hE1 c, W4_keep0 m c main_arg3 (by decide) (by decide) (by decide) (by decide), W4_keep0 m c main_arg4 (by decide) (by decide) (by decide) (by decide), W4_keep0 m c main_arg5 (by decide) (by decide) (by decide) (by decide)]
  exact agg2_comm _ _ _ _

/-! ## Region 2: the third layer -/

theorem W6_v42_1 (hE0 : CoreE0) (hE1 : CoreE1) (hN2 : CoreN2) (c : Dev nD) : W6 m c (Proc.devRef .tc main_v42_1) = normed2 (F := Ideal) (emb3 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W6_arr m c 7).trans ((final2_7 (X5 m) hN2 c).trans ?_)
  show normed2 (F := Ideal) (layerE2 (F := Ideal) (W5 m c (Proc.devRef .tc main_v28_0)) (W5 m c (Proc.devRef .tc main_v41)) (W5 m c (Proc.devRef .tc main_arg16)) (W5 m c (Proc.devRef .tc main_arg17)) (W5 m c (Proc.devRef .tc main_arg18)) (W5 m c (Proc.devRef .tc main_arg19))) = _
  rw [W5_v28_0 m hE0 hE1 c, W5_v41 m hE0 hE1 c, W5_keep0 m c main_arg16 (by decide) (by decide) (by decide) (by decide) (by decide), W5_keep0 m c main_arg17 (by decide) (by decide) (by decide) (by decide) (by decide), W5_keep0 m c main_arg18 (by decide) (by decide) (by decide) (by decide) (by decide), W5_keep0 m c main_arg19 (by decide) (by decide) (by decide) (by decide) (by decide)]
  rfl

/-! ## What the last stretch finds -/

theorem W6_v0 (c : Dev nD) : W6 m c (Proc.devRef .tc main_v0) = ego0 (F := Ideal) (m ((c : Thread nD τ).loc main_arg6)) (m ((c : Thread nD τ).loc main_arg7)) :=
  calc W6 m c (Proc.devRef .tc main_v0)
    _ = W5 m c (Proc.devRef .tc main_v0) := W6_keep m c main_v0 (by decide)
    _ = W4 m c (Proc.devRef .tc main_v0) := StableHlo.after_of_writes_sub hostOps2 _ hostOps2_writes (by decide)
    _ = W3 m c (Proc.devRef .tc main_v0) := W4_keep m c main_v0 (by decide)
    _ = W2 m c (Proc.devRef .tc main_v0) := StableHlo.after_of_writes_sub hostOps1 _ hostOps1_writes (by decide)
    _ = W1 m c (Proc.devRef .tc main_v0) := W2_keep m c main_v0 (by decide)
    _ = _ := W1_v0 m c

theorem W6_v14_1 (hE0 : CoreE0) (hN0 : CoreN0) (c : Dev nD) : W6 m c (Proc.devRef .tc main_v14_1) = normed0 (F := Ideal) (emb1 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  calc W6 m c (Proc.devRef .tc main_v14_1)
    _ = W5 m c (Proc.devRef .tc main_v14_1) := W6_keep m c main_v14_1 (by decide)
    _ = W4 m c (Proc.devRef .tc main_v14_1) := StableHlo.after_of_writes_sub hostOps2 _ hostOps2_writes (by decide)
    _ = W3 m c (Proc.devRef .tc main_v14_1) := W4_keep m c main_v14_1 (by decide)
    _ = W2 m c (Proc.devRef .tc main_v14_1) := StableHlo.after_of_writes_sub hostOps1 _ hostOps1_writes (by decide)
    _ = _ := W2_v14_1 m hE0 hN0 c

theorem W6_v28_1 (hE0 : CoreE0) (hE1 : CoreE1) (hN1 : CoreN1) (c : Dev nD) : W6 m c (Proc.devRef .tc main_v28_1) = normed1 (F := Ideal) (emb2 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  calc W6 m c (Proc.devRef .tc main_v28_1)
    _ = W5 m c (Proc.devRef .tc main_v28_1) := W6_keep m c main_v28_1 (by decide)
    _ = W4 m c (Proc.devRef .tc main_v28_1) := StableHlo.after_of_writes_sub hostOps2 _ hostOps2_writes (by decide)
    _ = _ := W4_v28_1 m hE0 hE1 hN1 c

/-! ## The last stretch: the scores -/

/-- Two columns side by side, compared column by column. -/
theorem concat2_congr {a a' b b' : FVec Ideal Cert.ReferenceIdeal.S8192x1 .f32}
    (h : Shape.Concatenates [Cert.ReferenceIdeal.S8192x1, Cert.ReferenceIdeal.S8192x1] Cert.ReferenceIdeal.S8192x2 1) (ha : a = a') (hb : b = b') :
    concatenate Cert.ReferenceIdeal.S8192x2 1 [⟨Cert.ReferenceIdeal.S8192x1, a⟩, ⟨Cert.ReferenceIdeal.S8192x1, b⟩] h
      = concatenate Cert.ReferenceIdeal.S8192x2 1 [⟨Cert.ReferenceIdeal.S8192x1, a'⟩, ⟨Cert.ReferenceIdeal.S8192x1, b'⟩] h := by
  subst ha; subst hb; rfl

set_option maxHeartbeats 8000000 in
theorem W7_v73 (c : Dev nD) : W7 m c (Proc.devRef .tc main_v73)
    = scoresOf (F := Ideal) (allEmb (F := Ideal) (W6 m c (Proc.devRef .tc main_v0)) (W6 m c (Proc.devRef .tc main_v14_1)) (W6 m c (Proc.devRef .tc main_v28_1)) (W6 m c (Proc.devRef .tc main_v42_1)))
        (W6 m c (Proc.devRef .tc main_arg0)) (W6 m c (Proc.devRef .tc main_arg1)) (W6 m c (Proc.devRef .tc main_arg2)) := by
  show StableHlo.after hostOps3 (W6 m c) (Proc.devRef .tc main_v73) = _
  after_results_simp
  unfold scoresOf
  refine concat2_congr _ ?_ ?_
  · after_results_simp
    rfl
  · after_results_simp
    rfl

/-- The idealised kernel program's result buffer ends holding the reference's scores of the launch arguments. -/
theorem kernel_value (hE0 : CoreE0) (hN0 : CoreN0) (hE1 : CoreE1) (hN1 : CoreN1) (hN2 : CoreN2) (c : Dev nD) :
    W7 m c (Proc.devRef .tc main_v73) = scores (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [W7_v73, W6_v0, W6_v14_1 m hE0 hN0 c, W6_v28_1 m hE0 hE1 hN1 c, W6_v42_1 m hE0 hE1 hN2 c,
    W6_keep0 m c main_arg0 (by decide) (by decide) (by decide) (by decide) (by decide) (by decide), W6_keep0 m c main_arg1 (by decide) (by decide) (by decide) (by decide) (by decide) (by decide), W6_keep0 m c main_arg2 (by decide) (by decide) (by decide) (by decide) (by decide) (by decide)]
  rfl

/-! ## The run, with its result -/

/-- Every weakly fair execution of the idealised kernel program terminates, nothing faulting, with the result buffer at
    the last contents `W7` and every argument array as launched. -/
theorem run_res (ρ : Dev nD → PrngReg) : θ_run defs (onTc (τ := τ) (main (F := Ideal))) ⟨m, fun _ => 0, ρ⟩ (fun r => ∀ c : Dev nD,
      r.2.mem ((c.tc : Thread nD τ).loc main_v73) = W7 m c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v73 (by decide)),
        (h c _ (mem_uc main_arg0 (by decide))).trans (W7_keep m c main_arg0 (by decide) (by decide) (by decide) (by decide) (by decide) (by decide) (by decide)),
        (h c _ (mem_uc main_arg1 (by decide))).trans (W7_keep m c main_arg1 (by decide) (by decide) (by decide) (by decide) (by decide) (by decide) (by decide)),
        (h c _ (mem_uc main_arg2 (by decide))).trans (W7_keep m c main_arg2 (by decide) (by decide) (by decide) (by decide) (by decide) (by decide) (by decide)),
        (h c _ (mem_uc main_arg3 (by decide))).trans (W7_keep m c main_arg3 (by decide) (by decide) (by decide) (by decide) (by decide) (by decide) (by decide)),
        (h c _ (mem_uc main_arg4 (by decide))).trans (W7_keep m c main_arg4 (by decide) (by decide) (by decide) (by decide) (by decide) (by decide) (by decide)),
        (h c _ (mem_uc main_arg5 (by decide))).trans (W7_keep m c main_arg5 (by decide) (by decide) (by decide) (by decide) (by decide) (by decide) (by decide)),
        (h c _ (mem_uc main_arg6 (by decide))).trans (W7_keep m c main_arg6 (by decide) (by decide) (by decide) (by decide) (by decide) (by decide) (by decide)),
        (h c _ (mem_uc main_arg7 (by decide))).trans (W7_keep m c main_arg7 (by decide) (by decide) (by decide) (by decide) (by decide) (by decide) (by decide)),
        (h c _ (mem_uc main_arg8 (by decide))).trans (W7_keep m c main_arg8 (by decide) (by decide) (by decide) (by decide) (by decide) (by decide) (by decide)),
        (h c _ (mem_uc main_arg9 (by decide))).trans (W7_keep m c main_arg9 (by decide) (by decide) (by decide) (by decide) (by decide) (by decide) (by decide)),
        (h c _ (mem_uc main_arg10 (by decide))).trans (W7_keep m c main_arg10 (by decide) (by decide) (by decide) (by decide) (by decide) (by decide) (by decide)),
        (h c _ (mem_uc main_arg11 (by decide))).trans (W7_keep m c main_arg11 (by decide) (by decide) (by decide) (by decide) (by decide) (by decide) (by decide)),
        (h c _ (mem_uc main_arg12 (by decide))).trans (W7_keep m c main_arg12 (by decide) (by decide) (by decide) (by decide) (by decide) (by decide) (by decide)),
        (h c _ (mem_uc main_arg13 (by decide))).trans (W7_keep m c main_arg13 (by decide) (by decide) (by decide) (by decide) (by decide) (by decide) (by decide)),
        (h c _ (mem_uc main_arg14 (by decide))).trans (W7_keep m c main_arg14 (by decide) (by decide) (by decide) (by decide) (by decide) (by decide) (by decide)),
        (h c _ (mem_uc main_arg15 (by decide))).trans (W7_keep m c main_arg15 (by decide) (by decide) (by decide) (by decide) (by decide) (by decide) (by decide)),
        (h c _ (mem_uc main_arg16 (by decide))).trans (W7_keep m c main_arg16 (by decide) (by decide) (by decide) (by decide) (by decide) (by decide) (by decide)),
        (h c _ (mem_uc main_arg17 (by decide))).trans (W7_keep m c main_arg17 (by decide) (by decide) (by decide) (by decide) (by decide) (by decide) (by decide)),
        (h c _ (mem_uc main_arg18 (by decide))).trans (W7_keep m c main_arg18 (by decide) (by decide) (by decide) (by decide) (by decide) (by decide) (by decide)),
        (h c _ (mem_uc main_arg19 (by decide))).trans (W7_keep m c main_arg19 (by decide) (by decide) (by decide) (by decide) (by decide) (by decide) (by decide))⟩) (run_all m ρ)

end Cert.KernelIdeal.Layer

end
-- ==== Proof.LibDense.lean ====
/-
  A dense layer read entry by entry, at the exact (extended-real) values.

  The layer takes an embedding x and an aggregated neighbourhood s (m rows of k features each), two k×n weight matrices
  and two bias rows, and forms
      e = lrelu((x + s)·Wg + bg) + lrelu((x ∘ s)·Wb + bb),        n_r = max(sqrt(Σ_q e[r, q]²), 1e-12),        e / n.
  It can be written with the vector unit's operations (a product into a zero accumulator, a row or a column copied
  across a block, a sum along the lanes, a vector stood up as a column) or with the host's (dot_general,
  broadcast_in_dim, reduce).  Every lemma here reads one of those spellings at an entry named by its coordinates and
  says which scalar expression of the operands' entries it is; no lemma depends on the number of rows, so a block of rows
  and the whole array are read by the same statements.  The expressions are `entryS` (an entry of e from a row of x
  and of s, a column of each weight matrix and an entry of each bias row) and `normS` (a row's clamped norm from the
  row's entries).  Nothing is assumed finite and no algebraic law is used beyond 0 + a = a: the two spellings give the
  same expression term by term.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Core

open Idealize.ShloMosaic Idealize.ShloMosaic.ValueIdx

/-! ## A rows-by-columns product read at an index

The dimension numbers "contract axis 1 of the left operand with axis 0 of the right one, no batch axis" describe the
ordinary product of an m×k by a k×n matrix.  Its entry (a, b) is the sum over c of A[a, c] · B[c, b], whether the
product is the vector unit's matmul into a zero accumulator or the host's dot_general. -/

section Contraction
variable {m k n : Nat}

/-- The left operand's index at result entry (a, b) and contraction position c is (a, c). -/
theorem lhsIdx_rowcol (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have hc := contrEquiv1_symm_val (⟨[1], [0], [0], [1], [], [], w⟩ : DotDims ⟨2, ![m, k]⟩ ⟨2, ![k, n]⟩ ⟨2, ![m, n]⟩) k rfl rfl c
  funext ax
  apply Fin.ext
  match ax with
  | ⟨0, _⟩ => simp [DotDims.lhsIdx]; rfl
  | ⟨1, _⟩ => simp [DotDims.lhsIdx]; exact hc

/-- The right operand's index at result entry (a, b) and contraction position c is (c, b). -/
theorem rhsIdx_rowcol (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have hc := contrEquiv1_symm_val (⟨[1], [0], [0], [1], [], [], w⟩ : DotDims ⟨2, ![m, k]⟩ ⟨2, ![k, n]⟩ ⟨2, ![m, n]⟩) k rfl rfl c
  funext ax
  apply Fin.ext
  match ax with
  | ⟨0, _⟩ => simp [DotDims.rhsIdx]; exact hc
  | ⟨1, _⟩ => simp [DotDims.rhsIdx]; rfl

/-- The vector unit's product into a zero accumulator, at entry (a, b): the sum over c of A[a, c] · B[c, b]. -/
theorem matmul_zero_rowcol_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol w a b c, rhsIdx_rowcol w a b c]

/-- The host's product at entry (a, b): the same sum. -/
theorem dotGeneral_rowcol_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol w a b c, rhsIdx_rowcol w a b c]

end Contraction

/-! ## Rows, columns and row sums read at an index

A one-row matrix copied down the rows, a one-column matrix copied along the rows, a vector stood up as a one-column
matrix, and the sum of a matrix's rows along the lanes: each in the vector unit's spelling and in the host's, read at
an entry named by its coordinates. -/

section Layout
variable {α : Type} {m n : Nat}

/-- The host's copy of a one-row matrix down m rows reads, at (a, b), the row's entry b. -/
theorem broadcastInDim_row_apply (v : (⟨2, ![1, n]⟩ : Shape).Idx → α)
    (h : (⟨2, ![1, n]⟩ : Shape).BroadcastsInDim ⟨2, ![m, n]⟩ (![0, 1] : Fin 2 → Fin 2)) (a : Fin m) (b : Fin n) :
    broadcastInDim ⟨2, ![m, n]⟩ (![0, 1] : Fin 2 → Fin 2) h v (ix2 a b) = v (ix2 (0 : Fin 1) b) := by
  refine broadcastInDim_apply _ h v (ix2 a b) (ix2 (0 : Fin 1) b) fun ax => ?_
  match ax with
  | ⟨0, _⟩ => rfl
  | ⟨1, _⟩ =>
    show b.val = if n = 1 then 0 else b.val
    split
    · have := b.isLt; omega
    · rfl

/-- The vector unit's copy of a one-column matrix along n lanes reads, at (a, b), the column's entry a. -/
theorem broadcastTo_col_apply (v : (⟨2, ![m, 1]⟩ : Shape).Idx → α) (h : (⟨2, ![m, 1]⟩ : Shape).Broadcasts ⟨2, ![m, n]⟩)
    (a : Fin m) (b : Fin n) : broadcastTo ⟨2, ![m, n]⟩ v h (ix2 a b) = v (ix2 a (0 : Fin 1)) := by
  refine broadcastTo_apply v h (ix2 a b) (ix2 a (0 : Fin 1)) fun ax => ?_
  match ax with
  | ⟨0, _⟩ =>
    show a.val = if m = 1 then 0 else a.val
    split
    · have := a.isLt; omega
    · rfl
  | ⟨1, _⟩ => rfl

/-- The host's copy of a one-column matrix along n columns reads, at (a, b), the column's entry a. -/
theorem broadcastInDim_col_apply (v : (⟨2, ![m, 1]⟩ : Shape).Idx → α)
    (h : (⟨2, ![m, 1]⟩ : Shape).BroadcastsInDim ⟨2, ![m, n]⟩ (![0, 1] : Fin 2 → Fin 2)) (a : Fin m) (b : Fin n) :
    broadcastInDim ⟨2, ![m, n]⟩ (![0, 1] : Fin 2 → Fin 2) h v (ix2 a b) = v (ix2 a (0 : Fin 1)) := by
  refine broadcastInDim_apply _ h v (ix2 a b) (ix2 a (0 : Fin 1)) fun ax => ?_
  match ax with
  | ⟨0, _⟩ =>
    show a.val = if m = 1 then 0 else a.val
    split
    · have := a.isLt; omega
    · rfl
  | ⟨1, _⟩ => rfl

/-- A vector of m entries cast to an m×1 matrix reads, at (a, u), the vector's entry a. -/
theorem shapeCast_a_a1_apply (x : (⟨1, ![m]⟩ : Shape).Idx → α) (h : (⟨1, ![m]⟩ : Shape).ShapeCasts ⟨2, ![m, 1]⟩)
    (a : Fin m) (u : Fin 1) : shapeCast ⟨2, ![m, 1]⟩ x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-- The host's broadcast of a vector of m entries to an m×1 matrix reads, at (a, u), the vector's entry a. -/
theorem broadcastInDim_a_a1_apply (x : (⟨1, ![m]⟩ : Shape).Idx → α)
    (h : (⟨1, ![m]⟩ : Shape).BroadcastsInDim ⟨2, ![m, 1]⟩ (![0] : Fin 1 → Fin 2)) (a : Fin m) (u : Fin 1) :
    broadcastInDim ⟨2, ![m, 1]⟩ (![0] : Fin 1 → Fin 2) h x (ix2 a u) = x (ix1 a) := by
  refine broadcastInDim_apply _ h x (ix2 a u) (ix1 a) fun ax => ?_
  match ax with
  | ⟨0, _⟩ =>
    show a.val = if m = 1 then 0 else a.val
    split
    · have := a.isLt; omega
    · rfl

/-- The vector unit's sum along the lanes of an m×n matrix, at row a: the sum over c of the entries (a, c). -/
theorem multiReduction_add_lanes_apply {φ : FTy} (src : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (a : Fin m) :
    multiReduction .add [(1 : Fin 2)] ⟨1, ![m]⟩ src acc h hφ hacc (ix1 a) = ∑ c : Fin n, src (ix2 a c) := by
  refine (Ideal.multiReduction_add_single src acc h hφ hacc (ix1 a)).trans ?_
  refine Finset.sum_congr rfl fun c _ => congrArg src ?_
  funext ax
  apply Fin.ext
  match ax with
  | ⟨0, _⟩ => rfl
  | ⟨1, _⟩ => rfl

/-- The host's sum over axis 1 of an m×n matrix from an initial value, at row a: the initial value plus the sum over c
    of the entries (a, c). -/
theorem hostReduceAdd_lanes_apply {φ : FTy} {u : Shape} (x : FVec Ideal ⟨2, ![m, n]⟩ φ) (init : u.Idx → Ideal φ)
    (h' : (⟨2, ![m, n]⟩ : Shape).ReducesTo [(1 : Fin 2)] ⟨1, ![m]⟩) (hu : 0 < u.numel) (a : Fin m) :
    Host.reduceAdd x init h' hu (ix1 a) = init (Shape.Idx.first hu) + ∑ c : Fin n, x (ix2 a c) := by
  have h : (⟨2, ![m, n]⟩ : Shape).Reduces [(1 : Fin 2)] ⟨1, ![m]⟩ := by
    obtain ⟨hr, hs⟩ := h'
    exact ⟨hr, Nat.one_pos, hs⟩
  show Ideal.hostReduceAdd h' x (init (Shape.Idx.first hu)) (ix1 a) = _
  rw [Ideal.hostReduceAdd_single h' h]
  refine congrArg (init (Shape.Idx.first hu) + ·) ?_
  refine Finset.sum_congr rfl fun c _ => congrArg x ?_
  funext ax
  apply Fin.ext
  match ax with
  | ⟨0, _⟩ => rfl
  | ⟨1, _⟩ => rfl

end Layout

/-! ## One entry of the layer, as a scalar expression

Entry (r, q) of e = lrelu((x + s)·Wg + bg) + lrelu((x ∘ s)·Wb + bb) depends on row r of x and of s, column q of the two
weight matrices and entry q of the two bias rows.  `entryS` is that expression of those scalars; the vector unit's
spelling of the layer on a block of rows and the host's spelling on the whole array both read, at an entry, as
`entryS` of the entries they are built from. -/

/-- The leaky rectifier on one value: z where the comparison z ≥ 0 holds, 0.01·z elsewhere (the constants are the
    two programs' own 32-bit words, read as the values they encode). -/
def lreluS (z : Ideal .f32) : Ideal .f32 :=
  Scalar.select (FloatOps.cmpf .oge z (Ideal.ofBits .f32 0x00000000#32)) z (Ideal.ofBits .f32 0x3C23D70A#32 * z)

/-- One entry of the new embedding, from a row of x and of s (k entries each), a column of each weight matrix and an
    entry of each bias row. -/
def entryS {k : Nat} (xr sr wg wb : Fin k → Ideal .f32) (cg cb : Ideal .f32) : Ideal .f32 :=
  lreluS ((∑ c : Fin k, (xr c + sr c) * wg c) + cg) + lreluS ((∑ c : Fin k, (xr c * sr c) * wb c) + cb)

section Entry
variable {m k n : Nat}

/-- The vector unit's pre-activation A·W + b (operands passed through the format change that is the identity on exact
    values, the product taken into a zero accumulator, the bias row copied down the rows), at entry (p, q). -/
theorem kernel_pre_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩) (h16 : FTy.bits .bf16 < FTy.bits .f32)
    (A : FVec Ideal ⟨2, ![m, k]⟩ .f32) (W : FVec Ideal ⟨2, ![k, n]⟩ .f32) (b : FVec Ideal ⟨2, ![1, n]⟩ .f32)
    (p : Fin m) (q : Fin n) :
    (addf (matmul (⟨[1], [0], [0], [1], [], [], w⟩ : DotDims ⟨2, ![m, k]⟩ ⟨2, ![k, n]⟩ ⟨2, ![m, n]⟩) none
          (truncf .bf16 A h16) (truncf .bf16 W h16) (constant (F := Ideal) ⟨2, ![m, n]⟩ .f32 0x00000000#32))
        (broadcastTo ⟨2, ![m, n]⟩ b hb)) (ix2 p q)
      = (∑ c : Fin k, A (ix2 p c) * W (ix2 c q)) + b (ix2 (0 : Fin 1) q) := by
  show _ + _ = _
  refine congrArg₂ (· + ·) ?_ ?_
  · exact matmul_zero_rowcol_apply w none (truncf .bf16 A h16) (truncf .bf16 W h16) p q
  · exact broadcastTo_1b_ab_apply b hb p q

/-- The host's pre-activation A·W + b (a dot_general, the bias row broadcast down the rows), at entry (r, q). -/
theorem host_pre_apply (w : DotDims.WF ⟨2, ![m, k]⟩ ⟨2, ![k, n]⟩ ⟨2, ![m, n]⟩ [1] [0] [0] [1] [] [])
    (hb : (⟨2, ![1, n]⟩ : Shape).BroadcastsInDim ⟨2, ![m, n]⟩ (![0, 1] : Fin 2 → Fin 2))
    (A : FVec Ideal ⟨2, ![m, k]⟩ .f32) (W : FVec Ideal ⟨2, ![k, n]⟩ .f32) (b : FVec Ideal ⟨2, ![1, n]⟩ .f32)
    (r : Fin m) (q : Fin n) :
    (addf (Host.dotGeneral (⟨[1], [0], [0], [1], [], [], w⟩ : DotDims ⟨2, ![m, k]⟩ ⟨2, ![k, n]⟩ ⟨2, ![m, n]⟩) none A W)
        (broadcastInDim ⟨2, ![m, n]⟩ (![0, 1] : Fin 2 → Fin 2) hb b)) (ix2 r q)
      = (∑ c : Fin k, A (ix2 r c) * W (ix2 c q)) + b (ix2 (0 : Fin 1) q) := by
  show _ + _ = _
  refine congrArg₂ (· + ·) ?_ ?_
  · exact dotGeneral_rowcol_apply w none A W r q
  · exact broadcastInDim_row_apply b hb r q

/-- The vector unit's leaky rectifier (a comparison with the splat of 0, a select between z and the splat of 0.01
    times z) at an index is `lreluS` of the entry. -/
theorem kernel_lrelu_apply {s : Shape} (z : FVec Ideal s .f32) (i : s.Idx) :
    select (cmpf .oge z (broadcast s (Scalar.ofBits (F := Ideal) .f32 0x00000000#32))) z
        (mulf (broadcast s (Scalar.ofBits (F := Ideal) .f32 0x3C23D70A#32)) z) i = lreluS (z i) := rfl

/-- The host's leaky rectifier (the constants broadcast from rank zero) at an index is `lreluS` of the entry. -/
theorem host_lrelu_apply {s : Shape} (h0 : (⟨0, ![]⟩ : Shape).BroadcastsInDim s (![] : Fin 0 → Fin s.rank))
    (z : FVec Ideal s .f32) (i : s.Idx) :
    select (cmpf .oge z (broadcastInDim s (![] : Fin 0 → Fin s.rank) h0 (constant (F := Ideal) ⟨0, ![]⟩ .f32 0x00000000#32))) z
        (mulf (broadcastInDim s (![] : Fin 0 → Fin s.rank) h0 (constant (F := Ideal) ⟨0, ![]⟩ .f32 0x3C23D70A#32)) z) i
      = lreluS (z i) := rfl

end Entry

/-! ## A row's clamped norm, and the division by it

The norm of row r of an m×n matrix e, clamped below: max(sqrt(Σ_c e[r, c]²), 1e-12), kept as an m×1 column; then every
entry of the row divided by it.  `normS` is the clamped norm as an expression of the row's entries. -/

/-- The clamped norm of one row: the larger of the square root of the sum of the squares and the constant 1e-12 (the
    two programs' own 32-bit word, read as the value it encodes). -/
def normS {n : Nat} (e : Fin n → Ideal .f32) : Ideal .f32 :=
  max (Ideal.sqrt (∑ c : Fin n, e c * e c)) (Ideal.ofBits .f32 0x2B8CBCCC#32)

section Norm
variable {m n : Nat}

/-- The vector unit's column of clamped row norms (squares summed along the lanes from the neutral accumulator, the
    vector of sums stood up as a column, the square root, the maximum with the splat of 1e-12), at (p, u): the
    clamped norm of row p. -/
theorem kernel_norm_apply (hr : (⟨2, ![m, n]⟩ : Shape).Reduces [(1 : Fin 2)] ⟨1, ![m]⟩) (hφ : FKind.Formats .f32)
    (hacc : (0x00000000#32 : BitVec (FTy.bits .f32)) = FKind.add.neutral .f32 hφ)
    (hc : (⟨1, ![m]⟩ : Shape).ShapeCasts ⟨2, ![m, 1]⟩) (e : FVec Ideal ⟨2, ![m, n]⟩ .f32) (p : Fin m) (u : Fin 1) :
    maximumf (sqrt (shapeCast ⟨2, ![m, 1]⟩ (multiReduction .add [(1 : Fin 2)] ⟨1, ![m]⟩ (mulf e e) 0x00000000#32 hr hφ hacc) hc))
        (broadcast ⟨2, ![m, 1]⟩ (Scalar.ofBits (F := Ideal) .f32 0x2B8CBCCC#32)) (ix2 p u)
      = normS (fun c : Fin n => e (ix2 p c)) := by
  show max (Ideal.sqrt (shapeCast ⟨2, ![m, 1]⟩ _ hc (ix2 p u))) (Ideal.ofBits .f32 0x2B8CBCCC#32) = _
  rw [shapeCast_a_a1_apply, multiReduction_add_lanes_apply]
  rfl

/-- The host's column of clamped row norms (squares summed over axis 1 from the initial value 0, the vector of sums
    broadcast to a column, the square root, the maximum with the broadcast constant 1e-12), at (r, u): the clamped
    norm of row r. -/
theorem host_norm_apply (hr : (⟨2, ![m, n]⟩ : Shape).ReducesTo [(1 : Fin 2)] ⟨1, ![m]⟩) (hu : 0 < (⟨0, ![]⟩ : Shape).numel)
    (hb1 : (⟨1, ![m]⟩ : Shape).BroadcastsInDim ⟨2, ![m, 1]⟩ (![0] : Fin 1 → Fin 2))
    (hb0 : (⟨0, ![]⟩ : Shape).BroadcastsInDim ⟨2, ![m, 1]⟩ (![] : Fin 0 → Fin 2))
    (e : FVec Ideal ⟨2, ![m, n]⟩ .f32) (r : Fin m) (u : Fin 1) :
    maximumf (Host.sqrt (broadcastInDim ⟨2, ![m, 1]⟩ (![0] : Fin 1 → Fin 2) hb1
          (Host.reduceAdd (mulf e e) (constant (F := Ideal) ⟨0, ![]⟩ .f32 0x00000000#32) hr hu)))
        (broadcastInDim ⟨2, ![m, 1]⟩ (![] : Fin 0 → Fin 2) hb0 (constant (F := Ideal) ⟨0, ![]⟩ .f32 0x2B8CBCCC#32)) (ix2 r u)
      = normS (fun c : Fin n => e (ix2 r c)) := by
  show max (Ideal.sqrt (broadcastInDim (s := ⟨1, ![m]⟩) ⟨2, ![m, 1]⟩ (![0] : Fin 1 → Fin 2) hb1 _ (ix2 r u))) (Ideal.ofBits .f32 0x2B8CBCCC#32) = _
  rw [broadcastInDim_a_a1_apply, hostReduceAdd_lanes_apply]
  show max (Ideal.sqrt (Ideal.ofBits .f32 0x00000000#32 + _)) _ = _
  rw [Ideal.ofBits_zero_f32, zero_add]
  rfl

/-- The vector unit's division of a matrix by a column copied along the lanes, at (p, q): entry (p, q) over the
    column's entry p. -/
theorem kernel_div_apply (hb : (⟨2, ![m, 1]⟩ : Shape).Broadcasts ⟨2, ![m, n]⟩) (e : FVec Ideal ⟨2, ![m, n]⟩ .f32)
    (nv : FVec Ideal ⟨2, ![m, 1]⟩ .f32) (p : Fin m) (q : Fin n) :
    divf e (broadcastTo ⟨2, ![m, n]⟩ nv hb) (ix2 p q) = Ideal.div (e (ix2 p q)) (nv (ix2 p (0 : Fin 1))) := by
  show Ideal.div (e (ix2 p q)) (broadcastTo ⟨2, ![m, n]⟩ nv hb (ix2 p q)) = _
  rw [broadcastTo_col_apply]

/-- The host's division of a matrix by a column broadcast along the columns, at (r, q): entry (r, q) over the column's
    entry r. -/
theorem host_div_apply (hb : (⟨2, ![m, 1]⟩ : Shape).BroadcastsInDim ⟨2, ![m, n]⟩ (![0, 1] : Fin 2 → Fin 2))
    (e : FVec Ideal ⟨2, ![m, n]⟩ .f32) (nv : FVec Ideal ⟨2, ![m, 1]⟩ .f32) (r : Fin m) (q : Fin n) :
    Host.divf e (broadcastInDim ⟨2, ![m, n]⟩ (![0, 1] : Fin 2 → Fin 2) hb nv) (ix2 r q)
      = Ideal.div (e (ix2 r q)) (nv (ix2 r (0 : Fin 1))) := by
  show Ideal.div (e (ix2 r q)) (broadcastInDim ⟨2, ![m, n]⟩ (![0, 1] : Fin 2 → Fin 2) hb nv (ix2 r q)) = _
  rw [broadcastInDim_col_apply]

end Norm

end Cert.Core

end
-- ==== Proof.Core0.lean ====
/-
  Layer 0: 64 features in, 64 out.  The kernel's block computation is the reference's whole-array computation restricted
  to the block's rows.

  The kernel works on 5000 rows at a time; block t holds rows 5000·t … 5000·t + 4999.  Read at an entry (p, q) of the
  block, the kernel's e is `entryS` of row p of the two input blocks, column q of the two weight matrices and entry q of
  the two bias rows; read at entry (5000·t + p, q), the reference's e is `entryS` of row 5000·t + p of the two whole
  inputs and the same columns and bias entries.  Row p of block t is row 5000·t + p of the array, so the two agree
  (`core_e0`).  The clamped row norm is `normS` of a row of e on both sides and the normalised output is an entry over
  its row's norm on both sides, so they agree once e does (`core_n0`).
-/
import proofs.«156520_j49993419325916_1_alg».proof.Proof.Gen.KernelIdeal.Skeleton
import proofs.«156520_j49993419325916_1_alg».proof.Proof.Gen.ReferenceIdeal
import proofs.«156520_j49993419325916_1_alg».proof.Proof.Ref.Terms
import proofs.«156520_j49993419325916_1_alg».proof.Proof.Rows
import proofs.«156520_j49993419325916_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Core

open Idealize.ShloMosaic Idealize.ShloMosaic.ValueIdx
open Cert.Rows Cert.ReferenceIdeal.Terms Cert.KernelIdeal.Gen

/-! ## Layer 0: 64 features in, 64 out -/

/-- The kernel's block of e, at entry (p, q) of the block. -/
theorem k0_pay2_apply (xb sb : FVec Ideal Cert.KernelIdeal.S5000x64 .f32) (Wg Wb : FVec Ideal Cert.KernelIdeal.S64x64 .f32)
    (bg bb : FVec Ideal Cert.KernelIdeal.S1x64 .f32) (p : Fin 5000) (q : Fin 64) :
    k0_pay2 (F := Ideal) xb sb Wg Wb bg bb (ix2 p q)
      = entryS (fun c : Fin 64 => xb (ix2 p c)) (fun c : Fin 64 => sb (ix2 p c)) (fun c : Fin 64 => Wg (ix2 c q))
          (fun c : Fin 64 => Wb (ix2 c q)) (bg (ix2 (0 : Fin 1) q)) (bb (ix2 (0 : Fin 1) q)) := by
  unfold k0_pay2
  rw [shapeCast_self xb, shapeCast_self sb]
  exact congrArg₂ (fun u v => lreluS u + lreluS v)
    (kernel_pre_apply Cert.KernelIdeal.Facts₀.dot_S5000x64_S64x64_S5000x64_1_0_0_1_n_n_wf
      Cert.KernelIdeal.Facts₀.broadcasts_S1x64_S5000x64 Cert.KernelIdeal.Facts₀.bitsLt_bf16_f32 (addf xb sb) Wg bg p q)
    (kernel_pre_apply Cert.KernelIdeal.Facts₀.dot_S5000x64_S64x64_S5000x64_1_0_0_1_n_n_wf
      Cert.KernelIdeal.Facts₀.broadcasts_S1x64_S5000x64 Cert.KernelIdeal.Facts₀.bitsLt_bf16_f32 (mulf xb sb) Wb bb p q)

/-- The reference's e, at entry (r, q) of the whole array. -/
theorem layerE0_apply (x s : FVec Ideal Cert.ReferenceIdeal.S200000x64 .f32) (Wg Wb : FVec Ideal Cert.ReferenceIdeal.S64x64 .f32)
    (bg bb : FVec Ideal Cert.ReferenceIdeal.S1x64 .f32) (r : Fin 200000) (q : Fin 64) :
    layerE0 (F := Ideal) x s Wg bg Wb bb (ix2 r q)
      = entryS (fun c : Fin 64 => x (ix2 r c)) (fun c : Fin 64 => s (ix2 r c)) (fun c : Fin 64 => Wg (ix2 c q))
          (fun c : Fin 64 => Wb (ix2 c q)) (bg (ix2 (0 : Fin 1) q)) (bb (ix2 (0 : Fin 1) q)) := by
  unfold layerE0 lrelu0
  exact congrArg₂ (fun u v => lreluS u + lreluS v)
    (host_pre_apply Cert.ReferenceIdeal.Facts₀.dot_S200000x64_S64x64_S200000x64_1_0_0_1_n_n_wf
      Cert.ReferenceIdeal.Facts₀.bcast_S1x64_S200000x64_0_1 (addf x s) Wg bg r q)
    (host_pre_apply Cert.ReferenceIdeal.Facts₀.dot_S200000x64_S64x64_S200000x64_1_0_0_1_n_n_wf
      Cert.ReferenceIdeal.Facts₀.bcast_S1x64_S200000x64_0_1 (mulf x s) Wb bb r q)

/-- Block t of the kernel's e is rows 5000·t … 5000·t + 4999 of the reference's e: entry by entry both are the same
    expression of row 5000·t + p of x and of s, column q of the weights and entry q of the biases. -/
theorem core_e0 (x s : FVec Ideal Cert.ReferenceIdeal.S200000x64 .f32) (Wg Wb : FVec Ideal Cert.ReferenceIdeal.S64x64 .f32) (bg bb : FVec Ideal Cert.ReferenceIdeal.S1x64 .f32) (t : Fin 40) :
    k0_pay2 (F := Ideal) (rows64 t x) (rows64 t s) Wg Wb bg bb = rows64 t (layerE0 (F := Ideal) x s Wg bg Wb bb) := by
  funext y
  obtain ⟨p, q, rfl⟩ : ∃ (p : Fin 5000) (q : Fin 64), y = ix2 p q := ⟨_, _, eq_ix2 y⟩
  rw [rows64_apply, k0_pay2_apply, layerE0_apply]
  rfl

/-- The kernel's column of clamped row norms, at (p, u) of the block: the clamped norm of row p of its block of e. -/
theorem k0_pay3_apply (xb sb : FVec Ideal Cert.KernelIdeal.S5000x64 .f32) (Wg Wb : FVec Ideal Cert.KernelIdeal.S64x64 .f32)
    (bg bb : FVec Ideal Cert.KernelIdeal.S1x64 .f32) (p : Fin 5000) (u : Fin 1) :
    k0_pay3 (F := Ideal) xb sb Wg Wb bg bb (ix2 p u)
      = normS (fun c : Fin 64 => k0_pay2 (F := Ideal) xb sb Wg Wb bg bb (ix2 p c)) := by
  unfold k0_pay3
  exact kernel_norm_apply Cert.KernelIdeal.Facts₀.reduces_S5000x64_S5000 (.inl rfl) rfl
    Cert.KernelIdeal.Facts₀.shapeCasts_S5000_S5000x1 (k0_pay2 (F := Ideal) xb sb Wg Wb bg bb) p u

/-- The reference's column of clamped row norms, at (r, u): the clamped norm of row r. -/
theorem rowNorm0_apply (e : FVec Ideal Cert.ReferenceIdeal.S200000x64 .f32) (r : Fin 200000) (u : Fin 1) :
    rowNorm0 (F := Ideal) e (ix2 r u) = normS (fun c : Fin 64 => e (ix2 r c)) := by
  unfold rowNorm0
  exact host_norm_apply Cert.ReferenceIdeal.Facts₀.reducesTo_S200000x64_S200000_d1 Cert.ReferenceIdeal.Facts₀.h_S_
    Cert.ReferenceIdeal.Facts₀.bcast_S200000_S200000x1_0 Cert.ReferenceIdeal.Facts₀.bcast_S_S200000x1 e r u

/-- The kernel's normalised block, at (p, q): the entry over its row's clamped norm. -/
theorem k0_pay1_apply (v30 : FVec Ideal Cert.KernelIdeal.S5000x64 .f32) (v36 : FVec Ideal Cert.KernelIdeal.S5000x1 .f32)
    (p : Fin 5000) (q : Fin 64) :
    k0_pay1 (F := Ideal) v30 v36 (ix2 p q) = Ideal.div (v30 (ix2 p q)) (v36 (ix2 p (0 : Fin 1))) := by
  unfold k0_pay1
  exact kernel_div_apply Cert.KernelIdeal.Facts₀.broadcasts_S5000x1_S5000x64 v30 v36 p q

/-- The reference's normalised array, at (r, q): the entry over its row's clamped norm. -/
theorem normed0_apply (e : FVec Ideal Cert.ReferenceIdeal.S200000x64 .f32) (r : Fin 200000) (q : Fin 64) :
    normed0 (F := Ideal) e (ix2 r q) = Ideal.div (e (ix2 r q)) (rowNorm0 (F := Ideal) e (ix2 r (0 : Fin 1))) := by
  unfold normed0
  exact host_div_apply Cert.ReferenceIdeal.Facts₀.bcast_S200000x1_S200000x64_0_1 e (rowNorm0 (F := Ideal) e) r q

/-- Block t of the kernel's normalised output is rows 5000·t … 5000·t + 4999 of the reference's normalised e: at
    (p, q) both are the entry of e over the clamped norm of its row, and the blocks of e agree. -/
theorem core_n0 (x s : FVec Ideal Cert.ReferenceIdeal.S200000x64 .f32) (Wg Wb : FVec Ideal Cert.ReferenceIdeal.S64x64 .f32) (bg bb : FVec Ideal Cert.ReferenceIdeal.S1x64 .f32) (t : Fin 40) :
    k0_pay1 (F := Ideal) (k0_pay2 (F := Ideal) (rows64 t x) (rows64 t s) Wg Wb bg bb) (k0_pay3 (F := Ideal) (rows64 t x) (rows64 t s) Wg Wb bg bb)
      = rows64 t (normed0 (F := Ideal) (layerE0 (F := Ideal) x s Wg bg Wb bb)) := by
  funext y
  obtain ⟨p, q, rfl⟩ : ∃ (p : Fin 5000) (q : Fin 64), y = ix2 p q := ⟨_, _, eq_ix2 y⟩
  rw [rows64_apply, k0_pay1_apply, normed0_apply, k0_pay3_apply, rowNorm0_apply, core_e0]
  rfl

end Cert.Core

end
-- ==== Proof.Core1.lean ====
/-
  Layer 1: 64 features in, 32 out.  The kernel's block computation is the reference's whole-array computation restricted
  to the block's rows.

  The kernel works on 5000 rows at a time; block t holds rows 5000·t … 5000·t + 4999.  Read at an entry (p, q) of the
  block, the kernel's e is `entryS` of row p of the two input blocks, column q of the two weight matrices and entry q of
  the two bias rows; read at entry (5000·t + p, q), the reference's e is `entryS` of row 5000·t + p of the two whole
  inputs and the same columns and bias entries.  Row p of block t is row 5000·t + p of the array, so the two agree
  (`core_e1`).  The clamped row norm is `normS` of a row of e on both sides and the normalised output is an entry over
  its row's norm on both sides, so they agree once e does (`core_n1`).
-/
import proofs.«156520_j49993419325916_1_alg».proof.Proof.Gen.KernelIdeal.Skeleton
import proofs.«156520_j49993419325916_1_alg».proof.Proof.Gen.ReferenceIdeal
import proofs.«156520_j49993419325916_1_alg».proof.Proof.Ref.Terms
import proofs.«156520_j49993419325916_1_alg».proof.Proof.Rows
import proofs.«156520_j49993419325916_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Core

open Idealize.ShloMosaic Idealize.ShloMosaic.ValueIdx
open Cert.Rows Cert.ReferenceIdeal.Terms Cert.KernelIdeal.Gen

/-! ## Layer 1: 64 features in, 32 out -/

/-- The kernel's block of e, at entry (p, q) of the block. -/
theorem k1_pay2_apply (xb sb : FVec Ideal Cert.KernelIdeal.S5000x64 .f32) (Wg Wb : FVec Ideal Cert.KernelIdeal.S64x32 .f32)
    (bg bb : FVec Ideal Cert.KernelIdeal.S1x32 .f32) (p : Fin 5000) (q : Fin 32) :
    k1_pay2 (F := Ideal) xb sb Wg Wb bg bb (ix2 p q)
      = entryS (fun c : Fin 64 => xb (ix2 p c)) (fun c : Fin 64 => sb (ix2 p c)) (fun c : Fin 64 => Wg (ix2 c q))
          (fun c : Fin 64 => Wb (ix2 c q)) (bg (ix2 (0 : Fin 1) q)) (bb (ix2 (0 : Fin 1) q)) := by
  unfold k1_pay2
  rw [shapeCast_self xb, shapeCast_self sb]
  exact congrArg₂ (fun u v => lreluS u + lreluS v)
    (kernel_pre_apply Cert.KernelIdeal.Facts₀.dot_S5000x64_S64x32_S5000x32_1_0_0_1_n_n_wf
      Cert.KernelIdeal.Facts₀.broadcasts_S1x32_S5000x32 Cert.KernelIdeal.Facts₀.bitsLt_bf16_f32 (addf xb sb) Wg bg p q)
    (kernel_pre_apply Cert.KernelIdeal.Facts₀.dot_S5000x64_S64x32_S5000x32_1_0_0_1_n_n_wf
      Cert.KernelIdeal.Facts₀.broadcasts_S1x32_S5000x32 Cert.KernelIdeal.Facts₀.bitsLt_bf16_f32 (mulf xb sb) Wb bb p q)

/-- The reference's e, at entry (r, q) of the whole array. -/
theorem layerE1_apply (x s : FVec Ideal Cert.ReferenceIdeal.S200000x64 .f32) (Wg Wb : FVec Ideal Cert.ReferenceIdeal.S64x32 .f32)
    (bg bb : FVec Ideal Cert.ReferenceIdeal.S1x32 .f32) (r : Fin 200000) (q : Fin 32) :
    layerE1 (F := Ideal) x s Wg bg Wb bb (ix2 r q)
      = entryS (fun c : Fin 64 => x (ix2 r c)) (fun c : Fin 64 => s (ix2 r c)) (fun c : Fin 64 => Wg (ix2 c q))
          (fun c : Fin 64 => Wb (ix2 c q)) (bg (ix2 (0 : Fin 1) q)) (bb (ix2 (0 : Fin 1) q)) := by
  unfold layerE1 lrelu1
  exact congrArg₂ (fun u v => lreluS u + lreluS v)
    (host_pre_apply Cert.ReferenceIdeal.Facts₀.dot_S200000x64_S64x32_S200000x32_1_0_0_1_n_n_wf
      Cert.ReferenceIdeal.Facts₀.bcast_S1x32_S200000x32_0_1 (addf x s) Wg bg r q)
    (host_pre_apply Cert.ReferenceIdeal.Facts₀.dot_S200000x64_S64x32_S200000x32_1_0_0_1_n_n_wf
      Cert.ReferenceIdeal.Facts₀.bcast_S1x32_S200000x32_0_1 (mulf x s) Wb bb r q)

/-- Block t of the kernel's e is rows 5000·t … 5000·t + 4999 of the reference's e: entry by entry both are the same
    expression of row 5000·t + p of x and of s, column q of the weights and entry q of the biases. -/
theorem core_e1 (x s : FVec Ideal Cert.ReferenceIdeal.S200000x64 .f32) (Wg Wb : FVec Ideal Cert.ReferenceIdeal.S64x32 .f32) (bg bb : FVec Ideal Cert.ReferenceIdeal.S1x32 .f32) (t : Fin 40) :
    k1_pay2 (F := Ideal) (rows64 t x) (rows64 t s) Wg Wb bg bb = rows32 t (layerE1 (F := Ideal) x s Wg bg Wb bb) := by
  funext y
  obtain ⟨p, q, rfl⟩ : ∃ (p : Fin 5000) (q : Fin 32), y = ix2 p q := ⟨_, _, eq_ix2 y⟩
  rw [rows32_apply, k1_pay2_apply, layerE1_apply]
  rfl

/-- The kernel's column of clamped row norms, at (p, u) of the block: the clamped norm of row p of its block of e. -/
theorem k1_pay3_apply (xb sb : FVec Ideal Cert.KernelIdeal.S5000x64 .f32) (Wg Wb : FVec Ideal Cert.KernelIdeal.S64x32 .f32)
    (bg bb : FVec Ideal Cert.KernelIdeal.S1x32 .f32) (p : Fin 5000) (u : Fin 1) :
    k1_pay3 (F := Ideal) xb sb Wg Wb bg bb (ix2 p u)
      = normS (fun c : Fin 32 => k1_pay2 (F := Ideal) xb sb Wg Wb bg bb (ix2 p c)) := by
  unfold k1_pay3
  exact kernel_norm_apply Cert.KernelIdeal.Facts₀.reduces_S5000x32_S5000 (.inl rfl) rfl
    Cert.KernelIdeal.Facts₀.shapeCasts_S5000_S5000x1 (k1_pay2 (F := Ideal) xb sb Wg Wb bg bb) p u

/-- The reference's column of clamped row norms, at (r, u): the clamped norm of row r. -/
theorem rowNorm1_apply (e : FVec Ideal Cert.ReferenceIdeal.S200000x32 .f32) (r : Fin 200000) (u : Fin 1) :
    rowNorm1 (F := Ideal) e (ix2 r u) = normS (fun c : Fin 32 => e (ix2 r c)) := by
  unfold rowNorm1
  exact host_norm_apply Cert.ReferenceIdeal.Facts₀.reducesTo_S200000x32_S200000_d1 Cert.ReferenceIdeal.Facts₀.h_S_
    Cert.ReferenceIdeal.Facts₀.bcast_S200000_S200000x1_0 Cert.ReferenceIdeal.Facts₀.bcast_S_S200000x1 e r u

/-- The kernel's normalised block, at (p, q): the entry over its row's clamped norm. -/
theorem k1_pay1_apply (v30 : FVec Ideal Cert.KernelIdeal.S5000x32 .f32) (v36 : FVec Ideal Cert.KernelIdeal.S5000x1 .f32)
    (p : Fin 5000) (q : Fin 32) :
    k1_pay1 (F := Ideal) v30 v36 (ix2 p q) = Ideal.div (v30 (ix2 p q)) (v36 (ix2 p (0 : Fin 1))) := by
  unfold k1_pay1
  exact kernel_div_apply Cert.KernelIdeal.Facts₀.broadcasts_S5000x1_S5000x32 v30 v36 p q

/-- The reference's normalised array, at (r, q): the entry over its row's clamped norm. -/
theorem normed1_apply (e : FVec Ideal Cert.ReferenceIdeal.S200000x32 .f32) (r : Fin 200000) (q : Fin 32) :
    normed1 (F := Ideal) e (ix2 r q) = Ideal.div (e (ix2 r q)) (rowNorm1 (F := Ideal) e (ix2 r (0 : Fin 1))) := by
  unfold normed1
  exact host_div_apply Cert.ReferenceIdeal.Facts₀.bcast_S200000x1_S200000x32_0_1 e (rowNorm1 (F := Ideal) e) r q

/-- Block t of the kernel's normalised output is rows 5000·t … 5000·t + 4999 of the reference's normalised e: at
    (p, q) both are the entry of e over the clamped norm of its row, and the blocks of e agree. -/
theorem core_n1 (x s : FVec Ideal Cert.ReferenceIdeal.S200000x64 .f32) (Wg Wb : FVec Ideal Cert.ReferenceIdeal.S64x32 .f32) (bg bb : FVec Ideal Cert.ReferenceIdeal.S1x32 .f32) (t : Fin 40) :
    k1_pay1 (F := Ideal) (k1_pay2 (F := Ideal) (rows64 t x) (rows64 t s) Wg Wb bg bb) (k1_pay3 (F := Ideal) (rows64 t x) (rows64 t s) Wg Wb bg bb)
      = rows32 t (normed1 (F := Ideal) (layerE1 (F := Ideal) x s Wg bg Wb bb)) := by
  funext y
  obtain ⟨p, q, rfl⟩ : ∃ (p : Fin 5000) (q : Fin 32), y = ix2 p q := ⟨_, _, eq_ix2 y⟩
  rw [rows32_apply, k1_pay1_apply, normed1_apply, k1_pay3_apply, rowNorm1_apply, core_e1]
  rfl

end Cert.Core

end
-- ==== Proof.Core2.lean ====
/-
  Layer 2: 32 features in, 16 out.  The kernel's block computation is the reference's whole-array computation restricted
  to the block's rows.

  The kernel works on 5000 rows at a time; block t holds rows 5000·t … 5000·t + 4999.  Read at an entry (p, q) of the
  block, the kernel's e is `entryS` of row p of the two input blocks, column q of the two weight matrices and entry q of
  the two bias rows; read at entry (5000·t + p, q), the reference's e is `entryS` of row 5000·t + p of the two whole
  inputs and the same columns and bias entries.  Row p of block t is row 5000·t + p of the array, so the two agree
  (`core_e2`).  The clamped row norm is `normS` of a row of e on both sides and the normalised output is an entry over
  its row's norm on both sides, so they agree once e does (`core_n2`).
-/
import proofs.«156520_j49993419325916_1_alg».proof.Proof.Gen.KernelIdeal.Skeleton
import proofs.«156520_j49993419325916_1_alg».proof.Proof.Gen.ReferenceIdeal
import proofs.«156520_j49993419325916_1_alg».proof.Proof.Ref.Terms
import proofs.«156520_j49993419325916_1_alg».proof.Proof.Rows
import proofs.«156520_j49993419325916_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Core

open Idealize.ShloMosaic Idealize.ShloMosaic.ValueIdx
open Cert.Rows Cert.ReferenceIdeal.Terms Cert.KernelIdeal.Gen

/-! ## Layer 2: 32 features in, 16 out -/

/-- The kernel's block of e, at entry (p, q) of the block. -/
theorem k2_pay2_apply (xb sb : FVec Ideal Cert.KernelIdeal.S5000x32 .f32) (Wg Wb : FVec Ideal Cert.KernelIdeal.S32x16 .f32)
    (bg bb : FVec Ideal Cert.KernelIdeal.S1x16 .f32) (p : Fin 5000) (q : Fin 16) :
    k2_pay2 (F := Ideal) xb sb Wg Wb bg bb (ix2 p q)
      = entryS (fun c : Fin 32 => xb (ix2 p c)) (fun c : Fin 32 => sb (ix2 p c)) (fun c : Fin 32 => Wg (ix2 c q))
          (fun c : Fin 32 => Wb (ix2 c q)) (bg (ix2 (0 : Fin 1) q)) (bb (ix2 (0 : Fin 1) q)) := by
  unfold k2_pay2
  rw [shapeCast_self xb, shapeCast_self sb]
  exact congrArg₂ (fun u v => lreluS u + lreluS v)
    (kernel_pre_apply Cert.KernelIdeal.Facts₀.dot_S5000x32_S32x16_S5000x16_1_0_0_1_n_n_wf
      Cert.KernelIdeal.Facts₀.broadcasts_S1x16_S5000x16 Cert.KernelIdeal.Facts₀.bitsLt_bf16_f32 (addf xb sb) Wg bg p q)
    (kernel_pre_apply Cert.KernelIdeal.Facts₀.dot_S5000x32_S32x16_S5000x16_1_0_0_1_n_n_wf
      Cert.KernelIdeal.Facts₀.broadcasts_S1x16_S5000x16 Cert.KernelIdeal.Facts₀.bitsLt_bf16_f32 (mulf xb sb) Wb bb p q)

/-- The reference's e, at entry (r, q) of the whole array. -/
theorem layerE2_apply (x s : FVec Ideal Cert.ReferenceIdeal.S200000x32 .f32) (Wg Wb : FVec Ideal Cert.ReferenceIdeal.S32x16 .f32)
    (bg bb : FVec Ideal Cert.ReferenceIdeal.S1x16 .f32) (r : Fin 200000) (q : Fin 16) :
    layerE2 (F := Ideal) x s Wg bg Wb bb (ix2 r q)
      = entryS (fun c : Fin 32 => x (ix2 r c)) (fun c : Fin 32 => s (ix2 r c)) (fun c : Fin 32 => Wg (ix2 c q))
          (fun c : Fin 32 => Wb (ix2 c q)) (bg (ix2 (0 : Fin 1) q)) (bb (ix2 (0 : Fin 1) q)) := by
  unfold layerE2 lrelu2
  exact congrArg₂ (fun u v => lreluS u + lreluS v)
    (host_pre_apply Cert.ReferenceIdeal.Facts₀.dot_S200000x32_S32x16_S200000x16_1_0_0_1_n_n_wf
      Cert.ReferenceIdeal.Facts₀.bcast_S1x16_S200000x16_0_1 (addf x s) Wg bg r q)
    (host_pre_apply Cert.ReferenceIdeal.Facts₀.dot_S200000x32_S32x16_S200000x16_1_0_0_1_n_n_wf
      Cert.ReferenceIdeal.Facts₀.bcast_S1x16_S200000x16_0_1 (mulf x s) Wb bb r q)

/-- Block t of the kernel's e is rows 5000·t … 5000·t + 4999 of the reference's e: entry by entry both are the same
    expression of row 5000·t + p of x and of s, column q of the weights and entry q of the biases. -/
theorem core_e2 (x s : FVec Ideal Cert.ReferenceIdeal.S200000x32 .f32) (Wg Wb : FVec Ideal Cert.ReferenceIdeal.S32x16 .f32) (bg bb : FVec Ideal Cert.ReferenceIdeal.S1x16 .f32) (t : Fin 40) :
    k2_pay2 (F := Ideal) (rows32 t x) (rows32 t s) Wg Wb bg bb = rows16 t (layerE2 (F := Ideal) x s Wg bg Wb bb) := by
  funext y
  obtain ⟨p, q, rfl⟩ : ∃ (p : Fin 5000) (q : Fin 16), y = ix2 p q := ⟨_, _, eq_ix2 y⟩
  rw [rows16_apply, k2_pay2_apply, layerE2_apply]
  rfl

/-- The kernel's column of clamped row norms, at (p, u) of the block: the clamped norm of row p of its block of e. -/
theorem k2_pay3_apply (xb sb : FVec Ideal Cert.KernelIdeal.S5000x32 .f32) (Wg Wb : FVec Ideal Cert.KernelIdeal.S32x16 .f32)
    (bg bb : FVec Ideal Cert.KernelIdeal.S1x16 .f32) (p : Fin 5000) (u : Fin 1) :
    k2_pay3 (F := Ideal) xb sb Wg Wb bg bb (ix2 p u)
      = normS (fun c : Fin 16 => k2_pay2 (F := Ideal) xb sb Wg Wb bg bb (ix2 p c)) := by
  unfold k2_pay3
  exact kernel_norm_apply Cert.KernelIdeal.Facts₀.reduces_S5000x16_S5000 (.inl rfl) rfl
    Cert.KernelIdeal.Facts₀.shapeCasts_S5000_S5000x1 (k2_pay2 (F := Ideal) xb sb Wg Wb bg bb) p u

/-- The reference's column of clamped row norms, at (r, u): the clamped norm of row r. -/
theorem rowNorm2_apply (e : FVec Ideal Cert.ReferenceIdeal.S200000x16 .f32) (r : Fin 200000) (u : Fin 1) :
    rowNorm2 (F := Ideal) e (ix2 r u) = normS (fun c : Fin 16 => e (ix2 r c)) := by
  unfold rowNorm2
  exact host_norm_apply Cert.ReferenceIdeal.Facts₀.reducesTo_S200000x16_S200000_d1 Cert.ReferenceIdeal.Facts₀.h_S_
    Cert.ReferenceIdeal.Facts₀.bcast_S200000_S200000x1_0 Cert.ReferenceIdeal.Facts₀.bcast_S_S200000x1 e r u

/-- The kernel's normalised block, at (p, q): the entry over its row's clamped norm. -/
theorem k2_pay1_apply (v30 : FVec Ideal Cert.KernelIdeal.S5000x16 .f32) (v36 : FVec Ideal Cert.KernelIdeal.S5000x1 .f32)
    (p : Fin 5000) (q : Fin 16) :
    k2_pay1 (F := Ideal) v30 v36 (ix2 p q) = Ideal.div (v30 (ix2 p q)) (v36 (ix2 p (0 : Fin 1))) := by
  unfold k2_pay1
  exact kernel_div_apply Cert.KernelIdeal.Facts₀.broadcasts_S5000x1_S5000x16 v30 v36 p q

/-- The reference's normalised array, at (r, q): the entry over its row's clamped norm. -/
theorem normed2_apply (e : FVec Ideal Cert.ReferenceIdeal.S200000x16 .f32) (r : Fin 200000) (q : Fin 16) :
    normed2 (F := Ideal) e (ix2 r q) = Ideal.div (e (ix2 r q)) (rowNorm2 (F := Ideal) e (ix2 r (0 : Fin 1))) := by
  unfold normed2
  exact host_div_apply Cert.ReferenceIdeal.Facts₀.bcast_S200000x1_S200000x16_0_1 e (rowNorm2 (F := Ideal) e) r q

/-- Block t of the kernel's normalised output is rows 5000·t … 5000·t + 4999 of the reference's normalised e: at
    (p, q) both are the entry of e over the clamped norm of its row, and the blocks of e agree. -/
theorem core_n2 (x s : FVec Ideal Cert.ReferenceIdeal.S200000x32 .f32) (Wg Wb : FVec Ideal Cert.ReferenceIdeal.S32x16 .f32) (bg bb : FVec Ideal Cert.ReferenceIdeal.S1x16 .f32) (t : Fin 40) :
    k2_pay1 (F := Ideal) (k2_pay2 (F := Ideal) (rows32 t x) (rows32 t s) Wg Wb bg bb) (k2_pay3 (F := Ideal) (rows32 t x) (rows32 t s) Wg Wb bg bb)
      = rows16 t (normed2 (F := Ideal) (layerE2 (F := Ideal) x s Wg bg Wb bb)) := by
  funext y
  obtain ⟨p, q, rfl⟩ : ∃ (p : Fin 5000) (q : Fin 16), y = ix2 p q := ⟨_, _, eq_ix2 y⟩
  rw [rows16_apply, k2_pay1_apply, normed2_apply, k2_pay3_apply, rowNorm2_apply, core_e2]
  rfl

end Cert.Core

end
-- ==== Proof.Ref.Run.lean ====
/- The reference program's @main as one list of its host operations, and its run read back.

   @main is printed in three consecutive windows and makes nine calls of module-local functions (three
   leaky-relu layers called twice each, each calling a select; three row norms). A call executes the callee's
   body on the operands, so the run of @main is the run of the straight line obtained by writing each callee's
   operations at its call site over that call's buffers. This module states that line (`ops`), proves @main
   equal to it (`main_eq`), and reads the run back through the fold of the operations' results (`run_fold`):
   every weakly fair execution terminates with each buffer at the fold over the launch contents. No operation
   writes an argument's buffer (each writes the buffer of the one value it defines, `written`), so the
   arguments are unchanged (`frame`). -/
import proofs.«156520_j49993419325916_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in execution order, each call's operations listed at the call site over that call's
    buffer record: a leaky-relu call is seven (the zero and its broadcast, the comparison, the slope and its
    broadcast, the product, the select of the callee it calls), a norm call five (the square, the zero, the
    row sum, its broadcast to a column, the square root). -/
abbrev ops : List (HloOp τ sig (Elt F)) :=
  [ StableHlo.binary main_arg6 main_arg7 main_v0 ((fun a b => concatenate S200000x64 0 [⟨S50000x64, a⟩, ⟨S150000x64, b⟩] concatenates_S50000x64_S150000x64_S200000x64_d0) : (⟨S50000x64, .f32⟩ : BufTy).Contents (Elt F) → (⟨S150000x64, .f32⟩ : BufTy).Contents (Elt F) → (⟨S200000x64, .f32⟩ : BufTy).Contents (Elt F)),
    StableHlo.unary main_arg5 main_v1 (broadcastInDim S2000000x1 ![0] bcast_S2000000_S2000000x1_0 : (⟨S2000000, .f32⟩ : BufTy).Contents (Elt F) → (⟨S2000000x1, .f32⟩ : BufTy).Contents (Elt F)),
    StableHlo.nullary main_c (constantI S_ 32 0#32),
    StableHlo.unary main_c main_v2 (broadcastInDim S2000000 ![] bcast_S_S2000000 : (⟨S_, .i32⟩ : BufTy).Contents (Elt F) → (⟨S2000000, .i32⟩ : BufTy).Contents (Elt F)),
    StableHlo.binary main_arg4 main_v2 main_v3 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 200000#32),
    StableHlo.unary main_c_0 main_v4 (broadcastInDim S2000000 ![] bcast_S_S2000000 : (⟨S_, .i32⟩ : BufTy).Contents (Elt F) → (⟨S2000000, .i32⟩ : BufTy).Contents (Elt F)),
    StableHlo.binary main_arg4 main_v4 main_v5 (addi : (⟨S2000000, .i32⟩ : BufTy).Contents (Elt F) → (⟨S2000000, .i32⟩ : BufTy).Contents (Elt F) → (⟨S2000000, .i32⟩ : BufTy).Contents (Elt F)),
    StableHlo.ternary main_v3 main_v5 main_arg4 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v6 main_v7 (broadcastInDim S2000000x1 ![0] bcast_S2000000_S2000000x1_0 : (⟨S2000000, .i32⟩ : BufTy).Contents (Elt F) → (⟨S2000000x1, .i32⟩ : BufTy).Contents (Elt F)),
    StableHlo.binary main_v0 main_v7 main_v8 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    StableHlo.unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v11 (broadcastInDim S200000x64 ![] bcast_S_S200000x64 : (⟨S_, .f32⟩ : BufTy).Contents (Elt F) → (⟨S200000x64, .f32⟩ : BufTy).Contents (Elt F)),
    StableHlo.unary main_arg3 main_v12 (broadcastInDim S2000000x1 ![0] bcast_S2000000_S2000000x1_0 : (⟨S2000000, .i32⟩ : BufTy).Contents (Elt F) → (⟨S2000000x1, .i32⟩ : BufTy).Contents (Elt F)),
    StableHlo.ternary main_v11 main_v12 main_v10 main_v13 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    StableHlo.binary main_v0 main_v13 main_v14 (addf : (⟨S200000x64, .f32⟩ : BufTy).Contents (Elt F) → (⟨S200000x64, .f32⟩ : BufTy).Contents (Elt F) → (⟨S200000x64, .f32⟩ : BufTy).Contents (Elt F)),
    StableHlo.binary main_v14 main_arg8 main_v15 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg9 main_v16 (broadcastInDim S200000x64 ![0, 1] bcast_S1x64_S200000x64_0_1 : (⟨S1x64, .f32⟩ : BufTy).Contents (Elt F) → (⟨S200000x64, .f32⟩ : BufTy).Contents (Elt F)),
    StableHlo.binary main_v15 main_v16 main_v17 (addf : (⟨S200000x64, .f32⟩ : BufTy).Contents (Elt F) → (⟨S200000x64, .f32⟩ : BufTy).Contents (Elt F) → (⟨S200000x64, .f32⟩ : BufTy).Contents (Elt F)),
    StableHlo.TRef.nullary main_call0.cst (constant S_ .f32 0x00000000#32),
    StableHlo.TRef.unary main_call0.cst main_call0.v0 (broadcastInDim S200000x64 ![] bcast_S_S200000x64),
    StableHlo.TRef.binary (.of main_v17 : StableHlo.TRef sig ⟨S200000x64, .f32⟩) main_call0.v0 main_call0.v1 (cmpf .oge),
    StableHlo.TRef.nullary main_call0.cst_0 (constant S_ .f32 0x3C23D70A#32),
    StableHlo.TRef.unary main_call0.cst_0 main_call0.v2 (broadcastInDim S200000x64 ![] bcast_S_S200000x64),
    StableHlo.TRef.binary main_call0.v2 (.of main_v17 : StableHlo.TRef sig ⟨S200000x64, .f32⟩) main_call0.v3 mulf,
    StableHlo.TRef.ternary main_call0.v1 (.of main_v17 : StableHlo.TRef sig ⟨S200000x64, .f32⟩) main_call0.v3 main_call0.call0.v0 select,
    StableHlo.binary main_v0 main_v13 main_v19 (mulf : (⟨S200000x64, .f32⟩ : BufTy).Contents (Elt F) → (⟨S200000x64, .f32⟩ : BufTy).Contents (Elt F) → (⟨S200000x64, .f32⟩ : BufTy).Contents (Elt F)),
    StableHlo.binary main_v19 main_arg10 main_v20 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg11 main_v21 (broadcastInDim S200000x64 ![0, 1] bcast_S1x64_S200000x64_0_1 : (⟨S1x64, .f32⟩ : BufTy).Contents (Elt F) → (⟨S200000x64, .f32⟩ : BufTy).Contents (Elt F)),
    StableHlo.binary main_v20 main_v21 main_v22 (addf : (⟨S200000x64, .f32⟩ : BufTy).Contents (Elt F) → (⟨S200000x64, .f32⟩ : BufTy).Contents (Elt F) → (⟨S200000x64, .f32⟩ : BufTy).Contents (Elt F)),
    StableHlo.TRef.nullary main_call1.cst (constant S_ .f32 0x00000000#32),
    StableHlo.TRef.unary main_call1.cst main_call1.v0 (broadcastInDim S200000x64 ![] bcast_S_S200000x64),
    StableHlo.TRef.binary (.of main_v22 : StableHlo.TRef sig ⟨S200000x64, .f32⟩) main_call1.v0 main_call1.v1 (cmpf .oge),
    StableHlo.TRef.nullary main_call1.cst_0 (constant S_ .f32 0x3C23D70A#32),
    StableHlo.TRef.unary main_call1.cst_0 main_call1.v2 (broadcastInDim S200000x64 ![] bcast_S_S200000x64),
    StableHlo.TRef.binary main_call1.v2 (.of main_v22 : StableHlo.TRef sig ⟨S200000x64, .f32⟩) main_call1.v3 mulf,
    StableHlo.TRef.ternary main_call1.v1 (.of main_v22 : StableHlo.TRef sig ⟨S200000x64, .f32⟩) main_call1.v3 main_call1.call0.v0 select,
    StableHlo.binary main_v18 main_v23 main_v24 (addf : (⟨S200000x64, .f32⟩ : BufTy).Contents (Elt F) → (⟨S200000x64, .f32⟩ : BufTy).Contents (Elt F) → (⟨S200000x64, .f32⟩ : BufTy).Contents (Elt F)),
    StableHlo.TRef.binary (.of main_v24 : StableHlo.TRef sig ⟨S200000x64, .f32⟩) (.of main_v24 : StableHlo.TRef sig ⟨S200000x64, .f32⟩) main_call2.v0 mulf,
    StableHlo.TRef.nullary main_call2.cst (constant S_ .f32 0x00000000#32),
    StableHlo.TRef.binary main_call2.v0 main_call2.cst main_call2.v1 (fun x v => Host.reduceAdd x v reducesTo_S200000x64_S200000_d1 h_S_),
    StableHlo.TRef.unary main_call2.v1 main_call2.v2 (broadcastInDim S200000x1 ![0] bcast_S200000_S200000x1_0),
    StableHlo.TRef.unary main_call2.v2 main_call2.v3 Host.sqrt,
    StableHlo.nullary main_cst_1 (constant S_ .f32 0x2B8CBCCC#32),
    StableHlo.unary main_cst_1 main_v26 (broadcastInDim S200000x1 ![] bcast_S_S200000x1 : (⟨S_, .f32⟩ : BufTy).Contents (Elt F) → (⟨S200000x1, .f32⟩ : BufTy).Contents (Elt F)),
    StableHlo.binary main_v25 main_v26 main_v27 (maximumf : (⟨S200000x1, .f32⟩ : BufTy).Contents (Elt F) → (⟨S200000x1, .f32⟩ : BufTy).Contents (Elt F) → (⟨S200000x1, .f32⟩ : BufTy).Contents (Elt F)),
    StableHlo.unary main_v27 main_v28 (broadcastInDim S200000x64 ![0, 1] bcast_S200000x1_S200000x64_0_1 : (⟨S200000x1, .f32⟩ : BufTy).Contents (Elt F) → (⟨S200000x64, .f32⟩ : BufTy).Contents (Elt F)),
    StableHlo.binary main_v24 main_v28 main_v29 (Host.divf : (⟨S200000x64, .f32⟩ : BufTy).Contents (Elt F) → (⟨S200000x64, .f32⟩ : BufTy).Contents (Elt F) → (⟨S200000x64, .f32⟩ : BufTy).Contents (Elt F)),
    StableHlo.unary main_arg5 main_v30 (broadcastInDim S2000000x1 ![0] bcast_S2000000_S2000000x1_0 : (⟨S2000000, .f32⟩ : BufTy).Contents (Elt F) → (⟨S2000000x1, .f32⟩ : BufTy).Contents (Elt F)),
    StableHlo.nullary main_c_2 (constantI S_ 32 0#32),
    StableHlo.unary main_c_2 main_v31 (broadcastInDim S2000000 ![] bcast_S_S2000000 : (⟨S_, .i32⟩ : BufTy).Contents (Elt F) → (⟨S2000000, .i32⟩ : BufTy).Contents (Elt F)),
    StableHlo.binary main_arg4 main_v31 main_v32 (cmpi .slt : (⟨S2000000, .i32⟩ : BufTy).Contents (Elt F) → (⟨S2000000, .i32⟩ : BufTy).Contents (Elt F) → (⟨S2000000, .i1⟩ : BufTy).Contents (Elt F)),
    StableHlo.nullary main_c_3 (constantI S_ 32 200000#32),
    StableHlo.unary main_c_3 main_v33 (broadcastInDim S2000000 ![] bcast_S_S2000000 : (⟨S_, .i32⟩ : BufTy).Contents (Elt F) → (⟨S2000000, .i32⟩ : BufTy).Contents (Elt F)),
    StableHlo.binary main_arg4 main_v33 main_v34 (addi : (⟨S2000000, .i32⟩ : BufTy).Contents (Elt F) → (⟨S2000000, .i32⟩ : BufTy).Contents (Elt F) → (⟨S2000000, .i32⟩ : BufTy).Contents (Elt F)),
    StableHlo.ternary main_v32 main_v34 main_arg4 main_v35 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v35 main_v36 (broadcastInDim S2000000x1 ![0] bcast_S2000000_S2000000x1_0 : (⟨S2000000, .i32⟩ : BufTy).Contents (Elt F) → (⟨S2000000x1, .i32⟩ : BufTy).Contents (Elt F)),
    StableHlo.binary main_v24 main_v36 main_v37 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    StableHlo.unary main_v30 main_v38 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v38 main_v37 main_v39 (mulf : (⟨S2000000x64, .f32⟩ : BufTy).Contents (Elt F) → (⟨S2000000x64, .f32⟩ : BufTy).Contents (Elt F) → (⟨S2000000x64, .f32⟩ : BufTy).Contents (Elt F)),
    StableHlo.nullary main_cst_4 (constant S_ .f32 0x00000000#32),
    StableHlo.unary main_cst_4 main_v40 (broadcastInDim S200000x64 ![] bcast_S_S200000x64 : (⟨S_, .f32⟩ : BufTy).Contents (Elt F) → (⟨S200000x64, .f32⟩ : BufTy).Contents (Elt F)),
    StableHlo.unary main_arg3 main_v41 (broadcastInDim S2000000x1 ![0] bcast_S2000000_S2000000x1_0 : (⟨S2000000, .i32⟩ : BufTy).Contents (Elt F) → (⟨S2000000x1, .i32⟩ : BufTy).Contents (Elt F)),
    StableHlo.ternary main_v40 main_v41 main_v39 main_v42 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    StableHlo.binary main_v24 main_v42 main_v43 (addf : (⟨S200000x64, .f32⟩ : BufTy).Contents (Elt F) → (⟨S200000x64, .f32⟩ : BufTy).Contents (Elt F) → (⟨S200000x64, .f32⟩ : BufTy).Contents (Elt F)),
    StableHlo.binary main_v43 main_arg12 main_v44 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    StableHlo.unary main_arg13 main_v45 (broadcastInDim S200000x32 ![0, 1] bcast_S1x32_S200000x32_0_1 : (⟨S1x32, .f32⟩ : BufTy).Contents (Elt F) → (⟨S200000x32, .f32⟩ : BufTy).Contents (Elt F)),
    StableHlo.binary main_v44 main_v45 main_v46 (addf : (⟨S200000x32, .f32⟩ : BufTy).Contents (Elt F) → (⟨S200000x32, .f32⟩ : BufTy).Contents (Elt F) → (⟨S200000x32, .f32⟩ : BufTy).Contents (Elt F)),
    StableHlo.TRef.nullary main_call3.cst (constant S_ .f32 0x00000000#32),
    StableHlo.TRef.unary main_call3.cst main_call3.v0 (broadcastInDim S200000x32 ![] bcast_S_S200000x32),
    StableHlo.TRef.binary (.of main_v46 : StableHlo.TRef sig ⟨S200000x32, .f32⟩) main_call3.v0 main_call3.v1 (cmpf .oge),
    StableHlo.TRef.nullary main_call3.cst_0 (constant S_ .f32 0x3C23D70A#32),
    StableHlo.TRef.unary main_call3.cst_0 main_call3.v2 (broadcastInDim S200000x32 ![] bcast_S_S200000x32),
    StableHlo.TRef.binary main_call3.v2 (.of main_v46 : StableHlo.TRef sig ⟨S200000x32, .f32⟩) main_call3.v3 mulf,
    StableHlo.TRef.ternary main_call3.v1 (.of main_v46 : StableHlo.TRef sig ⟨S200000x32, .f32⟩) main_call3.v3 main_call3.call0.v0 select,
    StableHlo.binary main_v24 main_v42 main_v48 (mulf : (⟨S200000x64, .f32⟩ : BufTy).Contents (Elt F) → (⟨S200000x64, .f32⟩ : BufTy).Contents (Elt F) → (⟨S200000x64, .f32⟩ : BufTy).Contents (Elt F)),
    StableHlo.binary main_v48 main_arg14 main_v49 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    StableHlo.unary main_arg15 main_v50 (broadcastInDim S200000x32 ![0, 1] bcast_S1x32_S200000x32_0_1 : (⟨S1x32, .f32⟩ : BufTy).Contents (Elt F) → (⟨S200000x32, .f32⟩ : BufTy).Contents (Elt F)),
    StableHlo.binary main_v49 main_v50 main_v51 (addf : (⟨S200000x32, .f32⟩ : BufTy).Contents (Elt F) → (⟨S200000x32, .f32⟩ : BufTy).Contents (Elt F) → (⟨S200000x32, .f32⟩ : BufTy).Contents (Elt F)),
    StableHlo.TRef.nullary main_call4.cst (constant S_ .f32 0x00000000#32),
    StableHlo.TRef.unary main_call4.cst main_call4.v0 (broadcastInDim S200000x32 ![] bcast_S_S200000x32),
    StableHlo.TRef.binary (.of main_v51 : StableHlo.TRef sig ⟨S200000x32, .f32⟩) main_call4.v0 main_call4.v1 (cmpf .oge),
    StableHlo.TRef.nullary main_call4.cst_0 (constant S_ .f32 0x3C23D70A#32),
    StableHlo.TRef.unary main_call4.cst_0 main_call4.v2 (broadcastInDim S200000x32 ![] bcast_S_S200000x32),
    StableHlo.TRef.binary main_call4.v2 (.of main_v51 : StableHlo.TRef sig ⟨S200000x32, .f32⟩) main_call4.v3 mulf,
    StableHlo.TRef.ternary main_call4.v1 (.of main_v51 : StableHlo.TRef sig ⟨S200000x32, .f32⟩) main_call4.v3 main_call4.call0.v0 select,
    StableHlo.binary main_v47 main_v52 main_v53 (addf : (⟨S200000x32, .f32⟩ : BufTy).Contents (Elt F) → (⟨S200000x32, .f32⟩ : BufTy).Contents (Elt F) → (⟨S200000x32, .f32⟩ : BufTy).Contents (Elt F)),
    StableHlo.TRef.binary (.of main_v53 : StableHlo.TRef sig ⟨S200000x32, .f32⟩) (.of main_v53 : StableHlo.TRef sig ⟨S200000x32, .f32⟩) main_call5.v0 mulf,
    StableHlo.TRef.nullary main_call5.cst (constant S_ .f32 0x00000000#32),
    StableHlo.TRef.binary main_call5.v0 main_call5.cst main_call5.v1 (fun x v => Host.reduceAdd x v reducesTo_S200000x32_S200000_d1 h_S_),
    StableHlo.TRef.unary main_call5.v1 main_call5.v2 (broadcastInDim S200000x1 ![0] bcast_S200000_S200000x1_0),
    StableHlo.TRef.unary main_call5.v2 main_call5.v3 Host.sqrt,
    StableHlo.nullary main_cst_5 (constant S_ .f32 0x2B8CBCCC#32),
    StableHlo.unary main_cst_5 main_v55 (broadcastInDim S200000x1 ![] bcast_S_S200000x1 : (⟨S_, .f32⟩ : BufTy).Contents (Elt F) → (⟨S200000x1, .f32⟩ : BufTy).Contents (Elt F)),
    StableHlo.binary main_v54 main_v55 main_v56 (maximumf : (⟨S200000x1, .f32⟩ : BufTy).Contents (Elt F) → (⟨S200000x1, .f32⟩ : BufTy).Contents (Elt F) → (⟨S200000x1, .f32⟩ : BufTy).Contents (Elt F)),
    StableHlo.unary main_v56 main_v57 (broadcastInDim S200000x32 ![0, 1] bcast_S200000x1_S200000x32_0_1 : (⟨S200000x1, .f32⟩ : BufTy).Contents (Elt F) → (⟨S200000x32, .f32⟩ : BufTy).Contents (Elt F)),
    StableHlo.binary main_v53 main_v57 main_v58 (Host.divf : (⟨S200000x32, .f32⟩ : BufTy).Contents (Elt F) → (⟨S200000x32, .f32⟩ : BufTy).Contents (Elt F) → (⟨S200000x32, .f32⟩ : BufTy).Contents (Elt F)),
    StableHlo.unary main_arg5 main_v59 (broadcastInDim S2000000x1 ![0] bcast_S2000000_S2000000x1_0 : (⟨S2000000, .f32⟩ : BufTy).Contents (Elt F) → (⟨S2000000x1, .f32⟩ : BufTy).Contents (Elt F)),
    StableHlo.nullary main_c_6 (constantI S_ 32 0#32),
    StableHlo.unary main_c_6 main_v60 (broadcastInDim S2000000 ![] bcast_S_S2000000 : (⟨S_, .i32⟩ : BufTy).Contents (Elt F) → (⟨S2000000, .i32⟩ : BufTy).Contents (Elt F)),
    StableHlo.binary main_arg4 main_v60 main_v61 (cmpi .slt : (⟨S2000000, .i32⟩ : BufTy).Contents (Elt F) → (⟨S2000000, .i32⟩ : BufTy).Contents (Elt F) → (⟨S2000000, .i1⟩ : BufTy).Contents (Elt F)),
    StableHlo.nullary main_c_7 (constantI S_ 32 200000#32),
    StableHlo.unary main_c_7 main_v62 (broadcastInDim S2000000 ![] bcast_S_S2000000 : (⟨S_, .i32⟩ : BufTy).Contents (Elt F) → (⟨S2000000, .i32⟩ : BufTy).Contents (Elt F)),
    StableHlo.binary main_arg4 main_v62 main_v63 (addi : (⟨S2000000, .i32⟩ : BufTy).Contents (Elt F) → (⟨S2000000, .i32⟩ : BufTy).Contents (Elt F) → (⟨S2000000, .i32⟩ : BufTy).Contents (Elt F)),
    StableHlo.ternary main_v61 main_v63 main_arg4 main_v64 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v64 main_v65 (broadcastInDim S2000000x1 ![0] bcast_S2000000_S2000000x1_0 : (⟨S2000000, .i32⟩ : BufTy).Contents (Elt F) → (⟨S2000000x1, .i32⟩ : BufTy).Contents (Elt F)),
    StableHlo.binary main_v53 main_v65 main_v66 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    StableHlo.unary main_v59 main_v67 (broadcastInDim S2000000x32 ![0, 1] bcast_S2000000x1_S2000000x32_0_1 : (⟨S2000000x1, .f32⟩ : BufTy).Contents (Elt F) → (⟨S2000000x32, .f32⟩ : BufTy).Contents (Elt F)),
    StableHlo.binary main_v67 main_v66 main_v68 (mulf : (⟨S2000000x32, .f32⟩ : BufTy).Contents (Elt F) → (⟨S2000000x32, .f32⟩ : BufTy).Contents (Elt F) → (⟨S2000000x32, .f32⟩ : BufTy).Contents (Elt F)),
    StableHlo.nullary main_cst_8 (constant S_ .f32 0x00000000#32),
    StableHlo.unary main_cst_8 main_v69 (broadcastInDim S200000x32 ![] bcast_S_S200000x32 : (⟨S_, .f32⟩ : BufTy).Contents (Elt F) → (⟨S200000x32, .f32⟩ : BufTy).Contents (Elt F)),
    StableHlo.unary main_arg3 main_v70 (broadcastInDim S2000000x1 ![0] bcast_S2000000_S2000000x1_0 : (⟨S2000000, .i32⟩ : BufTy).Contents (Elt F) → (⟨S2000000x1, .i32⟩ : BufTy).Contents (Elt F)),
    StableHlo.ternary main_v69 main_v70 main_v68 main_v71 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)),
    StableHlo.binary main_v53 main_v71 main_v72 (addf : (⟨S200000x32, .f32⟩ : BufTy).Contents (Elt F) → (⟨S200000x32, .f32⟩ : BufTy).Contents (Elt F) → (⟨S200000x32, .f32⟩ : BufTy).Contents (Elt F)),
    StableHlo.binary main_v72 main_arg16 main_v73 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    StableHlo.unary main_arg17 main_v74 (broadcastInDim S200000x16 ![0, 1] bcast_S1x16_S200000x16_0_1 : (⟨S1x16, .f32⟩ : BufTy).Contents (Elt F) → (⟨S200000x16, .f32⟩ : BufTy).Contents (Elt F)),
    StableHlo.binary main_v73 main_v74 main_v75 (addf : (⟨S200000x16, .f32⟩ : BufTy).Contents (Elt F) → (⟨S200000x16, .f32⟩ : BufTy).Contents (Elt F) → (⟨S200000x16, .f32⟩ : BufTy).Contents (Elt F)),
    StableHlo.TRef.nullary main_call6.cst (constant S_ .f32 0x00000000#32),
    StableHlo.TRef.unary main_call6.cst main_call6.v0 (broadcastInDim S200000x16 ![] bcast_S_S200000x16),
    StableHlo.TRef.binary (.of main_v75 : StableHlo.TRef sig ⟨S200000x16, .f32⟩) main_call6.v0 main_call6.v1 (cmpf .oge),
    StableHlo.TRef.nullary main_call6.cst_0 (constant S_ .f32 0x3C23D70A#32),
    StableHlo.TRef.unary main_call6.cst_0 main_call6.v2 (broadcastInDim S200000x16 ![] bcast_S_S200000x16),
    StableHlo.TRef.binary main_call6.v2 (.of main_v75 : StableHlo.TRef sig ⟨S200000x16, .f32⟩) main_call6.v3 mulf,
    StableHlo.TRef.ternary main_call6.v1 (.of main_v75 : StableHlo.TRef sig ⟨S200000x16, .f32⟩) main_call6.v3 main_call6.call0.v0 select,
    StableHlo.binary main_v53 main_v71 main_v77 (mulf : (⟨S200000x32, .f32⟩ : BufTy).Contents (Elt F) → (⟨S200000x32, .f32⟩ : BufTy).Contents (Elt F) → (⟨S200000x32, .f32⟩ : BufTy).Contents (Elt F)),
    StableHlo.binary main_v77 main_arg18 main_v78 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    StableHlo.unary main_arg19 main_v79 (broadcastInDim S200000x16 ![0, 1] bcast_S1x16_S200000x16_0_1 : (⟨S1x16, .f32⟩ : BufTy).Contents (Elt F) → (⟨S200000x16, .f32⟩ : BufTy).Contents (Elt F)),
    StableHlo.binary main_v78 main_v79 main_v80 (addf : (⟨S200000x16, .f32⟩ : BufTy).Contents (Elt F) → (⟨S200000x16, .f32⟩ : BufTy).Contents (Elt F) → (⟨S200000x16, .f32⟩ : BufTy).Contents (Elt F)),
    StableHlo.TRef.nullary main_call7.cst (constant S_ .f32 0x00000000#32),
    StableHlo.TRef.unary main_call7.cst main_call7.v0 (broadcastInDim S200000x16 ![] bcast_S_S200000x16),
    StableHlo.TRef.binary (.of main_v80 : StableHlo.TRef sig ⟨S200000x16, .f32⟩) main_call7.v0 main_call7.v1 (cmpf .oge),
    StableHlo.TRef.nullary main_call7.cst_0 (constant S_ .f32 0x3C23D70A#32),
    StableHlo.TRef.unary main_call7.cst_0 main_call7.v2 (broadcastInDim S200000x16 ![] bcast_S_S200000x16),
    StableHlo.TRef.binary main_call7.v2 (.of main_v80 : StableHlo.TRef sig ⟨S200000x16, .f32⟩) main_call7.v3 mulf,
    StableHlo.TRef.ternary main_call7.v1 (.of main_v80 : StableHlo.TRef sig ⟨S200000x16, .f32⟩) main_call7.v3 main_call7.call0.v0 select,
    StableHlo.binary main_v76 main_v81 main_v82 (addf : (⟨S200000x16, .f32⟩ : BufTy).Contents (Elt F) → (⟨S200000x16, .f32⟩ : BufTy).Contents (Elt F) → (⟨S200000x16, .f32⟩ : BufTy).Contents (Elt F)),
    StableHlo.TRef.binary (.of main_v82 : StableHlo.TRef sig ⟨S200000x16, .f32⟩) (.of main_v82 : StableHlo.TRef sig ⟨S200000x16, .f32⟩) main_call8.v0 mulf,
    StableHlo.TRef.nullary main_call8.cst (constant S_ .f32 0x00000000#32),
    StableHlo.TRef.binary main_call8.v0 main_call8.cst main_call8.v1 (fun x v => Host.reduceAdd x v reducesTo_S200000x16_S200000_d1 h_S_),
    StableHlo.TRef.unary main_call8.v1 main_call8.v2 (broadcastInDim S200000x1 ![0] bcast_S200000_S200000x1_0),
    StableHlo.TRef.unary main_call8.v2 main_call8.v3 Host.sqrt,
    StableHlo.nullary main_cst_9 (constant S_ .f32 0x2B8CBCCC#32),
    StableHlo.unary main_cst_9 main_v84 (broadcastInDim S200000x1 ![] bcast_S_S200000x1 : (⟨S_, .f32⟩ : BufTy).Contents (Elt F) → (⟨S200000x1, .f32⟩ : BufTy).Contents (Elt F)),
    StableHlo.binary main_v83 main_v84 main_v85 (maximumf : (⟨S200000x1, .f32⟩ : BufTy).Contents (Elt F) → (⟨S200000x1, .f32⟩ : BufTy).Contents (Elt F) → (⟨S200000x1, .f32⟩ : BufTy).Contents (Elt F)),
    StableHlo.unary main_v85 main_v86 (broadcastInDim S200000x16 ![0, 1] bcast_S200000x1_S200000x16_0_1 : (⟨S200000x1, .f32⟩ : BufTy).Contents (Elt F) → (⟨S200000x16, .f32⟩ : BufTy).Contents (Elt F)),
    StableHlo.binary main_v82 main_v86 main_v87 (Host.divf : (⟨S200000x16, .f32⟩ : BufTy).Contents (Elt F) → (⟨S200000x16, .f32⟩ : BufTy).Contents (Elt F) → (⟨S200000x16, .f32⟩ : BufTy).Contents (Elt F)),
    StableHlo.nary ![main_v0, main_v29, main_v58, main_v87] main_v88 (fun u => concatenate S200000x176 1 [⟨S200000x64, u 0⟩, ⟨S200000x64, u 1⟩, ⟨S200000x32, u 2⟩, ⟨S200000x16, u 3⟩] concatenates_S200000x64_S200000x64_S200000x32_S200000x16_S200000x176_d1),
    StableHlo.unary main_v88 main_v89 ((extractStridedSlice S50000x176 ![0, 0] · slices_S200000x176_S50000x176_0_0) : (⟨S200000x176, .f32⟩ : BufTy).Contents (Elt F) → (⟨S50000x176, .f32⟩ : BufTy).Contents (Elt F)),
    StableHlo.unary main_v88 main_v90 ((extractStridedSlice S150000x176 ![50000, 0] · slices_S200000x176_S150000x176_50000_0) : (⟨S200000x176, .f32⟩ : BufTy).Contents (Elt F) → (⟨S150000x176, .f32⟩ : BufTy).Contents (Elt F)),
    StableHlo.nullary main_c_10 (constantI S_ 32 0#32),
    StableHlo.unary main_c_10 main_v91 (broadcastInDim S8192 ![] bcast_S_S8192 : (⟨S_, .i32⟩ : BufTy).Contents (Elt F) → (⟨S8192, .i32⟩ : BufTy).Contents (Elt F)),
    StableHlo.binary main_arg0 main_v91 main_v92 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 50000#32),
    StableHlo.unary main_c_11 main_v93 (broadcastInDim S8192 ![] bcast_S_S8192 : (⟨S_, .i32⟩ : BufTy).Contents (Elt F) → (⟨S8192, .i32⟩ : BufTy).Contents (Elt F)),
    StableHlo.binary main_arg0 main_v93 main_v94 (addi : (⟨S8192, .i32⟩ : BufTy).Contents (Elt F) → (⟨S8192, .i32⟩ : BufTy).Contents (Elt F) → (⟨S8192, .i32⟩ : BufTy).Contents (Elt F)),
    StableHlo.ternary main_v92 main_v94 main_arg0 main_v95 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v95 main_v96 (broadcastInDim S8192x1 ![0] bcast_S8192_S8192x1_0 : (⟨S8192, .i32⟩ : BufTy).Contents (Elt F) → (⟨S8192x1, .i32⟩ : BufTy).Contents (Elt F)),
    StableHlo.binary main_v89 main_v96 main_v97 ((fun x i => Host.gather gather_S50000x176_S8192x1_S8192x176_1_0_n_n_0_1_1176 x i) : (⟨S50000x176, .f32⟩ : BufTy).Contents (Elt F) → (⟨S8192x1, .i32⟩ : BufTy).Contents (Elt F) → (⟨S8192x176, .f32⟩ : BufTy).Contents (Elt F)),
    StableHlo.nullary main_c_12 (constantI S_ 32 0#32),
    StableHlo.unary main_c_12 main_v98 (broadcastInDim S8192 ![] bcast_S_S8192 : (⟨S_, .i32⟩ : BufTy).Contents (Elt F) → (⟨S8192, .i32⟩ : BufTy).Contents (Elt F)),
    StableHlo.binary main_arg1 main_v98 main_v99 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 150000#32),
    StableHlo.unary main_c_13 main_v100 (broadcastInDim S8192 ![] bcast_S_S8192 : (⟨S_, .i32⟩ : BufTy).Contents (Elt F) → (⟨S8192, .i32⟩ : BufTy).Contents (Elt F)),
    StableHlo.binary main_arg1 main_v100 main_v101 (addi : (⟨S8192, .i32⟩ : BufTy).Contents (Elt F) → (⟨S8192, .i32⟩ : BufTy).Contents (Elt F) → (⟨S8192, .i32⟩ : BufTy).Contents (Elt F)),
    StableHlo.ternary main_v99 main_v101 main_arg1 main_v102 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v102 main_v103 (broadcastInDim S8192x1 ![0] bcast_S8192_S8192x1_0 : (⟨S8192, .i32⟩ : BufTy).Contents (Elt F) → (⟨S8192x1, .i32⟩ : BufTy).Contents (Elt F)),
    StableHlo.binary main_v90 main_v103 main_v104 ((fun x i => Host.gather gather_S150000x176_S8192x1_S8192x176_1_0_n_n_0_1_1176 x i) : (⟨S150000x176, .f32⟩ : BufTy).Contents (Elt F) → (⟨S8192x1, .i32⟩ : BufTy).Contents (Elt F) → (⟨S8192x176, .f32⟩ : BufTy).Contents (Elt F)),
    StableHlo.nullary main_c_14 (constantI S_ 32 0#32),
    StableHlo.unary main_c_14 main_v105 (broadcastInDim S8192 ![] bcast_S_S8192 : (⟨S_, .i32⟩ : BufTy).Contents (Elt F) → (⟨S8192, .i32⟩ : BufTy).Contents (Elt F)),
    StableHlo.binary main_arg2 main_v105 main_v106 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 150000#32),
    StableHlo.unary main_c_15 main_v107 (broadcastInDim S8192 ![] bcast_S_S8192 : (⟨S_, .i32⟩ : BufTy).Contents (Elt F) → (⟨S8192, .i32⟩ : BufTy).Contents (Elt F)),
    StableHlo.binary main_arg2 main_v107 main_v108 (addi : (⟨S8192, .i32⟩ : BufTy).Contents (Elt F) → (⟨S8192, .i32⟩ : BufTy).Contents (Elt F) → (⟨S8192, .i32⟩ : BufTy).Contents (Elt F)),
    StableHlo.ternary main_v106 main_v108 main_arg2 main_v109 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v109 main_v110 (broadcastInDim S8192x1 ![0] bcast_S8192_S8192x1_0 : (⟨S8192, .i32⟩ : BufTy).Contents (Elt F) → (⟨S8192x1, .i32⟩ : BufTy).Contents (Elt F)),
    StableHlo.binary main_v90 main_v110 main_v111 ((fun x i => Host.gather gather_S150000x176_S8192x1_S8192x176_1_0_n_n_0_1_1176 x i) : (⟨S150000x176, .f32⟩ : BufTy).Contents (Elt F) → (⟨S8192x1, .i32⟩ : BufTy).Contents (Elt F) → (⟨S8192x176, .f32⟩ : BufTy).Contents (Elt F)),
    StableHlo.binary main_v97 main_v104 main_v112 (mulf : (⟨S8192x176, .f32⟩ : BufTy).Contents (Elt F) → (⟨S8192x176, .f32⟩ : BufTy).Contents (Elt F) → (⟨S8192x176, .f32⟩ : BufTy).Contents (Elt F)),
    StableHlo.nullary main_cst_16 (constant S_ .f32 0x00000000#32),
    StableHlo.binary main_v112 main_cst_16 main_v113 ((fun x v => Host.reduceAdd x v reducesTo_S8192x176_S8192_d1 h_S_) : (⟨S8192x176, .f32⟩ : BufTy).Contents (Elt F) → (⟨S_, .f32⟩ : BufTy).Contents (Elt F) → (⟨S8192, .f32⟩ : BufTy).Contents (Elt F)),
    StableHlo.binary main_v97 main_v111 main_v114 (mulf : (⟨S8192x176, .f32⟩ : BufTy).Contents (Elt F) → (⟨S8192x176, .f32⟩ : BufTy).Contents (Elt F) → (⟨S8192x176, .f32⟩ : BufTy).Contents (Elt F)),
    StableHlo.nullary main_cst_17 (constant S_ .f32 0x00000000#32),
    StableHlo.binary main_v114 main_cst_17 main_v115 ((fun x v => Host.reduceAdd x v reducesTo_S8192x176_S8192_d1 h_S_) : (⟨S8192x176, .f32⟩ : BufTy).Contents (Elt F) → (⟨S_, .f32⟩ : BufTy).Contents (Elt F) → (⟨S8192, .f32⟩ : BufTy).Contents (Elt F)),
    StableHlo.unary main_v113 main_v116 (broadcastInDim S8192x1 ![0] bcast_S8192_S8192x1_0 : (⟨S8192, .f32⟩ : BufTy).Contents (Elt F) → (⟨S8192x1, .f32⟩ : BufTy).Contents (Elt F)),
    StableHlo.unary main_v115 main_v117 (broadcastInDim S8192x1 ![0] bcast_S8192_S8192x1_0 : (⟨S8192, .f32⟩ : BufTy).Contents (Elt F) → (⟨S8192x1, .f32⟩ : BufTy).Contents (Elt F)),
    StableHlo.binary main_v116 main_v117 main_v118 ((fun a b => concatenate S8192x2 1 [⟨S8192x1, a⟩, ⟨S8192x1, b⟩] concatenates_S8192x1_S8192x1_S8192x2_d1) : (⟨S8192x1, .f32⟩ : BufTy).Contents (Elt F) → (⟨S8192x1, .f32⟩ : BufTy).Contents (Elt F) → (⟨S8192x2, .f32⟩ : BufTy).Contents (Elt F)) ]

set_option maxRecDepth 16384 in
/-- @main is that straight line: its three windows and the functions' definitions unfolded at their calls, both
    sides are one chain of steps once sequencing is reassociated. -/
theorem main_eq (c : Dev nD) : main (F := F) c = seq ops := by
  simp only [main, main_part0, main_part1, main_part2, fn_where.body, fn_leaky_relu.body, fn_norm.body, fn_where_1.body, fn_leaky_relu_0.body, fn_norm_2.body, fn_where_4.body, fn_leaky_relu_3.body, fn_norm_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., binary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., nary_bufs_sub .., unary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., binary_bufs_sub .., nullary_bufs_sub .., binary_bufs_sub .., unary_bufs_sub .., unary_bufs_sub ..,
    binary_bufs_sub ..⟩

/-- On every device, for any float values, from any memory with zero counters: every weakly fair execution of
    @main terminates, and every final state has each TensorCore buffer at the fold of the operations' results
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The references the operations write, in order: each operation writes the buffer of the value it defines. -/
abbrev written : List (Ref sig .tc) :=
  [ main_v0, main_v1, main_c, main_v2, main_v3, main_c_0, main_v4, main_v5,
    main_v6, main_v7, main_v8, main_v9, main_v10, main_cst, main_v11, main_v12,
    main_v13, main_v14, main_v15, main_v16, main_v17, main_call0.cst.ref, main_call0.v0.ref, main_call0.v1.ref,
    main_call0.cst_0.ref, main_call0.v2.ref, main_call0.v3.ref, main_call0.call0.v0.ref, main_v19, main_v20, main_v21, main_v22,
    main_call1.cst.ref, main_call1.v0.ref, main_call1.v1.ref, main_call1.cst_0.ref, main_call1.v2.ref, main_call1.v3.ref, main_call1.call0.v0.ref, main_v24,
    main_call2.v0.ref, main_call2.cst.ref, main_call2.v1.ref, main_call2.v2.ref, main_call2.v3.ref, main_cst_1, main_v26, main_v27,
    main_v28, main_v29, main_v30, main_c_2, main_v31, main_v32, main_c_3, main_v33,
    main_v34, main_v35, main_v36, main_v37, main_v38, main_v39, main_cst_4, main_v40,
    main_v41, main_v42, main_v43, main_v44, main_v45, main_v46, main_call3.cst.ref, main_call3.v0.ref,
    main_call3.v1.ref, main_call3.cst_0.ref, main_call3.v2.ref, main_call3.v3.ref, main_call3.call0.v0.ref, main_v48, main_v49, main_v50,
    main_v51, main_call4.cst.ref, main_call4.v0.ref, main_call4.v1.ref, main_call4.cst_0.ref, main_call4.v2.ref, main_call4.v3.ref, main_call4.call0.v0.ref,
    main_v53, main_call5.v0.ref, main_call5.cst.ref, main_call5.v1.ref, main_call5.v2.ref, main_call5.v3.ref, main_cst_5, main_v55,
    main_v56, main_v57, main_v58, main_v59, main_c_6, main_v60, main_v61, main_c_7,
    main_v62, main_v63, main_v64, main_v65, main_v66, main_v67, main_v68, main_cst_8,
    main_v69, main_v70, main_v71, main_v72, main_v73, main_v74, main_v75, main_call6.cst.ref,
    main_call6.v0.ref, main_call6.v1.ref, main_call6.cst_0.ref, main_call6.v2.ref, main_call6.v3.ref, main_call6.call0.v0.ref, main_v77, main_v78,
    main_v79, main_v80, main_call7.cst.ref, main_call7.v0.ref, main_call7.v1.ref, main_call7.cst_0.ref, main_call7.v2.ref, main_call7.v3.ref,
    main_call7.call0.v0.ref, main_v82, main_call8.v0.ref, main_call8.cst.ref, main_call8.v1.ref, main_call8.v2.ref, main_call8.v3.ref, main_cst_9,
    main_v84, main_v85, main_v86, main_v87, main_v88, main_v89, main_v90, main_c_10,
    main_v91, main_v92, main_c_11, main_v93, main_v94, main_v95, main_v96, main_v97,
    main_c_12, main_v98, main_v99, main_c_13, main_v100, main_v101, main_v102, main_v103,
    main_v104, main_c_14, main_v105, main_v106, main_c_15, main_v107, main_v108, main_v109,
    main_v110, main_v111, main_v112, main_cst_16, main_v113, main_v114, main_cst_17, main_v115,
    main_v116, main_v117, main_v118 ]

/-- A listed reference's buffer, alone, is among the listed references' buffers. -/
theorem single_sub_written {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

/-- Every operation writes only a listed reference: its one result buffer, found in the list. -/
theorem writes_sub : (ops : List (HloOp τ sig (Elt F))).Forall fun op => op.writes ⊆ (written.map (Proc.devRef (τ := τ) .tc)).toFinset :=
  ⟨single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide), single_sub_written (by decide),
    single_sub_written (by decide), single_sub_written (by decide), single_sub_written (by decide)⟩

/-- A reference no operation writes holds after the line what it held before. -/
theorem kept (V : Valuation τ sig (Elt F)) {r : Ref sig .tc} (hr : r ∉ written) :
    after ops V (r : DevRef τ sig) = V (r : DevRef τ sig) :=
  after_of_writes_sub ops V writes_sub hr

/-- On every device, for any float values, from any memory with zero counters: every weakly fair execution of
    @main terminates with the twenty arguments unchanged — none is among the references the operations write. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_arg0).trans (kept (r := main_arg0) _ (by decide)),
      (h c main_arg1).trans (kept (r := main_arg1) _ (by decide)),
      (h c main_arg2).trans (kept (r := main_arg2) _ (by decide)),
      (h c main_arg3).trans (kept (r := main_arg3) _ (by decide)),
      (h c main_arg4).trans (kept (r := main_arg4) _ (by decide)),
      (h c main_arg5).trans (kept (r := main_arg5) _ (by decide)),
      (h c main_arg6).trans (kept (r := main_arg6) _ (by decide)),
      (h c main_arg7).trans (kept (r := main_arg7) _ (by decide)),
      (h c main_arg8).trans (kept (r := main_arg8) _ (by decide)),
      (h c main_arg9).trans (kept (r := main_arg9) _ (by decide)),
      (h c main_arg10).trans (kept (r := main_arg10) _ (by decide)),
      (h c main_arg11).trans (kept (r := main_arg11) _ (by decide)),
      (h c main_arg12).trans (kept (r := main_arg12) _ (by decide)),
      (h c main_arg13).trans (kept (r := main_arg13) _ (by decide)),
      (h c main_arg14).trans (kept (r := main_arg14) _ (by decide)),
      (h c main_arg15).trans (kept (r := main_arg15) _ (by decide)),
      (h c main_arg16).trans (kept (r := main_arg16) _ (by decide)),
      (h c main_arg17).trans (kept (r := main_arg17) _ (by decide)),
      (h c main_arg18).trans (kept (r := main_arg18) _ (by decide)),
      (h c main_arg19).trans (kept (r := main_arg19) _ (by decide))⟩)
    (run_fold m ρ)

end Cert.ReferenceIdeal.Hand

end
-- ==== Proof.Ref.Result.lean ====
/- The reference program's result as a named term.

   The line of operations writes each reference once and reads only references written earlier or arguments, so
   what a reference holds after the whole line is its operation applied to what its operands hold after the whole
   line. Read this way along the line, the embedding tables stacked, each aggregation over the edges, each layer's
   embedding and its normalised form, and the scores are the named functions of the specification applied to
   earlier ones, and the result buffer holds `scores` of the twenty arguments. -/
import proofs.«156520_j49993419325916_1_alg».proof.Proof.Ref.Run
import proofs.«156520_j49993419325916_1_alg».proof.Proof.Ref.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Reading one operation's result off the whole line

Each operation of the line writes one reference, and no reference is written twice. So what a written reference
holds after the whole line is what its operation wrote, computed from what the operands held just before that
operation — and an operand is not written from then on, so that is what it holds after the whole line too. -/

section Positional

variable {Val : EltTy → Type}

/-- Operation `i` of the line writes exactly reference `i` of the list. -/
abbrev WritesAt (l : List (HloOp τ sig Val)) (w : List (Ref sig .tc)) : Prop :=
  List.Forall₂ (fun op y => op.writes = {Proc.devRef (τ := τ) .tc y}) l w

/-- The fold of a concatenation is the folds in turn. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- A reference not among those a line writes holds after it what it held before. -/
theorem after_kept : ∀ {l : List (HloOp τ sig Val)} {w : List (Ref sig .tc)}, WritesAt l w →
    ∀ {r : Ref sig .tc}, r ∉ w → ∀ V : Valuation τ sig Val, after l V (Proc.devRef .tc r) = V (Proc.devRef .tc r)
  | _, _, .nil, _, _, _ => rfl
  | _, _, .cons (a := op) (b := y) hop hrest, r, hr, V => by
    rw [after_cons, after_kept hrest (fun h => hr (List.mem_cons_of_mem _ h)),
      op.result_of_not_mem V (by
        rw [hop, Finset.mem_singleton]
        exact devRef_ne_of_ne (fun e => hr (e ▸ List.mem_cons_self)))]

/-- A reference not written from position `k` on holds after the whole line what it held after the first `k` operations. -/
theorem after_eq_take {l : List (HloOp τ sig Val)} {w : List (Ref sig .tc)} (h : WritesAt l w) (k : Nat)
    {r : Ref sig .tc} (hr : r ∉ w.drop k) (V : Valuation τ sig Val) :
    after l V (Proc.devRef .tc r) = after (l.take k) V (Proc.devRef .tc r) := by
  conv_lhs => rw [← List.take_append_drop k l]
  rw [after_app, after_kept (List.forall₂_drop k h) hr]

/-- The reference operation `k` writes, not written again, holds after the whole line that operation's result. -/
theorem after_at {l : List (HloOp τ sig Val)} {w : List (Ref sig .tc)} (h : WritesAt l w) (k : Nat) {op : HloOp τ sig Val}
    (hk : l[k]? = some op) {y : Ref sig .tc} (hy : y ∉ w.drop (k + 1)) (V : Valuation τ sig Val) :
    after l V (Proc.devRef .tc y) = op.result (after (l.take k) V) (Proc.devRef .tc y) := by
  rw [after_eq_take h (k + 1) hy, List.take_succ, hk, Option.toList_some, after_app, after_cons, after_nil]

variable {l : List (HloOp τ sig Val)} {w : List (Ref sig .tc)}
variable {x a b c e y : Ref sig .tc}

theorem at_nullary (h : WritesAt l w) (k : Nat) {v : y.ty.Contents Val} {hy} (hk : l[k]? = some (nullary y v hy)) (hy' : y ∉ w.drop (k + 1))
    (V : Valuation τ sig Val) : after l V (Proc.devRef .tc y) = v := by
  rw [after_at h k hk hy', nullary_result]

theorem at_unary (h : WritesAt l w) (k : Nat) {f : x.ty.Contents Val → y.ty.Contents Val} {hx hy} (hk : l[k]? = some (unary x y f hx hy))
    (hy' : y ∉ w.drop (k + 1)) (hx' : x ∉ w.drop k) (V : Valuation τ sig Val) :
    after l V (Proc.devRef .tc y) = f (after l V (Proc.devRef .tc x)) := by
  rw [after_at h k hk hy', unary_result, ← after_eq_take h k hx']

theorem at_binary (h : WritesAt l w) (k : Nat) {f : a.ty.Contents Val → b.ty.Contents Val → y.ty.Contents Val} {ha hb hy}
    (hk : l[k]? = some (binary a b y f ha hb hy)) (hy' : y ∉ w.drop (k + 1)) (ha' : a ∉ w.drop k) (hb' : b ∉ w.drop k)
    (V : Valuation τ sig Val) :
    after l V (Proc.devRef .tc y) = f (after l V (Proc.devRef .tc a)) (after l V (Proc.devRef .tc b)) := by
  rw [after_at h k hk hy', binary_result, ← after_eq_take h k ha', ← after_eq_take h k hb']

theorem at_ternary (h : WritesAt l w) (k : Nat) {f : c.ty.Contents Val → a.ty.Contents Val → b.ty.Contents Val → y.ty.Contents Val} {hc ha hb hy}
    (hk : l[k]? = some (ternary c a b y f hc ha hb hy)) (hy' : y ∉ w.drop (k + 1)) (hc' : c ∉ w.drop k) (ha' : a ∉ w.drop k)
    (hb' : b ∉ w.drop k) (V : Valuation τ sig Val) :
    after l V (Proc.devRef .tc y)
      = f (after l V (Proc.devRef .tc c)) (after l V (Proc.devRef .tc a)) (after l V (Proc.devRef .tc b)) := by
  rw [after_at h k hk hy', ternary_result, ← after_eq_take h k hc', ← after_eq_take h k ha', ← after_eq_take h k hb']

theorem at_nary4 (h : WritesAt l w) (k : Nat) {f : ((i : Fin 4) → ((![x, a, b, c] : Fin 4 → Ref sig .tc) i).ty.Contents Val) → y.ty.Contents Val} {hxs hy}
    (hk : l[k]? = some (nary ![x, a, b, c] y f hxs hy)) (hy' : y ∉ w.drop (k + 1)) (hx' : x ∉ w.drop k) (ha' : a ∉ w.drop k)
    (hb' : b ∉ w.drop k) (hc' : c ∉ w.drop k) (V : Valuation τ sig Val) :
    after l V (Proc.devRef .tc y)
      = f (Fin.cons (after l V (Proc.devRef .tc x)) (Fin.cons (after l V (Proc.devRef .tc a))
          (Fin.cons (after l V (Proc.devRef .tc b)) (Fin.cons (after l V (Proc.devRef .tc c)) (fun i => i.elim0))))) := by
  rw [after_at h k hk hy', nary4_result, ← after_eq_take h k hx', ← after_eq_take h k ha', ← after_eq_take h k hb',
    ← after_eq_take h k hc']

end Positional

/-- Operation `i` of the line writes exactly reference `i` of `written`: each operation's one result buffer. -/
theorem writesAt : WritesAt (ops : List (HloOp τ sig (Elt F))) written :=
  .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.cons rfl (.cons rfl (.cons rfl (.cons rfl (.cons rfl (
    .cons rfl (.cons rfl (.cons rfl (.nil)))))))))))))))))))))))))))))))))))))))))))))))))))))))))))))))))))))))))))))))))))))))))))))))))))))))))))))))))))))))))))))))))))))))))))))))))))))))))))))))))))))))))))))))))))))))))))

/-- The stacked embedding tables. -/
theorem at_v0 (V : Valuation τ sig (Elt F)) :
    after ops V (main_v0 : DevRef τ sig) = Cert.ReferenceIdeal.Terms.ego0 (V (main_arg6 : DevRef τ sig)) (V (main_arg7 : DevRef τ sig)) := by
  rw [at_binary writesAt 0 rfl (by decide) (by decide) (by decide) V,
    kept V (r := main_arg6) (by decide),
    kept V (r := main_arg7) (by decide)]
  rfl

/-- The first aggregation, of the stacked tables over the edges. -/
theorem at_v13 (V : Valuation τ sig (Elt F)) :
    after ops V (main_v13 : DevRef τ sig) = Cert.ReferenceIdeal.Terms.agg0 (after ops V (main_v0 : DevRef τ sig)) (V (main_arg3 : DevRef τ sig)) (V (main_arg4 : DevRef τ sig)) (V (main_arg5 : DevRef τ sig)) := by
  rw [at_ternary writesAt 16 rfl (by decide) (by decide) (by decide) (by decide) V,
    at_unary writesAt 15 rfl (by decide) (by decide) V,
    at_unary writesAt 14 rfl (by decide) (by decide) V,
    at_nullary writesAt 13 rfl (by decide) V,
    at_binary writesAt 12 rfl (by decide) (by decide) (by decide) V,
    at_unary writesAt 11 rfl (by decide) (by decide) V,
    at_binary writesAt 10 rfl (by decide) (by decide) (by decide) V,
    at_unary writesAt 9 rfl (by decide) (by decide) V,
    at_ternary writesAt 8 rfl (by decide) (by decide) (by decide) (by decide) V,
    at_binary writesAt 7 rfl (by decide) (by decide) (by decide) V,
    at_unary writesAt 6 rfl (by decide) (by decide) V,
    at_nullary writesAt 5 rfl (by decide) V,
    at_binary writesAt 4 rfl (by decide) (by decide) (by decide) V,
    at_unary writesAt 3 rfl (by decide) (by decide) V,
    at_nullary writesAt 2 rfl (by decide) V,
    at_unary writesAt 1 rfl (by decide) (by decide) V,
    kept V (r := main_arg3) (by decide),
    kept V (r := main_arg4) (by decide),
    kept V (r := main_arg5) (by decide)]
  rfl

/-- The first layer's embedding. -/
theorem at_v24 (V : Valuation τ sig (Elt F)) :
    after ops V (main_v24 : DevRef τ sig) = Cert.ReferenceIdeal.Terms.layerE0 (after ops V (main_v0 : DevRef τ sig)) (after ops V (main_v13 : DevRef τ sig)) (V (main_arg8 : DevRef τ sig)) (V (main_arg9 : DevRef τ sig)) (V (main_arg10 : DevRef τ sig)) (V (main_arg11 : DevRef τ sig)) := by
  rw [at_binary writesAt 39 rfl (by decide) (by decide) (by decide) V,
    at_ternary writesAt 38 rfl (by decide) (by decide) (by decide) (by decide) V,
    at_binary writesAt 37 rfl (by decide) (by decide) (by decide) V,
    at_unary writesAt 36 rfl (by decide) (by decide) V,
    at_nullary writesAt 35 rfl (by decide) V,
    at_binary writesAt 34 rfl (by decide) (by decide) (by decide) V,
    at_unary writesAt 33 rfl (by decide) (by decide) V,
    at_nullary writesAt 32 rfl (by decide) V,
    at_binary writesAt 31 rfl (by decide) (by decide) (by decide) V,
    at_unary writesAt 30 rfl (by decide) (by decide) V,
    at_binary writesAt 29 rfl (by decide) (by decide) (by decide) V,
    at_binary writesAt 28 rfl (by decide) (by decide) (by decide) V,
    at_ternary writesAt 27 rfl (by decide) (by decide) (by decide) (by decide) V,
    at_binary writesAt 26 rfl (by decide) (by decide) (by decide) V,
    at_unary writesAt 25 rfl (by decide) (by decide) V,
    at_nullary writesAt 24 rfl (by decide) V,
    at_binary writesAt 23 rfl (by decide) (by decide) (by decide) V,
    at_unary writesAt 22 rfl (by decide) (by decide) V,
    at_nullary writesAt 21 rfl (by decide) V,
    at_binary writesAt 20 rfl (by decide) (by decide) (by decide) V,
    at_unary writesAt 19 rfl (by decide) (by decide) V,
    at_binary writesAt 18 rfl (by decide) (by decide) (by decide) V,
    at_binary writesAt 17 rfl (by decide) (by decide) (by decide) V,
    kept V (r := main_arg8) (by decide),
    kept V (r := main_arg9) (by decide),
    kept V (r := main_arg10) (by decide),
    kept V (r := main_arg11) (by decide)]
  rfl

/-- The first layer's embedding, rows normalised. -/
theorem at_v29 (V : Valuation τ sig (Elt F)) :
    after ops V (main_v29 : DevRef τ sig) = Cert.ReferenceIdeal.Terms.normed0 (after ops V (main_v24 : DevRef τ sig)) := by
  rw [at_binary writesAt 49 rfl (by decide) (by decide) (by decide) V,
    at_unary writesAt 48 rfl (by decide) (by decide) V,
    at_binary writesAt 47 rfl (by decide) (by decide) (by decide) V,
    at_unary writesAt 46 rfl (by decide) (by decide) V,
    at_nullary writesAt 45 rfl (by decide) V,
    at_unary writesAt 44 rfl (by decide) (by decide) V,
    at_unary writesAt 43 rfl (by decide) (by decide) V,
    at_binary writesAt 42 rfl (by decide) (by decide) (by decide) V,
    at_nullary writesAt 41 rfl (by decide) V,
    at_binary writesAt 40 rfl (by decide) (by decide) (by decide) V]
  rfl

/-- The second aggregation, of the first layer's embedding. -/
theorem at_v42 (V : Valuation τ sig (Elt F)) :
    after ops V (main_v42 : DevRef τ sig) = Cert.ReferenceIdeal.Terms.agg0 (after ops V (main_v24 : DevRef τ sig)) (V (main_arg3 : DevRef τ sig)) (V (main_arg4 : DevRef τ sig)) (V (main_arg5 : DevRef τ sig)) := by
  rw [at_ternary writesAt 65 rfl (by decide) (by decide) (by decide) (by decide) V,
    at_unary writesAt 64 rfl (by decide) (by decide) V,
    at_unary writesAt 63 rfl (by decide) (by decide) V,
    at_nullary writesAt 62 rfl (by decide) V,
    at_binary writesAt 61 rfl (by decide) (by decide) (by decide) V,
    at_unary writesAt 60 rfl (by decide) (by decide) V,
    at_binary writesAt 59 rfl (by decide) (by decide) (by decide) V,
    at_unary writesAt 58 rfl (by decide) (by decide) V,
    at_ternary writesAt 57 rfl (by decide) (by decide) (by decide) (by decide) V,
    at_binary writesAt 56 rfl (by decide) (by decide) (by decide) V,
    at_unary writesAt 55 rfl (by decide) (by decide) V,
    at_nullary writesAt 54 rfl (by decide) V,
    at_binary writesAt 53 rfl (by decide) (by decide) (by decide) V,
    at_unary writesAt 52 rfl (by decide) (by decide) V,
    at_nullary writesAt 51 rfl (by decide) V,
    at_unary writesAt 50 rfl (by decide) (by decide) V,
    kept V (r := main_arg3) (by decide),
    kept V (r := main_arg4) (by decide),
    kept V (r := main_arg5) (by decide)]
  rfl

/-- The second layer's embedding. -/
theorem at_v53 (V : Valuation τ sig (Elt F)) :
    after ops V (main_v53 : DevRef τ sig) = Cert.ReferenceIdeal.Terms.layerE1 (after ops V (main_v24 : DevRef τ sig)) (after ops V (main_v42 : DevRef τ sig)) (V (main_arg12 : DevRef τ sig)) (V (main_arg13 : DevRef τ sig)) (V (main_arg14 : DevRef τ sig)) (V (main_arg15 : DevRef τ sig)) := by
  rw [at_binary writesAt 88 rfl (by decide) (by decide) (by decide) V,
    at_ternary writesAt 87 rfl (by decide) (by decide) (by decide) (by decide) V,
    at_binary writesAt 86 rfl (by decide) (by decide) (by decide) V,
    at_unary writesAt 85 rfl (by decide) (by decide) V,
    at_nullary writesAt 84 rfl (by decide) V,
    at_binary writesAt 83 rfl (by decide) (by decide) (by decide) V,
    at_unary writesAt 82 rfl (by decide) (by decide) V,
    at_nullary writesAt 81 rfl (by decide) V,
    at_binary writesAt 80 rfl (by decide) (by decide) (by decide) V,
    at_unary writesAt 79 rfl (by decide) (by decide) V,
    at_binary writesAt 78 rfl (by decide) (by decide) (by decide) V,
    at_binary writesAt 77 rfl (by decide) (by decide) (by decide) V,
    at_ternary writesAt 76 rfl (by decide) (by decide) (by decide) (by decide) V,
    at_binary writesAt 75 rfl (by decide) (by decide) (by decide) V,
    at_unary writesAt 74 rfl (by decide) (by decide) V,
    at_nullary writesAt 73 rfl (by decide) V,
    at_binary writesAt 72 rfl (by decide) (by decide) (by decide) V,
    at_unary writesAt 71 rfl (by decide) (by decide) V,
    at_nullary writesAt 70 rfl (by decide) V,
    at_binary writesAt 69 rfl (by decide) (by decide) (by decide) V,
    at_unary writesAt 68 rfl (by decide) (by decide) V,
    at_binary writesAt 67 rfl (by decide) (by decide) (by decide) V,
    at_binary writesAt 66 rfl (by decide) (by decide) (by decide) V,
    kept V (r := main_arg12) (by decide),
    kept V (r := main_arg13) (by decide),
    kept V (r := main_arg14) (by decide),
    kept V (r := main_arg15) (by decide)]
  rfl

/-- The second layer's embedding, rows normalised. -/
theorem at_v58 (V : Valuation τ sig (Elt F)) :
    after ops V (main_v58 : DevRef τ sig) = Cert.ReferenceIdeal.Terms.normed1 (after ops V (main_v53 : DevRef τ sig)) := by
  rw [at_binary writesAt 98 rfl (by decide) (by decide) (by decide) V,
    at_unary writesAt 97 rfl (by decide) (by decide) V,
    at_binary writesAt 96 rfl (by decide) (by decide) (by decide) V,
    at_unary writesAt 95 rfl (by decide) (by decide) V,
    at_nullary writesAt 94 rfl (by decide) V,
    at_unary writesAt 93 rfl (by decide) (by decide) V,
    at_unary writesAt 92 rfl (by decide) (by decide) V,
    at_binary writesAt 91 rfl (by decide) (by decide) (by decide) V,
    at_nullary writesAt 90 rfl (by decide) V,
    at_binary writesAt 89 rfl (by decide) (by decide) (by decide) V]
  rfl

/-- The third aggregation, of the second layer's embedding. -/
theorem at_v71 (V : Valuation τ sig (Elt F)) :
    after ops V (main_v71 : DevRef τ sig) = Cert.ReferenceIdeal.Terms.agg2 (after ops V (main_v53 : DevRef τ sig)) (V (main_arg3 : DevRef τ sig)) (V (main_arg4 : DevRef τ sig)) (V (main_arg5 : DevRef τ sig)) := by
  rw [at_ternary writesAt 114 rfl (by decide) (by decide) (by decide) (by decide) V,
    at_unary writesAt 113 rfl (by decide) (by decide) V,
    at_unary writesAt 112 rfl (by decide) (by decide) V,
    at_nullary writesAt 111 rfl (by decide) V,
    at_binary writesAt 110 rfl (by decide) (by decide) (by decide) V,
    at_unary writesAt 109 rfl (by decide) (by decide) V,
    at_binary writesAt 108 rfl (by decide) (by decide) (by decide) V,
    at_unary writesAt 107 rfl (by decide) (by decide) V,
    at_ternary writesAt 106 rfl (by decide) (by decide) (by decide) (by decide) V,
    at_binary writesAt 105 rfl (by decide) (by decide) (by decide) V,
    at_unary writesAt 104 rfl (by decide) (by decide) V,
    at_nullary writesAt 103 rfl (by decide) V,
    at_binary writesAt 102 rfl (by decide) (by decide) (by decide) V,
    at_unary writesAt 101 rfl (by decide) (by decide) V,
    at_nullary writesAt 100 rfl (by decide) V,
    at_unary writesAt 99 rfl (by decide) (by decide) V,
    kept V (r := main_arg3) (by decide),
    kept V (r := main_arg4) (by decide),
    kept V (r := main_arg5) (by decide)]
  rfl

/-- The third layer's embedding. -/
theorem at_v82 (V : Valuation τ sig (Elt F)) :
    after ops V (main_v82 : DevRef τ sig) = Cert.ReferenceIdeal.Terms.layerE2 (after ops V (main_v53 : DevRef τ sig)) (after ops V (main_v71 : DevRef τ sig)) (V (main_arg16 : DevRef τ sig)) (V (main_arg17 : DevRef τ sig)) (V (main_arg18 : DevRef τ sig)) (V (main_arg19 : DevRef τ sig)) := by
  rw [at_binary writesAt 137 rfl (by decide) (by decide) (by decide) V,
    at_ternary writesAt 136 rfl (by decide) (by decide) (by decide) (by decide) V,
    at_binary writesAt 135 rfl (by decide) (by decide) (by decide) V,
    at_unary writesAt 134 rfl (by decide) (by decide) V,
    at_nullary writesAt 133 rfl (by decide) V,
    at_binary writesAt 132 rfl (by decide) (by decide) (by decide) V,
    at_unary writesAt 131 rfl (by decide) (by decide) V,
    at_nullary writesAt 130 rfl (by decide) V,
    at_binary writesAt 129 rfl (by decide) (by decide) (by decide) V,
    at_unary writesAt 128 rfl (by decide) (by decide) V,
    at_binary writesAt 127 rfl (by decide) (by decide) (by decide) V,
    at_binary writesAt 126 rfl (by decide) (by decide) (by decide) V,
    at_ternary writesAt 125 rfl (by decide) (by decide) (by decide) (by decide) V,
    at_binary writesAt 124 rfl (by decide) (by decide) (by decide) V,
    at_unary writesAt 123 rfl (by decide) (by decide) V,
    at_nullary writesAt 122 rfl (by decide) V,
    at_binary writesAt 121 rfl (by decide) (by decide) (by decide) V,
    at_unary writesAt 120 rfl (by decide) (by decide) V,
    at_nullary writesAt 119 rfl (by decide) V,
    at_binary writesAt 118 rfl (by decide) (by decide) (by decide) V,
    at_unary writesAt 117 rfl (by decide) (by decide) V,
    at_binary writesAt 116 rfl (by decide) (by decide) (by decide) V,
    at_binary writesAt 115 rfl (by decide) (by decide) (by decide) V,
    kept V (r := main_arg16) (by decide),
    kept V (r := main_arg17) (by decide),
    kept V (r := main_arg18) (by decide),
    kept V (r := main_arg19) (by decide)]
  rfl

/-- The third layer's embedding, rows normalised. -/
theorem at_v87 (V : Valuation τ sig (Elt F)) :
    after ops V (main_v87 : DevRef τ sig) = Cert.ReferenceIdeal.Terms.normed2 (after ops V (main_v82 : DevRef τ sig)) := by
  rw [at_binary writesAt 147 rfl (by decide) (by decide) (by decide) V,
    at_unary writesAt 146 rfl (by decide) (by decide) V,
    at_binary writesAt 145 rfl (by decide) (by decide) (by decide) V,
    at_unary writesAt 144 rfl (by decide) (by decide) V,
    at_nullary writesAt 143 rfl (by decide) V,
    at_unary writesAt 142 rfl (by decide) (by decide) V,
    at_unary writesAt 141 rfl (by decide) (by decide) V,
    at_binary writesAt 140 rfl (by decide) (by decide) (by decide) V,
    at_nullary writesAt 139 rfl (by decide) V,
    at_binary writesAt 138 rfl (by decide) (by decide) (by decide) V]
  rfl

/-- The scores, from the four embeddings side by side. -/
theorem at_v118 (V : Valuation τ sig (Elt F)) :
    after ops V (main_v118 : DevRef τ sig) = Cert.ReferenceIdeal.Terms.scoresOf (Cert.ReferenceIdeal.Terms.allEmb (after ops V (main_v0 : DevRef τ sig)) (after ops V (main_v29 : DevRef τ sig)) (after ops V (main_v58 : DevRef τ sig)) (after ops V (main_v87 : DevRef τ sig))) (V (main_arg0 : DevRef τ sig)) (V (main_arg1 : DevRef τ sig)) (V (main_arg2 : DevRef τ sig)) := by
  rw [at_binary writesAt 186 rfl (by decide) (by decide) (by decide) V,
    at_unary writesAt 185 rfl (by decide) (by decide) V,
    at_unary writesAt 184 rfl (by decide) (by decide) V,
    at_binary writesAt 183 rfl (by decide) (by decide) (by decide) V,
    at_nullary writesAt 182 rfl (by decide) V,
    at_binary writesAt 181 rfl (by decide) (by decide) (by decide) V,
    at_binary writesAt 180 rfl (by decide) (by decide) (by decide) V,
    at_nullary writesAt 179 rfl (by decide) V,
    at_binary writesAt 178 rfl (by decide) (by decide) (by decide) V,
    at_binary writesAt 177 rfl (by decide) (by decide) (by decide) V,
    at_unary writesAt 176 rfl (by decide) (by decide) V,
    at_ternary writesAt 175 rfl (by decide) (by decide) (by decide) (by decide) V,
    at_binary writesAt 174 rfl (by decide) (by decide) (by decide) V,
    at_unary writesAt 173 rfl (by decide) (by decide) V,
    at_nullary writesAt 172 rfl (by decide) V,
    at_binary writesAt 171 rfl (by decide) (by decide) (by decide) V,
    at_unary writesAt 170 rfl (by decide) (by decide) V,
    at_nullary writesAt 169 rfl (by decide) V,
    at_binary writesAt 168 rfl (by decide) (by decide) (by decide) V,
    at_unary writesAt 167 rfl (by decide) (by decide) V,
    at_ternary writesAt 166 rfl (by decide) (by decide) (by decide) (by decide) V,
    at_binary writesAt 165 rfl (by decide) (by decide) (by decide) V,
    at_unary writesAt 164 rfl (by decide) (by decide) V,
    at_nullary writesAt 163 rfl (by decide) V,
    at_binary writesAt 162 rfl (by decide) (by decide) (by decide) V,
    at_unary writesAt 161 rfl (by decide) (by decide) V,
    at_nullary writesAt 160 rfl (by decide) V,
    at_binary writesAt 159 rfl (by decide) (by decide) (by decide) V,
    at_unary writesAt 158 rfl (by decide) (by decide) V,
    at_ternary writesAt 157 rfl (by decide) (by decide) (by decide) (by decide) V,
    at_binary writesAt 156 rfl (by decide) (by decide) (by decide) V,
    at_unary writesAt 155 rfl (by decide) (by decide) V,
    at_nullary writesAt 154 rfl (by decide) V,
    at_binary writesAt 153 rfl (by decide) (by decide) (by decide) V,
    at_unary writesAt 152 rfl (by decide) (by decide) V,
    at_nullary writesAt 151 rfl (by decide) V,
    at_unary writesAt 150 rfl (by decide) (by decide) V,
    at_unary writesAt 149 rfl (by decide) (by decide) V,
    at_nary4 writesAt 148 rfl (by decide) (by decide) (by decide) (by decide) (by decide) V,
    kept V (r := main_arg0) (by decide),
    kept V (r := main_arg1) (by decide),
    kept V (r := main_arg2) (by decide)]
  rfl

/-- The result buffer after the line, as the specification's `scores` of the arguments' contents. -/
theorem result_V (V : Valuation τ sig (Elt F)) :
    after ops V ((main_v118 : Ref sig .tc) : DevRef τ sig)
      = Cert.ReferenceIdeal.Terms.scores (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) := by
  rw [at_v118 V, at_v87 V, at_v82 V, at_v71 V, at_v58 V, at_v53 V, at_v42 V, at_v29 V, at_v24 V, at_v13 V, at_v0 V]
  unfold Cert.ReferenceIdeal.Terms.scores Cert.ReferenceIdeal.Terms.emb3 Cert.ReferenceIdeal.Terms.emb2 Cert.ReferenceIdeal.Terms.emb1
  rfl

/-- The same from a launch memory: the result buffer after the line is `scores` of the arguments at launch. -/
theorem result_eq (m : (ℓ : Loc nD τ sig) → Buf (Elt F) ℓ) (c : Dev nD) :
    after ops (launchContents m c) ((main_v118 : Ref sig .tc) : DevRef τ sig)
      = Cert.ReferenceIdeal.Terms.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  result_V (launchContents m c)

/-- On every device, for any float values, from any memory with zero counters: every weakly fair execution of
    @main terminates with the result buffer at the fold of the operations' results over the launch contents and
    the twenty arguments unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = after ops (launchContents m c) ((main_v118 : Ref sig .tc) : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨h c main_v118,
      (h c main_arg0).trans (kept (r := main_arg0) _ (by decide)),
      (h c main_arg1).trans (kept (r := main_arg1) _ (by decide)),
      (h c main_arg2).trans (kept (r := main_arg2) _ (by decide)),
      (h c main_arg3).trans (kept (r := main_arg3) _ (by decide)),
      (h c main_arg4).trans (kept (r := main_arg4) _ (by decide)),
      (h c main_arg5).trans (kept (r := main_arg5) _ (by decide)),
      (h c main_arg6).trans (kept (r := main_arg6) _ (by decide)),
      (h c main_arg7).trans (kept (r := main_arg7) _ (by decide)),
      (h c main_arg8).trans (kept (r := main_arg8) _ (by decide)),
      (h c main_arg9).trans (kept (r := main_arg9) _ (by decide)),
      (h c main_arg10).trans (kept (r := main_arg10) _ (by decide)),
      (h c main_arg11).trans (kept (r := main_arg11) _ (by decide)),
      (h c main_arg12).trans (kept (r := main_arg12) _ (by decide)),
      (h c main_arg13).trans (kept (r := main_arg13) _ (by decide)),
      (h c main_arg14).trans (kept (r := main_arg14) _ (by decide)),
      (h c main_arg15).trans (kept (r := main_arg15) _ (by decide)),
      (h c main_arg16).trans (kept (r := main_arg16) _ (by decide)),
      (h c main_arg17).trans (kept (r := main_arg17) _ (by decide)),
      (h c main_arg18).trans (kept (r := main_arg18) _ (by decide)),
      (h c main_arg19).trans (kept (r := main_arg19) _ (by decide))⟩)
    (run_fold m ρ)

end Cert.ReferenceIdeal.Hand

end
-- ==== Proof.lean ====
/-
  The certificate: a three-layer graph network (sparse aggregation by gather and scatter-add on the host, each layer's
  dense transform in a kernel tiled over blocks of 5000 rows, scores by gathers and row sums at the end) against its
  whole-array reference.  The two kernel programs run to their end without a fault and leave their arguments unchanged
  because each is a chain of host operations and three tiled regions whose buffers are tracked item by item; the
  idealised kernel and the idealised reference compute the same scores because each region's block of rows is the
  reference's layer restricted to those rows, and everything around the regions is the same host operations.
-/
import proofs.«156520_j49993419325916_1_alg».proof.Defs
import proofs.«156520_j49993419325916_1_alg».proof.Proof.Gen.Kernel
import proofs.«156520_j49993419325916_1_alg».proof.Proof.Gen.KernelIdeal
import proofs.«156520_j49993419325916_1_alg».proof.Proof.Gen.ReferenceIdeal
import proofs.«156520_j49993419325916_1_alg».proof.Proof.Gen.Pre_finite_inputs
import proofs.«156520_j49993419325916_1_alg».proof.Proof.K.Run
import proofs.«156520_j49993419325916_1_alg».proof.Proof.KI.Run
import proofs.«156520_j49993419325916_1_alg».proof.Proof.KI.Bridge
import proofs.«156520_j49993419325916_1_alg».proof.Proof.Core0
import proofs.«156520_j49993419325916_1_alg».proof.Proof.Core1
import proofs.«156520_j49993419325916_1_alg».proof.Proof.Core2
import proofs.«156520_j49993419325916_1_alg».proof.Proof.Ref.Run
import proofs.«156520_j49993419325916_1_alg».proof.Proof.Ref.Result

noncomputable section

namespace Cert.Proof

open Idealize.ShloMosaic Idealize.SL.Sem

/-- The word-level kernel program runs and leaves its arguments unchanged. -/
theorem frame_k : Cert.frame_Kernel := fun m ρ _ => Cert.Kernel.Layer.frame (F := Bits) m ρ

/-- The idealised kernel program runs and leaves its arguments unchanged. -/
theorem frame_ki : Cert.frame_KernelIdeal := fun m ρ _ => Cert.KernelIdeal.Layer.frame (F := Ideal) m ρ

/-- The idealisation rewrote no operation: the idealised kernel is the kernel's own text read at the exact instance. -/
theorem preserves : Cert.preserves_Kernel_KernelIdeal := trivial

/-- The idealised reference runs and leaves its arguments unchanged: it is a straight line of host operations, none of
    which writes an argument's buffer. -/
theorem frame_ri : Cert.frame_ReferenceIdeal := fun m ρ _ => Cert.ReferenceIdeal.Hand.frame (F := Ideal) m ρ

/-- From memories that agree on the arguments both idealised programs run, and both end with the scores of those arguments:
    the kernel program because its chain of buffer contents, read forwards, is the reference's computation (each tiled
    region's outputs are the reference's layer, row block by row block), the reference by unfolding its operations. -/
theorem algebraic : Cert.algebraic_KernelIdeal_ReferenceIdeal := by
  intro m ρ m' ρ' _ hagree
  refine ⟨fun c => Cert.ReferenceIdeal.Terms.scores (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Layer.kernel_value m Cert.Core.core_e0 Cert.Core.core_n0 Cert.Core.core_e1 Cert.Core.core_n1 Cert.Core.core_n2 c), (h c).2⟩)
      (Cert.KernelIdeal.Layer.run_res m ρ)
  · refine (θ_run Cert.ReferenceIdeal.defs _ _).mono
      (fun r h c => ⟨(h c).1.trans ((Cert.ReferenceIdeal.Hand.result_eq (F := Ideal) m' c).trans ?_), (h c).2⟩)
      (Cert.ReferenceIdeal.Hand.run_res (F := Ideal) m' ρ')
    obtain ⟨h0, h1, h2, h3, h4, h5, h6, h7, h8, h9, h10, h11, h12, h13, h14, h15, h16, h17, h18, h19⟩ := hagree c
    rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
